-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S1001x128 : Shape := ⟨2, ![1001, 128]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S128x1 : Shape := ⟨2, ![128, 1]⟩
abbrev S1 : Shape := ⟨1, ![1]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S128 .f32) (main_arg25 : FVec F S128 .f32) (main_arg26 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg26
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg21 : FVec F S1024 .f32) (main_arg22 : FVec F S1024 .f32) (main_arg23 : FVec F S128 .f32) (main_arg24 : FVec F S128 .f32) (main_arg25 : FVec F S128 .f32) (main_arg26 : FVec F S128 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg21
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg22
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_v98 main_v101 main_c_39

def fn_part4 {F : FTy → Type} [FloatOps F] (main_arg17 : FVec F S128x1 .f32) (main_arg18 : FVec F S1 .f32) (main_arg19 : FVec F S1024 .f32) (main_arg20 : FVec F S1024 .f32) (main_arg21 : FVec F S1024 .f32) (main_arg22 : FVec F S1024 .f32) (main_arg23 : FVec F S128 .f32) (main_arg24 : FVec F S128 .f32) (main_arg25 : FVec F S128 .f32) (main_arg26 : FVec F S128 .f32) (main_v63 : IVec S_ 1) (main_v67 : IVec S_ 1) : IVec S_ 1 :=
  let main_v68 : IVec S_ 1 := andi main_v63 main_v67
  let main_v69 : FVec F S128x1 .f32 := Host.absf main_arg17
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg18
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1024 .f32 := Host.absf main_arg19
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg20
  let main_cst_32 : FVec F S_ .f32 := constant S_ .f32 0x7F800000#32
  fn_part5 (F := F) main_arg21 main_arg22 main_arg23 main_arg24 main_arg25 main_arg26 main_v83 main_v84 main_cst_32

def fn_part3 {F : FTy → Type} [FloatOps F] (main_arg14 : FVec F S1024 .f32) (main_arg15 : FVec F S1024x128 .f32) (main_arg16 : FVec F S128 .f32) (main_arg17 : FVec F S128x1 .f32) (main_arg18 : FVec F S1 .f32) (main_arg19 : FVec F S1024 .f32) (main_arg20 : FVec F S1024 .f32) (main_arg21 : FVec F S1024 .f32) (main_arg22 : FVec F S1024 .f32) (main_arg23 : FVec F S128 .f32) (main_arg24 : FVec F S128 .f32) (main_arg25 : FVec F S128 .f32) (main_arg26 : FVec F S128 .f32) (main_v48 : IVec S_ 1) (main_v49 : FVec F S128x1024 .f32) (main_v50 : FVec F S128x1024 .f32) : IVec S_ 1 :=
  let main_v51 : IVec S128x1024 1 := cmpf .olt main_v49 main_v50
  let main_c_19 : IVec S_ 1 := constantI S_ 1 1#1
  let main_v52 : IVec S_ 1 := (fun x v => Host.reduce IntOp.andi x v reducesTo_S128x1024_S_d0_1 h_S_) main_v51 main_c_19
  let main_v53 : IVec S_ 1 := andi main_v48 main_v52
  let main_v54 : FVec F S1024 .f32 := Host.absf main_arg14
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x128 .f32 := Host.absf main_arg15
  let main_cst_22 : FVec F S_ .f32 := constant S_ .f32 0x7F800000#32
  let main_v60 : FVec F S1024x128 .f32 := broadcastInDim S1024x128 ![] bcast_S_S1024x128 main_cst_22
  let main_v61 : IVec S1024x128 1 := cmpf .olt main_v59 main_v60
  let main_c_23 : IVec S_ 1 := constantI S_ 1 1#1
  let main_v62 : IVec S_ 1 := (fun x v => Host.reduce IntOp.andi x v reducesTo_S1024x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_arg26 main_v63 main_v67

def fn_part2 {F : FTy → Type} [FloatOps F] (main_arg10 : FVec F S128x128 .f32) (main_arg11 : FVec F S128 .f32) (main_arg12 : FVec F S128x128 .f32) (main_arg13 : FVec F S128x1024 .f32) (main_arg14 : FVec F S1024 .f32) (main_arg15 : FVec F S1024x128 .f32) (main_arg16 : FVec F S128 .f32) (main_arg17 : FVec F S128x1 .f32) (main_arg18 : FVec F S1 .f32) (main_arg19 : FVec F S1024 .f32) (main_arg20 : FVec F S1024 .f32) (main_arg21 : FVec F S1024 .f32) (main_arg22 : FVec F S1024 .f32) (main_arg23 : FVec F S128 .f32) (main_arg24 : FVec F S128 .f32) (main_arg25 : FVec F S128 .f32) (main_arg26 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x1024 .f32 := Host.absf main_arg13
  let main_cst_18 : FVec F S_ .f32 := constant S_ .f32 0x7F800000#32
  let main_v50 : FVec F S128x1024 .f32 := broadcastInDim S128x1024 ![] bcast_S_S128x1024 main_cst_18
  fn_part3 (F := F) main_arg14 main_arg15 main_arg16 main_arg17 main_arg18 main_arg19 main_arg20 main_arg21 main_arg22 main_arg23 main_arg24 main_arg25 main_arg26 main_v48 main_v49 main_v50

def fn_part1 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x1024 .f32) (main_arg14 : FVec F S1024 .f32) (main_arg15 : FVec F S1024x128 .f32) (main_arg16 : FVec F S128 .f32) (main_arg17 : FVec F S128x1 .f32) (main_arg18 : FVec F S1 .f32) (main_arg19 : FVec F S1024 .f32) (main_arg20 : FVec F S1024 .f32) (main_arg21 : FVec F S1024 .f32) (main_arg22 : FVec F S1024 .f32) (main_arg23 : FVec F S128 .f32) (main_arg24 : FVec F S128 .f32) (main_arg25 : FVec F S128 .f32) (main_arg26 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S100000 32) (main_arg1 : IVec S2x600000 32) (main_arg2 : IVec S100000 32) (main_arg3 : FVec F S1001x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x1024 .f32) (main_arg14 : FVec F S1024 .f32) (main_arg15 : FVec F S1024x128 .f32) (main_arg16 : FVec F S128 .f32) (main_arg17 : FVec F S128x1 .f32) (main_arg18 : FVec F S1 .f32) (main_arg19 : FVec F S1024 .f32) (main_arg20 : FVec F S1024 .f32) (main_arg21 : FVec F S1024 .f32) (main_arg22 : FVec F S1024 .f32) (main_arg23 : FVec F S128 .f32) (main_arg24 : FVec F S128 .f32) (main_arg25 : FVec F S128 .f32) (main_arg26 : FVec F S128 .f32) : IVec S_ 1 :=
  let main_v0 : FVec F S1001x128 .f32 := Host.absf main_arg3
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000 : Shape := ⟨1, ![100000]⟩
abbrev S2x600000 : Shape := ⟨2, ![2, 600000]⟩
abbrev S1001x128 : Shape := ⟨2, ![1001, 128]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩
abbrev S4096 : Shape := ⟨1, ![4096]⟩
abbrev S4096x128 : Shape := ⟨2, ![4096, 128]⟩
abbrev S4096x1 : Shape := ⟨2, ![4096, 1]⟩
abbrev S1024x1024 : Shape := ⟨2, ![1024, 1024]⟩
abbrev S1x1024 : Shape := ⟨2, ![1, 1024]⟩

abbrev nBuf : Space → Nat
  | .hbm => 99
  | .vmem => 45
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S100000, .i32⟩
  | .hbm, ⟨3, _⟩ => ⟨S1001x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x1024, .f32⟩
  | .hbm, ⟨14, _⟩ => ⟨S1024, .f32⟩
  | .hbm, ⟨15, _⟩ => ⟨S1024x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x600000, .i32⟩
  | .hbm, ⟨28, _⟩ => ⟨S600000, .i32⟩
  | .hbm, ⟨29, _⟩ => ⟨S1x600000, .i32⟩
  | .hbm, ⟨30, _⟩ => ⟨S600000, .i32⟩
  | .hbm, ⟨31, _⟩ => ⟨S_, .i32⟩
  | .hbm, ⟨32, _⟩ => ⟨S100000, .i32⟩
  | .hbm, ⟨33, _⟩ => ⟨S100000, .i1⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S100000, .i32⟩
  | .hbm, ⟨38, _⟩ => ⟨S100000x1, .i32⟩
  | .hbm, ⟨39, _⟩ => ⟨S100000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x128, .f32⟩
  | .hbm, ⟨77, _⟩ => ⟨S_, .f32⟩
  | .hbm, ⟨78, _⟩ => ⟨S100000x128, .f32⟩
  | .hbm, ⟨79, _⟩ => ⟨S600000x1, .i32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S4096, .f32⟩
  | .hbm, ⟨86, _⟩ => ⟨S100000x1, .i32⟩
  | .hbm, ⟨87, _⟩ => ⟨S4096, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S_, .f32⟩
  | .hbm, ⟨92, _⟩ => ⟨S4096x128, .f32⟩
  | .hbm, ⟨93, _⟩ => ⟨S100000x1, .i32⟩
  | .hbm, ⟨94, _⟩ => ⟨S4096x128, .f32⟩
  | .hbm, ⟨95, _⟩ => ⟨S4096x1, .f32⟩
  | .hbm, ⟨96, _⟩ => ⟨S4096x128, .f32⟩
  | .hbm, ⟨97, _⟩ => ⟨S4096x128, .f32⟩
  | .hbm, ⟨98, _⟩ => ⟨S4096, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S1024x128, .f32⟩
  | .local _ .vmem, ⟨28, _⟩ => ⟨S1024x128, .f32⟩
  | .local _ .vmem, ⟨29, _⟩ => ⟨S128x1024, .f32⟩
  | .local _ .vmem, ⟨30, _⟩ => ⟨S1024, .f32⟩
  | .local _ .vmem, ⟨31, _⟩ => ⟨S1024x128, .f32⟩
  | .local _ .vmem, ⟨32, _⟩ => ⟨S128, .f32⟩
  | .local _ .vmem, ⟨33, _⟩ => ⟨S128x1, .f32⟩
  | .local _ .vmem, ⟨34, _⟩ => ⟨S1, .f32⟩
  | .local _ .vmem, ⟨35, _⟩ => ⟨S1024, .f32⟩
  | .local _ .vmem, ⟨36, _⟩ => ⟨S1024, .f32⟩
  | .local _ .vmem, ⟨37, _⟩ => ⟨S1024, .f32⟩
  | .local _ .vmem, ⟨38, _⟩ => ⟨S1024, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S1024, .f32⟩
  | .local _ .vmem, ⟨44, _⟩ => ⟨S1024, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_6 : Ref sig .tc := ⟨.hbm, 68, rfl⟩
abbrev main_v33 : Ref sig .tc := ⟨.hbm, 69, rfl⟩
abbrev main_v34 : Ref sig .tc := ⟨.hbm, 70, rfl⟩
abbrev main_c_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_8 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_11 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg12_0 : Ref sig .tc := ⟨.vmem, 40, rfl⟩
abbrev cc3_stg13_0 : Ref sig .tc := ⟨.vmem, 41, rfl⟩
abbrev cc3_stg14_0 : Ref sig .tc := ⟨.vmem, 42, rfl⟩
abbrev cc3_stg15_0 : Ref sig .tc := ⟨.vmem, 43, rfl⟩
abbrev cc3_stg15_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem13_0 : DmaSem sig := 41
abbrev cc3_sem14_0 : DmaSem sig := 42
abbrev cc3_sem15_0 : DmaSem sig := 43
abbrev cc3_sem15_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S1024 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S4096 : S_.BroadcastsInDim S4096 (![] : Fin 0 → Fin S4096.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  broadcasts_S1x128_S1024x128 : S1x128.Broadcasts S1024x128
  inb_S128x1_S128x1_0_0 : ∀ a, (![0, 0] : Fin 2 → Nat) a + S128x1.size a ≤ S128x1.size a
  h_S128x1 : 0 < S128x1.numel
  shapeCasts_S128x1_S128 : S128x1.ShapeCasts S128
  reduces_S1024x128_S1024 : S1024x128.Reduces [1] S1024
  inb_S1_S1_0 : ∀ a, (![0] : Fin 1 → Nat) a + S1.size a ≤ S1.size a
  h_S1 : 0 < S1.numel
  inpos_S1_p0 : ∀ a, (![0] : Fin 1 → Nat) a < S1.size a
  gather_S1001x128_S100000x1_S100000x128_1_0_n_n_0_1_1128_wf : GatherDims.WF S1001x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S128x1024.size a
  hwx3_1 : ∀ i : grid3.Coords, EltTy.bits .f32 = 32 ∨ (Rect.block (s := S128x1024) S128x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S1024x128.size a
  hwx3_3 : ∀ i : grid3.Coords, EltTy.bits .f32 = 32 ∨ (Rect.block (s := S1024x128) S1024x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024.size a ≤ S1024.size a
  hwx3_7 : ∀ i : grid3.Coords, EltTy.bits .f32 = 32 ∨ (Rect.block (s := S1024) S1024.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024.size a ≤ S1024.size a
  hwx3_8 : ∀ i : grid3.Coords, EltTy.bits .f32 = 32 ∨ (Rect.block (s := S1024) S1024.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1024.size a ≤ S1024.size a
  hwx3_9 : ∀ i : grid3.Coords, EltTy.bits .f32 = 32 ∨ (Rect.block (s := S1024) S1024.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1024.size a ≤ S1024.size a
  hwx3_10 : ∀ i : grid3.Coords, EltTy.bits .f32 = 32 ∨ (Rect.block (s := S1024) S1024.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128.size a ≤ S128.size a
  hwx3_13 : ∀ i : grid3.Coords, EltTy.bits .f32 = 32 ∨ (Rect.block (s := S128) S128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S1024.size a ≤ S4096.size a
  hwx3_15 : ∀ i : grid3.Coords, EltTy.bits .f32 = 32 ∨ (Rect.block (s := S4096) S1024.size (cc3_transform_15 i) (hinb3_15 i)).WholeWords (EltTy.packing .f32)

variable [Facts₀]

def gather_S1001x128_S100000x1_S100000x128_1_0_n_n_0_1_1128 : GatherDims S1001x128 S100000x1 S100000x128 where
  offsetDims := [1]
  collapsedSliceDims := [0]
  operandBatchingDims := []
  startIndicesBatchingDims := []
  startIndexMap := [0]
  indexVectorDim := 1
  sliceSizes := ![1, 128]
  wf := gather_S1001x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S1024x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg20) S1024.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg21) S1024.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg22) S1024.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg23) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg24) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg25) S128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg26) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v56) S1024.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

class Facts : Prop extends Facts₀ where

variable [Facts]
-- ==== ReferenceIdeal.lean ====
abbrev S100000 : Shape := ⟨1, ![100000]⟩
abbrev S2x600000 : Shape := ⟨2, ![2, 600000]⟩
abbrev S1001x128 : Shape := ⟨2, ![1001, 128]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S1x128 : Shape := ⟨2, ![1, 128]⟩
abbrev S4096 : Shape := ⟨1, ![4096]⟩
abbrev S4096x128 : Shape := ⟨2, ![4096, 128]⟩
abbrev S4096x1 : Shape := ⟨2, ![4096, 1]⟩
abbrev S4096x1024 : Shape := ⟨2, ![4096, 1024]⟩
abbrev S1x1024 : Shape := ⟨2, ![1, 1024]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S1001x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x1024, .f32⟩
  | 14 => ⟨S1024, .f32⟩
  | 15 => ⟨S1024x128, .f32⟩
  | 16 => ⟨S128, .f32⟩
  | 17 => ⟨S128x1, .f32⟩
  | 18 => ⟨S1, .f32⟩
  | 19 => ⟨S1024, .f32⟩
  | 20 => ⟨S1024, .f32⟩
  | 21 => ⟨S1024, .f32⟩
  | 22 => ⟨S1024, .f32⟩
  | 23 => ⟨S128, .f32⟩
  | 24 => ⟨S128, .f32⟩
  | 25 => ⟨S128, .f32⟩
  | 26 => ⟨S128, .f32⟩
  | 27 => ⟨S1x600000, .i32⟩
  | 28 => ⟨S600000, .i32⟩
  | 29 => ⟨S1x600000, .i32⟩
  | 30 => ⟨S600000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .i1⟩
  | 62 => ⟨S_, .f32⟩
  | 63 => ⟨S100000x128, .f32⟩
  | 64 => ⟨S100000x128, .f32⟩
  | 65 => ⟨S100000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S_, .f32⟩
  | 76 => ⟨S100000x128, .f32⟩
  | 77 => ⟨S600000x1, .i32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .f32⟩
  | 91 => ⟨S100000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S100000x128, .f32⟩
  | 110 => ⟨S100000x128, .f32⟩
  | 111 => ⟨S_, .f32⟩
  | 112 => ⟨S100000x128, .f32⟩
  | 113 => ⟨S100000x128, .i1⟩
  | 114 => ⟨S_, .f32⟩
  | 115 => ⟨S100000x128, .f32⟩
  | 116 => ⟨S100000x128, .f32⟩
  | 117 => ⟨S100000x128, .f32⟩
  | 118 => ⟨S_, .f32⟩
  | 119 => ⟨S100000, .f32⟩
  | 120 => ⟨S_, .f32⟩
  | 121 => ⟨S4096, .f32⟩
  | 122 => ⟨S100000x1, .i32⟩
  | 123 => ⟨S4096, .f32⟩
  | 124 => ⟨S_, .f32⟩
  | 125 => ⟨S4096, .f32⟩
  | 126 => ⟨S4096, .f32⟩
  | 127 => ⟨S_, .f32⟩
  | _ => ⟨S100000, .i32⟩

abbrev hbmTy0_1 (i : Nat) : BufTy := match i % 128 with
  | 0 => ⟨S4096x128, .f32⟩
  | 1 => ⟨S100000x1, .i32⟩
  | 2 => ⟨S4096x128, .f32⟩
  | 3 => ⟨S4096x1, .f32⟩
  | 4 => ⟨S4096x128, .f32⟩
  | 5 => ⟨S4096x128, .f32⟩
  | 6 => ⟨S4096x1024, .f32⟩
  | 7 => ⟨S1x1024, .f32⟩
  | 8 => ⟨S4096x1024, .f32⟩
  | 9 => ⟨S4096x1024, .f32⟩
  | 10 => ⟨S1x1024, .f32⟩
  | 11 => ⟨S4096x1024, .f32⟩
  | 12 => ⟨S4096x1024, .f32⟩
  | 13 => ⟨S_, .f32⟩
  | 14 => ⟨S1024, .f32⟩
  | 15 => ⟨S1024, .f32⟩
  | 16 => ⟨S1024, .f32⟩
  | 17 => ⟨S1x1024, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S_, .f32⟩
  | 27 => ⟨S4096x1024, .f32⟩
  | 28 => ⟨S4096x1024, .i1⟩
  | 29 => ⟨S_, .f32⟩
  | 30 => ⟨S4096x1024, .f32⟩
  | 31 => ⟨S4096x1024, .f32⟩
  | 32 => ⟨S4096x1024, .f32⟩
  | 33 => ⟨S4096x128, .f32⟩
  | 34 => ⟨S1x128, .f32⟩
  | 35 => ⟨S4096x128, .f32⟩
  | 36 => ⟨S4096x128, .f32⟩
  | 37 => ⟨S1x128, .f32⟩
  | 38 => ⟨S4096x128, .f32⟩
  | 39 => ⟨S4096x128, .f32⟩
  | 40 => ⟨S_, .f32⟩
  | 41 => ⟨S128, .f32⟩
  | 42 => ⟨S128, .f32⟩
  | 43 => ⟨S128, .f32⟩
  | 44 => ⟨S1x128, .f32⟩
  | 45 => ⟨S4096x128, .f32⟩
  | 46 => ⟨S4096x128, .f32⟩
  | 47 => ⟨S1x128, .f32⟩
  | 48 => ⟨S4096x128, .f32⟩
  | 49 => ⟨S4096x128, .f32⟩
  | 50 => ⟨S1x128, .f32⟩
  | 51 => ⟨S4096x128, .f32⟩
  | 52 => ⟨S4096x128, .f32⟩
  | 53 => ⟨S_, .f32⟩
  | 54 => ⟨S4096x128, .f32⟩
  | 55 => ⟨S4096x128, .i1⟩
  | 56 => ⟨S_, .f32⟩
  | 57 => ⟨S4096x128, .f32⟩
  | 58 => ⟨S4096x128, .f32⟩
  | 59 => ⟨S4096x128, .f32⟩
  | 60 => ⟨S4096x1, .f32⟩
  | 61 => ⟨S1x1, .f32⟩
  | 62 => ⟨S4096x1, .f32⟩
  | 63 => ⟨S4096x1, .f32⟩
  | 64 => ⟨S4096, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_v27 : Ref sig .tc := ⟨.hbm, 65, rfl⟩
abbrev main_c_3 : Ref sig .tc := ⟨.hbm, 66, rfl⟩
abbrev main_v28 : Ref sig .tc := ⟨.hbm, 67, rfl⟩
abbrev main_v29 : Ref sig .tc := ⟨.hbm, 68, rfl⟩
abbrev main_c_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_5 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_v44 : Ref sig .tc := ⟨.hbm, 91, rfl⟩
abbrev main_c_6 : Ref sig .tc := ⟨.hbm, 92, rfl⟩
abbrev main_v45 : Ref sig .tc := ⟨.hbm, 93, rfl⟩
abbrev main_v46 : Ref sig .tc := ⟨.hbm, 94, rfl⟩
abbrev main_c_7 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_8 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_v61 : Ref sig .tc := ⟨.hbm, 117, rfl⟩
abbrev main_cst_9 : Ref sig .tc := ⟨.hbm, 118, rfl⟩
abbrev main_v62 : Ref sig .tc := ⟨.hbm, 119, rfl⟩
abbrev main_cst_10 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_cst_11 : Ref sig .tc := ⟨.hbm, 124, rfl⟩
abbrev main_v66 : Ref sig .tc := ⟨.hbm, 125, rfl⟩
abbrev main_v67 : Ref sig .tc := ⟨.hbm, 126, rfl⟩
abbrev main_cst_12 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_13 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_cst_0 : Ref sig .tc := ⟨.hbm, 157, rfl⟩
abbrev main_call3_v2 : Ref sig .tc := ⟨.hbm, 158, rfl⟩
abbrev main_call3_v3 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_14 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S4096 : S_.BroadcastsInDim S4096 (![] : Fin 0 → Fin S4096.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S1024 : S_.BroadcastsInDim S1024 (![] : Fin 0 → Fin S1024.rank)
  bcast_S_S4096x1024 : S_.BroadcastsInDim S4096x1024 (![] : Fin 0 → Fin S4096x1024.rank)
  bcast_S1x128_S4096x128_0_1 : S1x128.BroadcastsInDim S4096x128 (![0, 1] : Fin 2 → Fin S4096x128.rank)
  bcast_S_S128 : S_.BroadcastsInDim S128 (![] : Fin 0 → Fin S128.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  gather_S1001x128_S100000x1_S100000x128_1_0_n_n_0_1_1128_wf : GatherDims.WF S1001x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x1024_S4096x1024_1_0_0_1_n_n_wf : DotDims.WF S4096x128 S128x1024 S4096x1024 [1] [0] [0] [1] [] []
  dot_S4096x1024_S1024x128_S4096x128_1_0_0_1_n_n_wf : DotDims.WF S4096x1024 S1024x128 S4096x128 [1] [0] [0] [1] [] []
  dot_S4096x128_S128x1_S4096x1_1_0_0_1_n_n_wf : DotDims.WF S4096x128 S128x1 S4096x1 [1] [0] [0] [1] [] []

variable [Facts₀]

def gather_S1001x128_S100000x1_S100000x128_1_0_n_n_0_1_1128 : GatherDims S1001x128 S100000x1 S100000x128 where
  offsetDims := [1]
  collapsedSliceDims := [0]
  operandBatchingDims := []
  startIndicesBatchingDims := []
  startIndexMap := [0]
  indexVectorDim := 1
  sliceSizes := ![1, 128]
  wf := gather_S1001x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.KRun.lean ====
/-
  The kernel program's run with its final contents named: every weakly fair execution of the program — four
  kernel regions among stretches of host operations — terminates, and in every final state each buffer that lives
  across the regions holds the contents obtained by folding the program over the launch memory: a host stretch
  applies its operations in order, a region replaces its arrays by what its write-backs leave. In particular the
  result buffer holds the last region's output array, and the argument arrays are as launched.
-/
import proofs.«153378_j9809705305013_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every buffer that lives across the regions at the folded
    contents after the last region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run with the result buffer and the 27 argument arrays read out. -/
theorem run_out : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun s h c =>
    ⟨h c _ (mem_uc main_v56 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c),
     (h c _ (mem_uc main_arg19 (by decide))).trans (W8_main_arg19 m ρ c),
     (h c _ (mem_uc main_arg20 (by decide))).trans (W8_main_arg20 m ρ c),
     (h c _ (mem_uc main_arg21 (by decide))).trans (W8_main_arg21 m ρ c),
     (h c _ (mem_uc main_arg22 (by decide))).trans (W8_main_arg22 m ρ c),
     (h c _ (mem_uc main_arg23 (by decide))).trans (W8_main_arg23 m ρ c),
     (h c _ (mem_uc main_arg24 (by decide))).trans (W8_main_arg24 m ρ c),
     (h c _ (mem_uc main_arg25 (by decide))).trans (W8_main_arg25 m ρ c),
     (h c _ (mem_uc main_arg26 (by decide))).trans (W8_main_arg26 m ρ c)⟩)
    (run_all m ρ)

end Cert.KernelIdeal.KRun

end
-- ==== Proof.Model.lean ====
/-
  The mathematical content of the reference, as pure functions of arrays.

  A graph network on 100000 nodes with 128 features: node features are rows of an embedding table; three rounds of
  message passing, each replacing the features `h` by `leaky (A·W_rel + b + h·W_root)` where row `i` of `A` is the sum of the rows
  `h[src e]` over the edges `e` with `dst e = i`; then a mean over the nodes of each of 4096 graphs (sum divided by
  `max(count, 1)`), and a three-layer perceptron with two normalisations `(z − μ)·(σ² + ε)^(−1/2)·γ + β`.
  `leaky x = x` where `x ≥ 0` and `0.01·x` elsewhere. Everything is stated for any float interpretation `F`.
-/
import proofs.«153378_j9809705305013_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- An array of floats of shape `s`. -/
abbrev Fv (F : FTy → Type) (s : Shape) : Type := (⟨s, .f32⟩ : BufTy).Contents (Elt F)
/-- An array of 32-bit integers of shape `s`. -/
abbrev Iv (F : FTy → Type) (s : Shape) : Type := (⟨s, .i32⟩ : BufTy).Contents (Elt F)

/-- The sources of the edges: row 0 of the 2 × 600000 edge table. -/
def srcOf (e : (Iv F S2x600000)) : (Iv F S600000) :=
  shapeCast S600000 (extractStridedSlice S1x600000 ![0, 0] e slices_S2x600000_S1x600000_0_0) shapeCasts_S1x600000_S600000

/-- The targets of the edges: row 1 of the edge table. -/
def dstOf (e : (Iv F S2x600000)) : (Iv F S600000) :=
  shapeCast S600000 (extractStridedSlice S1x600000 ![1, 0] e slices_S2x600000_S1x600000_1_0) shapeCasts_S1x600000_S600000

/-- Node labels as a column of row numbers of the 1001-row table: a negative label counts from the end. -/
def labelCol (x : (Iv F S100000)) : (Iv F S100000x1) :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 1001#32))) x)

/-- The initial node features: each node's row of the embedding table. -/
def embRows (emb : (Fv F S1001x128)) (x : (Iv F S100000)) : (Fv F S100000x128) :=
  Host.gather gather_S1001x128_S100000x1_S100000x128_1_0_n_n_0_1_1128 emb (labelCol x)

/-- Edge sources as a column of row numbers of the 100000-row feature array: a negative one counts from the end. -/
def srcCol (s : (Iv F S600000)) : (Iv F S600000x1) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The aggregated messages: row `i` is the sum of the rows `h[src e]` over the edges `e` with `dst e = i`. -/
def aggOf (h : (Fv F S100000x128)) (src dst : (Iv F S600000)) : (Fv F S100000x128) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h (srcCol src))

/-- `x` where `x ≥ 0`, `0.01·x` elsewhere, on the node features. -/
def leakyN (x : (Fv F S100000x128)) : (Fv F S100000x128) :=
  select (cmpf .oge x (broadcastInDim S100000x128 ![] bcast_S_S100000x128 (constant S_ .f32 0x00000000#32))) x
    (mulf (broadcastInDim S100000x128 ![] bcast_S_S100000x128 (constant S_ .f32 0x3C23D70A#32)) x)

/-- One round of message passing from the aggregated messages `agg` and the features `h`:
    `leaky ((agg·W_rel + b) + h·W_root)`. -/
def convOut (agg h : (Fv F S100000x128)) (wrel : (Fv F S128x128)) (b : (Fv F S128)) (wroot : (Fv F S128x128)) : (Fv F S100000x128) :=
  leakyN (addf (addf (Host.dotGeneral dot_S100000x128_S128x128_S100000x128_1_0_0_1_n_n none agg wrel)
      (broadcastInDim S100000x128 ![0, 1] bcast_S1x128_S100000x128_0_1 (broadcastInDim S1x128 ![1] bcast_S128_S1x128_1 b)))
    (Host.dotGeneral dot_S100000x128_S128x128_S100000x128_1_0_0_1_n_n none h wroot))

/-- The mean of the node features over the nodes of each graph: the per-graph sum divided by `max(count, 1)`. -/
def pooledOf (h : (Fv F S100000x128)) (batch : (Iv F S100000)) : (Fv F S4096x128) :=
  Host.divf
    (Host.scatterAdd scatter_S4096x128_S100000x1_S100000x128_1_0_0_1
      (broadcastInDim S4096x128 ![] bcast_S_S4096x128 (constant S_ .f32 0x00000000#32))
      (broadcastInDim S100000x1 ![0] bcast_S100000_S100000x1_0 batch) h)
    (broadcastInDim S4096x128 ![0, 1] bcast_S4096x1_S4096x128_0_1 (broadcastInDim S4096x1 ![0] bcast_S4096_S4096x1_0
      (maximumf
        (Host.scatterAdd scatter_S4096_S100000x1_S100000_n_0_0_1
          (broadcastInDim S4096 ![] bcast_S_S4096 (constant S_ .f32 0x00000000#32))
          (broadcastInDim S100000x1 ![0] bcast_S100000_S100000x1_0 batch)
          (broadcastInDim S100000 ![] bcast_S_S100000 (constant S_ .f32 0x3F800000#32)))
        (broadcastInDim S4096 ![] bcast_S_S4096 (constant S_ .f32 0x3F800000#32)))))

/-- `leaky` on the hidden layer. -/
def leakyH (x : (Fv F S4096x1024)) : (Fv F S4096x1024) :=
  select (cmpf .oge x (broadcastInDim S4096x1024 ![] bcast_S_S4096x1024 (constant S_ .f32 0x00000000#32))) x
    (mulf (broadcastInDim S4096x1024 ![] bcast_S_S4096x1024 (constant S_ .f32 0x3C23D70A#32)) x)

/-- `leaky` on the second layer. -/
def leakyG (x : (Fv F S4096x128)) : (Fv F S4096x128) :=
  select (cmpf .oge x (broadcastInDim S4096x128 ![] bcast_S_S4096x128 (constant S_ .f32 0x00000000#32))) x
    (mulf (broadcastInDim S4096x128 ![] bcast_S_S4096x128 (constant S_ .f32 0x3C23D70A#32)) x)

/-- A vector of 1024 as a row repeated over the 4096 graphs. -/
def rowH (v : (Fv F S1024)) : (Fv F S4096x1024) :=
  broadcastInDim S4096x1024 ![0, 1] bcast_S1x1024_S4096x1024_0_1 (broadcastInDim S1x1024 ![1] bcast_S1024_S1x1024_1 v)

/-- A vector of 128 as a row repeated over the 4096 graphs. -/
def rowG (v : (Fv F S128)) : (Fv F S4096x128) :=
  broadcastInDim S4096x128 ![0, 1] bcast_S1x128_S4096x128_0_1 (broadcastInDim S1x128 ![1] bcast_S128_S1x128_1 v)

/-- The hidden layer: `leaky (((p·W₁ + b₁) − μ₁)·(σ₁² + ε)^(−1/2)·γ₁ + β₁)`. -/
def hidden (p : (Fv F S4096x128)) (w1 : (Fv F S128x1024)) (b1 g1 be1 m1 v1 : (Fv F S1024)) : (Fv F S4096x1024) :=
  leakyH (addf (mulf (mulf (subf (addf (Host.dotGeneral dot_S4096x128_S128x1024_S4096x1024_1_0_0_1_n_n none p w1) (rowH b1)) (rowH m1))
      (rowH (Host.rsqrt (addf v1 (broadcastInDim S1024 ![] bcast_S_S1024 (constant S_ .f32 0x3727C5AC#32)))))) (rowH g1)) (rowH be1))

/-- The second layer before its `leaky`: `((z·W₂ + b₂) − μ₂)·(σ₂² + ε)^(−1/2)·γ₂ + β₂`. -/
def second (z : (Fv F S4096x1024)) (w2 : (Fv F S1024x128)) (b2 g2 be2 m2 v2 : (Fv F S128)) : (Fv F S4096x128) :=
  addf (mulf (mulf (subf (addf (Host.dotGeneral dot_S4096x1024_S1024x128_S4096x128_1_0_0_1_n_n none z w2) (rowG b2)) (rowG m2))
      (rowG (Host.rsqrt (addf v2 (broadcastInDim S128 ![] bcast_S_S128 (constant S_ .f32 0x3727C5AC#32)))))) (rowG g2)) (rowG be2)

/-- The read-out: `leaky(y)·w₃ + b₃`, one number per graph. -/
def readout (y : (Fv F S4096x128)) (w3 : (Fv F S128x1)) (b3 : (Fv F S1)) : (Fv F S4096) :=
  shapeCast S4096 (addf (Host.dotGeneral dot_S4096x128_S128x1_S4096x1_1_0_0_1_n_n none (leakyG y) w3)
      (broadcastInDim S4096x1 ![0, 1] bcast_S1x1_S4096x1_0_1 (broadcastInDim S1x1 ![1] bcast_S1_S1x1_1 b3))) shapeCasts_S4096x1_S4096

/-- The whole perceptron on the pooled features. -/
def mlpOut (p : (Fv F S4096x128)) (w1 : (Fv F S128x1024)) (b1 : (Fv F S1024)) (w2 : (Fv F S1024x128)) (b2 : (Fv F S128)) (w3 : (Fv F S128x1)) (b3 : (Fv F S1))
    (g1 be1 m1 v1 : (Fv F S1024)) (g2 be2 m2 v2 : (Fv F S128)) : (Fv F S4096) :=
  readout (second (hidden p w1 b1 g1 be1 m1 v1) w2 b2 g2 be2 m2 v2) w3 b3

/-- The network: three rounds of message passing from the embedded labels, the per-graph mean, the perceptron. -/
def model (x : (Iv F S100000)) (e : (Iv F S2x600000)) (batch : (Iv F S100000)) (emb : (Fv F S1001x128))
    (wr1 : (Fv F S128x128)) (b1 : (Fv F S128)) (wo1 : (Fv F S128x128)) (wr2 : (Fv F S128x128)) (b2 : (Fv F S128)) (wo2 : (Fv F S128x128))
    (wr3 : (Fv F S128x128)) (b3 : (Fv F S128)) (wo3 : (Fv F S128x128))
    (wl1 : (Fv F S128x1024)) (bl1 : (Fv F S1024)) (wl2 : (Fv F S1024x128)) (bl2 : (Fv F S128)) (wl3 : (Fv F S128x1)) (bl3 : (Fv F S1))
    (g1 be1 m1 v1 : (Fv F S1024)) (g2 be2 m2 v2 : (Fv F S128)) : (Fv F S4096) :=
  let h0 := embRows emb x
  let h1 := convOut (aggOf h0 (srcOf e) (dstOf e)) h0 wr1 b1 wo1
  let h2 := convOut (aggOf h1 (srcOf e) (dstOf e)) h1 wr2 b2 wo2
  let h3 := convOut (aggOf h2 (srcOf e) (dstOf e)) h2 wr3 b3 wo3
  mlpOut (pooledOf h3 batch) wl1 bl1 wl2 bl2 wl3 bl3 g1 be1 m1 v1 g2 be2 m2 v2

end Cert.Spec

end
-- ==== Proof.KHost.lean ====
/-
  The kernel program's host stretches, read. Between the regions the program applies the same whole-array operations as
  the reference: before the first region it gathers the embedded labels and the first aggregated messages; before the
  second and third it gathers and aggregates again from the previous region's output; before the last it takes the
  per-graph means. Each stretch is a fold over a list of operations; here each buffer a later step reads is computed
  from the contents the stretch starts from, whatever they are, and each buffer the stretch does not write is kept.
-/
import proofs.«153378_j9809705305013_1_alg».proof.Proof.Gen.KernelIdeal.Launch
import proofs.«153378_j9809705305013_1_alg».proof.Proof.Model
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

-- the edge-wise sums, the gathers and the quotient are compared by their arguments, never opened
attribute [local irreducible] Host.gather Host.scatterAdd Host.divf

/-! ## Before the first region -/

/-- The edge sources. -/
theorem s0_v1 : after hostOps0 W (Proc.devRef .tc main_v1) = Cert.Spec.srcOf (F := F) (W (Proc.devRef .tc main_arg1)) := by
  after_results; rfl
/-- The edge targets. -/
theorem s0_v3 : after hostOps0 W (Proc.devRef .tc main_v3) = Cert.Spec.dstOf (F := F) (W (Proc.devRef .tc main_arg1)) := by
  after_results; rfl
/-- The embedded labels. -/
theorem s0_v10 : after hostOps0 W (Proc.devRef .tc main_v10) = Cert.Spec.embRows (F := F) (W (Proc.devRef .tc main_arg3)) (W (Proc.devRef .tc main_arg0)) := by
  after_results; rfl
/-- The first aggregated messages. -/
theorem s0_v20 : after hostOps0 W (Proc.devRef .tc main_v20)
    = Cert.Spec.aggOf (F := F) (Cert.Spec.embRows (W (Proc.devRef .tc main_arg3)) (W (Proc.devRef .tc main_arg0)))
        (Cert.Spec.srcOf (W (Proc.devRef .tc main_arg1))) (Cert.Spec.dstOf (W (Proc.devRef .tc main_arg1))) := by
  after_results_simp; rfl
theorem s0_arg2 : after hostOps0 W (Proc.devRef .tc main_arg2) = W (Proc.devRef .tc main_arg2) := by after_results
theorem s0_arg4 : after hostOps0 W (Proc.devRef .tc main_arg4) = W (Proc.devRef .tc main_arg4) := by after_results
theorem s0_arg5 : after hostOps0 W (Proc.devRef .tc main_arg5) = W (Proc.devRef .tc main_arg5) := by after_results
theorem s0_arg6 : after hostOps0 W (Proc.devRef .tc main_arg6) = W (Proc.devRef .tc main_arg6) := by after_results
theorem s0_arg7 : after hostOps0 W (Proc.devRef .tc main_arg7) = W (Proc.devRef .tc main_arg7) := by after_results
theorem s0_arg8 : after hostOps0 W (Proc.devRef .tc main_arg8) = W (Proc.devRef .tc main_arg8) := by after_results
theorem s0_arg9 : after hostOps0 W (Proc.devRef .tc main_arg9) = W (Proc.devRef .tc main_arg9) := by after_results
theorem s0_arg10 : after hostOps0 W (Proc.devRef .tc main_arg10) = W (Proc.devRef .tc main_arg10) := by after_results
theorem s0_arg11 : after hostOps0 W (Proc.devRef .tc main_arg11) = W (Proc.devRef .tc main_arg11) := by after_results
theorem s0_arg12 : after hostOps0 W (Proc.devRef .tc main_arg12) = W (Proc.devRef .tc main_arg12) := by after_results

/-! ## Before the second region -/

/-- The second aggregated messages, from the first region's output. -/
theorem s1_v31 : after hostOps1 W (Proc.devRef .tc main_v31)
    = Cert.Spec.aggOf (F := F) (W (Proc.devRef .tc main_v21)) (W (Proc.devRef .tc main_v1)) (W (Proc.devRef .tc main_v3)) := by
  after_results_simp; rfl
theorem s1_v21 : after hostOps1 W (Proc.devRef .tc main_v21) = W (Proc.devRef .tc main_v21) := by after_results
theorem s1_v1 : after hostOps1 W (Proc.devRef .tc main_v1) = W (Proc.devRef .tc main_v1) := by after_results
theorem s1_v3 : after hostOps1 W (Proc.devRef .tc main_v3) = W (Proc.devRef .tc main_v3) := by after_results
theorem s1_arg2 : after hostOps1 W (Proc.devRef .tc main_arg2) = W (Proc.devRef .tc main_arg2) := by after_results
theorem s1_arg7 : after hostOps1 W (Proc.devRef .tc main_arg7) = W (Proc.devRef .tc main_arg7) := by after_results
theorem s1_arg8 : after hostOps1 W (Proc.devRef .tc main_arg8) = W (Proc.devRef .tc main_arg8) := by after_results
theorem s1_arg9 : after hostOps1 W (Proc.devRef .tc main_arg9) = W (Proc.devRef .tc main_arg9) := by after_results
theorem s1_arg10 : after hostOps1 W (Proc.devRef .tc main_arg10) = W (Proc.devRef .tc main_arg10) := by after_results
theorem s1_arg11 : after hostOps1 W (Proc.devRef .tc main_arg11) = W (Proc.devRef .tc main_arg11) := by after_results
theorem s1_arg12 : after hostOps1 W (Proc.devRef .tc main_arg12) = W (Proc.devRef .tc main_arg12) := by after_results

/-! ## Before the third region -/

/-- The third aggregated messages, from the second region's output. -/
theorem s2_v42 : after hostOps2 W (Proc.devRef .tc main_v42)
    = Cert.Spec.aggOf (F := F) (W (Proc.devRef .tc main_v32)) (W (Proc.devRef .tc main_v1)) (W (Proc.devRef .tc main_v3)) := by
  after_results_simp; rfl
theorem s2_v32 : after hostOps2 W (Proc.devRef .tc main_v32) = W (Proc.devRef .tc main_v32) := by after_results
theorem s2_arg2 : after hostOps2 W (Proc.devRef .tc main_arg2) = W (Proc.devRef .tc main_arg2) := by after_results
theorem s2_arg10 : after hostOps2 W (Proc.devRef .tc main_arg10) = W (Proc.devRef .tc main_arg10) := by after_results
theorem s2_arg11 : after hostOps2 W (Proc.devRef .tc main_arg11) = W (Proc.devRef .tc main_arg11) := by after_results
theorem s2_arg12 : after hostOps2 W (Proc.devRef .tc main_arg12) = W (Proc.devRef .tc main_arg12) := by after_results

/-! ## Before the last region -/

/-- The per-graph means of the third region's output. -/
theorem s3_v55 : after hostOps3 W (Proc.devRef .tc main_v55)
    = Cert.Spec.pooledOf (F := F) (W (Proc.devRef .tc main_v43)) (W (Proc.devRef .tc main_arg2)) := by
  after_results_simp; rfl

end Cert.KernelIdeal.KHost

end
-- ==== Proof.ConvValue.lean ====
/-
  One round of message passing, kernel side against the reference's whole-array formula.

  A round replaces the node features `h` (100000 × 128) by `leaky ((A·W_rel + b) + h·W_root)`, `A` the aggregated
  messages. The kernel computes it in 50 blocks of 2000 rows: for its rows it forms the two 128-term products
  `A·W_rel` and `h·W_root` (each entry a plain sum of products over the contracted index, the change of float format
  of the factors being the identity on extended reals), adds them, adds the bias row, and applies `leaky`. The two
  sides differ only in the order the three summands are added: `(x + y) + b` against `(x + b) + y`, equal in any
  commutative monoid. Entry `(p, q)` of block `t` is entry `(2000·t + p, q)` of the array, every row lies in the
  block `row / 2000`, so the blocks written back assemble the whole result.
-/
import proofs.«153378_j9809705305013_1_alg».proof.Proof.Gen.KernelIdeal.Frame
import proofs.«153378_j9809705305013_1_alg».proof.Proof.Model
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.ConvValue

open Cert.KernelIdeal Cert.KernelIdeal.Gen Idealize.ShloMosaic Idealize.ShloMosaic.TcCoe Idealize.SL.Sem
open Idealize.ShloMosaic.Pipeline (Dat)
open Idealize.ShloMosaic.ValueIdx

/-! ## One entry: the scalar law -/

/-- `a` where `a ≥ 0`, `0.01·a` elsewhere (the two constants kept as the words the programs carry). -/
def leakyS (a : EReal) : EReal :=
  Scalar.select (Ideal.cmp .oge a (Ideal.ofBits .f32 0x00000000#32)) a (Ideal.ofBits .f32 0x3C23D70A#32 * a)

/-- The whole-array `leaky` of the reference, read at an entry. -/
theorem leakyN_apply (x : FVec Ideal S100000x128 .f32) (i : S100000x128.Idx) :
    Cert.Spec.leakyN (F := Ideal) x i = leakyS (x i) := rfl

/-- The kernel's `leaky` on a vector (compare with a zero splat, multiply by a 0.01 splat, select), read at an entry. -/
theorem leakyV_apply {s : Shape} (x : FVec Ideal s .f32) (i : s.Idx) :
    select (cmpf .oge x (broadcast s (Scalar.ofBits (F := Ideal) .f32 0x00000000#32))) x
      (mulf (broadcast s (Scalar.ofBits (F := Ideal) .f32 0x3C23D70A#32)) x) i = leakyS (x i) := rfl

/-! ## The products and the bias row at an entry -/

/-- The reference's product of a 100000 × 128 array by a 128 × 128 matrix, at entry `(r, q)`: the sum over the contracted
    coordinate of the products of the entries. -/
theorem hostDot_apply (A : FVec Ideal S100000x128 .f32) (B : FVec Ideal S128x128 .f32) (r : Fin 100000) (q : Fin 128) :
    Host.dotGeneral (F := Ideal) Cert.ReferenceIdeal.dot_S100000x128_S128x128_S100000x128_1_0_0_1_n_n none A B (ix2 r q)
      = ∑ k : Fin 128, A (ix2 r k) * B (ix2 k q) :=
  StackMember.dotGeneral_plain_apply (m := 100000) (n := 128) (k := 128) none A B r q

/-- The kernel's product of a 2000-row block by a 128 × 128 matrix into a zero accumulator, the factors first changed
    to the narrower float format (the identity here), at entry `(p, q)`: the same sum. -/
theorem mm_apply (x : FVec Ideal S2000x128 .f32) (w : FVec Ideal S128x128 .f32)
    (hs : S2000x128.ShapeCasts S2000x128) (hb : FTy.bits .bf16 < FTy.bits .f32) (p : Fin 2000) (q : Fin 128) :
    matmul (F := Ideal) dot_S2000x128_S128x128_S2000x128_1_0_0_1_n_n none
        (truncf .bf16 (shapeCast S2000x128 x hs) hb) (truncf .bf16 w hb) (constant S2000x128 .f32 0x00000000#32) (ix2 p q)
      = ∑ k : Fin 128, x (ix2 p k) * w (ix2 k q) := by
  rw [shapeCast_self]
  show FloatOps.matmul (DotDims.plain 2000 128 128) none (truncf .bf16 x hb) (truncf .bf16 w hb)
      (constant (F := Ideal) ⟨2, ![2000, 128]⟩ .f32 0x00000000#32) (ix2 p q) = _
  rw [Ideal.matmul_constant_zero_apply]
  exact (Ideal.dotGeneral_apply (DotDims.plain 2000 128 128) none .single (truncf .bf16 x hb) (truncf .bf16 w hb) (ix2 p q)).symm.trans
    (StackMember.dotGeneral_plain_apply (m := 2000) (n := 128) (k := 128) none (truncf .bf16 x hb) (truncf .bf16 w hb) p q)

/-- The reference's bias as a row repeated over the 100000 nodes, at entry `(r, q)`: the bias at `q`. -/
theorem hostBias_apply (b : FVec Ideal S128 .f32)
    (h1 : S128.BroadcastsInDim S1x128 (![1] : Fin 1 → Fin S1x128.rank))
    (h2 : S1x128.BroadcastsInDim S100000x128 (![0, 1] : Fin 2 → Fin S100000x128.rank)) (r : Fin 100000) (q : Fin 128) :
    broadcastInDim S100000x128 ![0, 1] h2 (broadcastInDim S1x128 ![1] h1 b) (ix2 r q) = b (ix1 q) := by
  refine (broadcastInDim_apply ![0, 1] h2 _ (ix2 r q) (ix2 (⟨0, Nat.one_pos⟩ : Fin 1) q) fun a => ?_).trans
    (broadcastInDim_apply ![1] h1 b _ (ix1 q) fun a => ?_)
  · match a with
    | ⟨0, _⟩ => rfl
    | ⟨1, _⟩ => rfl
  · match a with
    | ⟨0, _⟩ => rfl

/-- The kernel's bias as a row repeated over the 2000 rows of a block, at entry `(p, q)`: the bias at `q`. -/
theorem bias_apply (b : FVec Ideal S128 .f32) (hs : S128.ShapeCasts S1x128) (hb : S1x128.Broadcasts S2000x128)
    (p : Fin 2000) (q : Fin 128) :
    broadcastTo S2000x128 (shapeCast S1x128 b hs) hb (ix2 p q) = b (ix1 q) := by
  refine (broadcastTo_apply _ hb (ix2 p q) (ix2 (⟨0, Nat.one_pos⟩ : Fin 1) q) fun a => ?_).trans
    (shapeCast_apply b hs _ (ix1 q) ?_)
  · match a with
    | ⟨0, _⟩ => rfl
    | ⟨1, _⟩ => rfl
  · rw [Shape.rowMajor_val_one, Shape.rowMajor_val_two]
    show q.val = 0 * 128 + q.val
    omega

/-! ## The two sides at an entry -/

/-- The reference's round at entry `(r, q)`. -/
theorem convOut_apply (agg h : FVec Ideal S100000x128 .f32) (wrel : FVec Ideal S128x128 .f32) (b : FVec Ideal S128 .f32)
    (wroot : FVec Ideal S128x128 .f32) (r : Fin 100000) (q : Fin 128) :
    Cert.Spec.convOut (F := Ideal) agg h wrel b wroot (ix2 r q)
      = leakyS (((∑ k : Fin 128, agg (ix2 r k) * wrel (ix2 k q)) + b (ix1 q)) + ∑ k : Fin 128, h (ix2 r k) * wroot (ix2 k q)) := by
  unfold Cert.Spec.convOut
  rw [leakyN_apply, addf_apply, addf_apply, hostDot_apply, hostDot_apply, hostBias_apply]

/-- The kernel's stored block at entry `(p, q)`, from the blocks it loaded. -/
theorem pay_apply (v0 v3 : FVec Ideal S2000x128 .f32) (v6 v8 : FVec Ideal S128x128 .f32) (v13 : FVec Ideal S128 .f32)
    (p : Fin 2000) (q : Fin 128) :
    k0_pay1 (F := Ideal) v0 v3 v6 v8 v13 (ix2 p q)
      = leakyS (((∑ k : Fin 128, v0 (ix2 p k) * v6 (ix2 k q)) + ∑ k : Fin 128, v3 (ix2 p k) * v8 (ix2 k q)) + v13 (ix1 q)) := by
  unfold k0_pay1
  refine (leakyV_apply _ _).trans (congrArg leakyS ?_)
  rw [addf_apply, addf_apply, mm_apply, mm_apply, bias_apply]

/-- The three regions run the same kernel: the second and third regions' stored block is the first's, as a function of
    the loaded blocks. -/
theorem pay1_eq : @k1_pay1 Ideal _ = @k0_pay1 Ideal _ := rfl
theorem pay2_eq : @k2_pay1 Ideal _ = @k0_pay1 Ideal _ := rfl

/-- ONE ENTRY OF ONE BLOCK: when the two loaded row blocks are rows `2000·n + ·` of the two feature arrays and the
    loaded matrices and bias are the whole ones, the stored block at `j` is the reference's round at the array index
    `i` that `j` names — the three summands added in the other order. -/
theorem point_eq (agg h : FVec Ideal S100000x128 .f32) (wrel wroot : FVec Ideal S128x128 .f32) (b : FVec Ideal S128 .f32)
    (x0 x1 : FVec Ideal S2000x128 .f32) (x2 x4 : FVec Ideal S128x128 .f32) (x3 : FVec Ideal S128 .f32)
    (n : Nat) (j : S2000x128.Idx) (i : S100000x128.Idx)
    (hi0 : (i 0).val = n * 2000 + (j 0).val) (hi1 : (i 1).val = (j 1).val)
    (h0 : ∀ (x : S2000x128.Idx) (k : S100000x128.Idx), (k 0).val = n * 2000 + (x 0).val → (k 1).val = (x 1).val → x0 x = agg k)
    (h1 : ∀ (x : S2000x128.Idx) (k : S100000x128.Idx), (k 0).val = n * 2000 + (x 0).val → (k 1).val = (x 1).val → x1 x = h k)
    (h2 : x2 = wrel) (h3 : x3 = b) (h4 : x4 = wroot) :
    k0_pay1 (F := Ideal) x0 x1 x2 x4 x3 j = Cert.Spec.convOut (F := Ideal) agg h wrel b wroot i := by
  subst h2 h3 h4
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_apply, convOut_apply]
  have e0 : ∀ k : Fin 128, x0 (ix2 p k) = agg (ix2 r k) := fun k => h0 _ _ hi0 rfl
  have e1 : ∀ k : Fin 128, x1 (ix2 p k) = h (ix2 r k) := fun k => h1 _ _ hi0 rfl
  simp only [e0, e1]
  exact congrArg leakyS (add_right_comm _ _ _)

/-! ## Blocks and the array -/

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-! ## Round 1: the blocks of region 0, the write-backs, the array -/

/-- The block indices of region 0's windows, decided once over its 50 points: the two row-blocked inputs and the output sit
    at block row `t`, block column 0; the two weight matrices and the bias are whole (block 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `2000·t … 2000·t + 1999` of the aggregated messages. -/
theorem blk0_0 (c : Dev nD) (t : Fin cfg0.N) (x : S2000x128.Idx) (k : S100000x128.Idx)
    (hk0 : (k 0).val = t.val * 2000 + (x 0).val) (hk1 : (k 1).val = (x 1).val) :
    (iblk0 V c 0 t : FVec Ideal S2000x128 .f32) x = (V c main_v20 : FVec Ideal S100000x128 .f32) k := by
  obtain ⟨e0, e1, -⟩ := idx_facts0 t
  show (V c main_v20 : FVec Ideal S100000x128 .f32) (((cfg0.win 0).blk t).view.emb x) = _
  refine congrArg (V c main_v20 : FVec Ideal S100000x128 .f32) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- Window 1's block at point `t` is the same rows of the node features. -/
theorem blk0_1 (c : Dev nD) (t : Fin cfg0.N) (x : S2000x128.Idx) (k : S100000x128.Idx)
    (hk0 : (k 0).val = t.val * 2000 + (x 0).val) (hk1 : (k 1).val = (x 1).val) :
    (iblk0 V c 1 t : FVec Ideal S2000x128 .f32) x = (V c main_v10 : FVec Ideal S100000x128 .f32) k := by
  obtain ⟨-, -, e0, e1, -⟩ := idx_facts0 t
  show (V c main_v10 : FVec Ideal S100000x128 .f32) (((cfg0.win 1).blk t).view.emb x) = _
  refine congrArg (V c main_v10 : FVec Ideal S100000x128 .f32) (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 128 + 1 * (x 1).val = (k 1).val; rw [e1, hk1]; omega

/-- Window 2's block is the whole matrix `W_rel`, at every point. -/
theorem blk0_2 (c : Dev nD) (t : Fin cfg0.N) :
    (iblk0 V c 2 t : FVec Ideal S128x128 .f32) = (V c main_arg4 : FVec Ideal S128x128 .f32) := by
  obtain ⟨-, -, -, -, e0, e1, -⟩ := idx_facts0 t
  funext x
  show (V c main_arg4 : FVec Ideal S128x128 .f32) (((cfg0.win 2).blk t).view.emb x) = _
  refine congrArg (V c main_arg4 : FVec Ideal S128x128 .f32) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Window 3's block is the whole bias vector. -/
theorem blk0_3 (c : Dev nD) (t : Fin cfg0.N) :
    (iblk0 V c 3 t : FVec Ideal S128 .f32) = (V c main_arg5 : FVec Ideal S128 .f32) := by
  obtain ⟨-, -, -, -, -, -, e0, -⟩ := idx_facts0 t
  funext x
  show (V c main_arg5 : FVec Ideal S128 .f32) (((cfg0.win 3).blk t).view.emb x) = _
  refine congrArg (V c main_arg5 : FVec Ideal S128 .f32) (funext fun a => Fin.ext ?_)
  match a with
  | ⟨0, _⟩ => show win0_3.index t (0 : Fin 1) * 128 + 1 * (x 0).val = (x 0).val; rw [e0]; omega

/-- Window 4's block is the whole matrix `W_root`. -/
theorem blk0_4 (c : Dev nD) (t : Fin cfg0.N) :
    (iblk0 V c 4 t : FVec Ideal S128x128 .f32) = (V c main_arg6 : FVec Ideal S128x128 .f32) := by
  obtain ⟨-, -, -, -, -, -, -, e0, e1, -⟩ := idx_facts0 t
  funext x
  show (V c main_arg6 : FVec Ideal S128x128 .f32) (((cfg0.win 4).blk t).view.emb x) = _
  refine congrArg (V c main_arg6 : FVec Ideal S128x128 .f32) (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- What point `t` writes back is block `t` of the round's result: entry `(p, q)` of the stored block is the
    round's formula at row `2000·t + p`, the two sums and the bias added in the other order. -/
theorem flushed0 (c : Dev nD) (t : Fin cfg0.N) :
    (dat0 V c).flushed 5 t = ((cfg0.win 5).blk t).view.read (Elt Ideal)
      (Cert.Spec.convOut (F := Ideal) (V c main_v20) (V c main_v10) (V c main_arg4) (V c main_arg5) (V c main_arg6)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  obtain ⟨-, -, -, -, -, -, -, -, -, e0, e1⟩ := idx_facts0 t
  funext y
  show k0_pay1 (F := Ideal) (iblk0 V c 0 t) (iblk0 V c 1 t) (iblk0 V c 2 t) (iblk0 V c 4 t) (iblk0 V c 3 t)
      ((cfg0.win 5).xinj (grid0.coords t) y)
    = Cert.Spec.convOut (F := Ideal) (V c main_v20) (V c main_v10) (V c main_arg4) (V c main_arg5) (V c main_arg6) (((cfg0.win 5).blk t).view.emb y)
  refine point_eq (V c main_v20) (V c main_v10) (V c main_arg4) (V c main_arg6) (V c main_arg5)
    (iblk0 V c 0 t) (iblk0 V c 1 t) (iblk0 V c 2 t) (iblk0 V c 4 t) (iblk0 V c 3 t) t.val _ _ ?_ ?_
    (fun x k hk0 hk1 => blk0_0 V c t x k hk0 hk1) (fun x k hk0 hk1 => blk0_1 V c t x k hk0 hk1)
    (blk0_2 V c t) (blk0_3 V c t) (blk0_4 V c t)
  · show win0_5.index t (0 : Fin 2) * 2000 + 1 * (y 0).val = t.val * 2000 + (y 0).val
    rw [e0]; omega
  · show win0_5.index t (1 : Fin 2) * 128 + 1 * (y 1).val = (y 1).val
    rw [e1]; omega

/-- Every row of the array lies in some point's block: row `r` in the block of point `r / 2000`. -/
theorem cover0 (i : S100000x128.Idx) :
    ∃ t : Fin cfg0.N, (cfg0.win 5).flush t = true ∧ i ∈ ((cfg0.win 5).blk t).view.set := by
  have hN : grid0.N = 50 := N_0
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; omega⟩, rfl⟩
  obtain ⟨-, -, -, -, -, -, -, -, -, e0, e1⟩ := idx_facts0 t
  refine ⟨t, flush0_5 t, ?_⟩
  show i ∈ ((View.whole main_v21).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- Round 1: after the region, its output array holds the round's result of the two feature arrays, the two weight
    matrices and the bias as the region found them. -/
theorem conv0 (c : Dev nD) : (dat0 (F := Ideal) V c).arrAt 5 cfg0.N
    = Cert.Spec.convOut (F := Ideal) (V c main_v20) (V c main_v10) (V c main_arg4) (V c main_arg5) (V c main_arg6) :=
  (dat0 V c).arrAt_eq_of_cover 5 _ (fun t _ => flushed0 V c t) (fun i => cover0 i)

/-! ## Round 2: the blocks of region 1, the write-backs, the array -/

/-- The block indices of region 1's windows, decided once over its 50 points: the two row-blocked inputs and the output sit
    at block row `t`, block column 0; the two weight matrices and the bias are whole (block 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `2000·t … 2000·t + 1999` of the aggregated messages. -/
theorem blk1_0 (c : Dev nD) (t : Fin cfg1.N) (x : S2000x128.Idx) (k : S100000x128.Idx)
    (hk0 : (k 0).val = t.val * 2000 + (x 0).val) (hk1 : (k 1).val = (x 1).val) :
    (iblk1 V c 0 t : FVec Ideal S2000x128 .f32) x = (V c main_v31 : FVec Ideal S100000x128 .f32) k := by
  obtain ⟨e0, e1, -⟩ := idx_facts1 t
  show (V c main_v31 : FVec Ideal S100000x128 .f32) (((cfg1.win 0).blk t).view.emb x) = _
  refine congrArg (V c main_v31 : FVec Ideal S100000x128 .f32) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- Window 1's block at point `t` is the same rows of the node features. -/
theorem blk1_1 (c : Dev nD) (t : Fin cfg1.N) (x : S2000x128.Idx) (k : S100000x128.Idx)
    (hk0 : (k 0).val = t.val * 2000 + (x 0).val) (hk1 : (k 1).val = (x 1).val) :
    (iblk1 V c 1 t : FVec Ideal S2000x128 .f32) x = (V c main_v21 : FVec Ideal S100000x128 .f32) k := by
  obtain ⟨-, -, e0, e1, -⟩ := idx_facts1 t
  show (V c main_v21 : FVec Ideal S100000x128 .f32) (((cfg1.win 1).blk t).view.emb x) = _
  refine congrArg (V c main_v21 : FVec Ideal S100000x128 .f32) (funext fun a => Fin.ext ?_)
  match a with
  | ⟨0, _⟩ => show win1_1.index t (0 : Fin 2) * 2000 + 1 * (x 0).val = (k 0).val; rw [e0, hk0]; omega
  | ⟨1, _⟩ => show win1_1.index t (1 : Fin 2) * 128 + 1 * (x 1).val = (k 1).val; rw [e1, hk1]; omega

/-- Window 2's block is the whole matrix `W_rel`, at every point. -/
theorem blk1_2 (c : Dev nD) (t : Fin cfg1.N) :
    (iblk1 V c 2 t : FVec Ideal S128x128 .f32) = (V c main_arg7 : FVec Ideal S128x128 .f32) := by
  obtain ⟨-, -, -, -, e0, e1, -⟩ := idx_facts1 t
  funext x
  show (V c main_arg7 : FVec Ideal S128x128 .f32) (((cfg1.win 2).blk t).view.emb x) = _
  refine congrArg (V c main_arg7 : FVec Ideal S128x128 .f32) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Window 3's block is the whole bias vector. -/
theorem blk1_3 (c : Dev nD) (t : Fin cfg1.N) :
    (iblk1 V c 3 t : FVec Ideal S128 .f32) = (V c main_arg8 : FVec Ideal S128 .f32) := by
  obtain ⟨-, -, -, -, -, -, e0, -⟩ := idx_facts1 t
  funext x
  show (V c main_arg8 : FVec Ideal S128 .f32) (((cfg1.win 3).blk t).view.emb x) = _
  refine congrArg (V c main_arg8 : FVec Ideal S128 .f32) (funext fun a => Fin.ext ?_)
  match a with
  | ⟨0, _⟩ => show win1_3.index t (0 : Fin 1) * 128 + 1 * (x 0).val = (x 0).val; rw [e0]; omega

/-- Window 4's block is the whole matrix `W_root`. -/
theorem blk1_4 (c : Dev nD) (t : Fin cfg1.N) :
    (iblk1 V c 4 t : FVec Ideal S128x128 .f32) = (V c main_arg9 : FVec Ideal S128x128 .f32) := by
  obtain ⟨-, -, -, -, -, -, -, e0, e1, -⟩ := idx_facts1 t
  funext x
  show (V c main_arg9 : FVec Ideal S128x128 .f32) (((cfg1.win 4).blk t).view.emb x) = _
  refine congrArg (V c main_arg9 : FVec Ideal S128x128 .f32) (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- What point `t` writes back is block `t` of the round's result: entry `(p, q)` of the stored block is the
    round's formula at row `2000·t + p`, the two sums and the bias added in the other order. -/
theorem flushed1 (c : Dev nD) (t : Fin cfg1.N) :
    (dat1 V c).flushed 5 t = ((cfg1.win 5).blk t).view.read (Elt Ideal)
      (Cert.Spec.convOut (F := Ideal) (V c main_v31) (V c main_v21) (V c main_arg7) (V c main_arg8) (V c main_arg9)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  obtain ⟨-, -, -, -, -, -, -, -, -, e0, e1⟩ := idx_facts1 t
  funext y
  show k1_pay1 (F := Ideal) (iblk1 V c 0 t) (iblk1 V c 1 t) (iblk1 V c 2 t) (iblk1 V c 4 t) (iblk1 V c 3 t)
      ((cfg1.win 5).xinj (grid1.coords t) y)
    = Cert.Spec.convOut (F := Ideal) (V c main_v31) (V c main_v21) (V c main_arg7) (V c main_arg8) (V c main_arg9) (((cfg1.win 5).blk t).view.emb y)
  rw [pay1_eq]
  refine point_eq (V c main_v31) (V c main_v21) (V c main_arg7) (V c main_arg9) (V c main_arg8)
    (iblk1 V c 0 t) (iblk1 V c 1 t) (iblk1 V c 2 t) (iblk1 V c 4 t) (iblk1 V c 3 t) t.val _ _ ?_ ?_
    (fun x k hk0 hk1 => blk1_0 V c t x k hk0 hk1) (fun x k hk0 hk1 => blk1_1 V c t x k hk0 hk1)
    (blk1_2 V c t) (blk1_3 V c t) (blk1_4 V c t)
  · show win1_5.index t (0 : Fin 2) * 2000 + 1 * (y 0).val = t.val * 2000 + (y 0).val
    rw [e0]; omega
  · show win1_5.index t (1 : Fin 2) * 128 + 1 * (y 1).val = (y 1).val
    rw [e1]; omega

/-- Every row of the array lies in some point's block: row `r` in the block of point `r / 2000`. -/
theorem cover1 (i : S100000x128.Idx) :
    ∃ t : Fin cfg1.N, (cfg1.win 5).flush t = true ∧ i ∈ ((cfg1.win 5).blk t).view.set := by
  have hN : grid1.N = 50 := N_1
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; omega⟩, rfl⟩
  obtain ⟨-, -, -, -, -, -, -, -, -, e0, e1⟩ := idx_facts1 t
  refine ⟨t, flush1_5 t, ?_⟩
  show i ∈ ((View.whole main_v32).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- Round 2: after the region, its output array holds the round's result of the two feature arrays, the two weight
    matrices and the bias as the region found them. -/
theorem conv1 (c : Dev nD) : (dat1 (F := Ideal) V c).arrAt 5 cfg1.N
    = Cert.Spec.convOut (F := Ideal) (V c main_v31) (V c main_v21) (V c main_arg7) (V c main_arg8) (V c main_arg9) :=
  (dat1 V c).arrAt_eq_of_cover 5 _ (fun t _ => flushed1 V c t) (fun i => cover1 i)

/-! ## Round 3: the blocks of region 2, the write-backs, the array -/

/-- The block indices of region 2's windows, decided once over its 50 points: the two row-blocked inputs and the output sit
    at block row `t`, block column 0; the two weight matrices and the bias are whole (block 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `2000·t … 2000·t + 1999` of the aggregated messages. -/
theorem blk2_0 (c : Dev nD) (t : Fin cfg2.N) (x : S2000x128.Idx) (k : S100000x128.Idx)
    (hk0 : (k 0).val = t.val * 2000 + (x 0).val) (hk1 : (k 1).val = (x 1).val) :
    (iblk2 V c 0 t : FVec Ideal S2000x128 .f32) x = (V c main_v42 : FVec Ideal S100000x128 .f32) k := by
  obtain ⟨e0, e1, -⟩ := idx_facts2 t
  show (V c main_v42 : FVec Ideal S100000x128 .f32) (((cfg2.win 0).blk t).view.emb x) = _
  refine congrArg (V c main_v42 : FVec Ideal S100000x128 .f32) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- Window 1's block at point `t` is the same rows of the node features. -/
theorem blk2_1 (c : Dev nD) (t : Fin cfg2.N) (x : S2000x128.Idx) (k : S100000x128.Idx)
    (hk0 : (k 0).val = t.val * 2000 + (x 0).val) (hk1 : (k 1).val = (x 1).val) :
    (iblk2 V c 1 t : FVec Ideal S2000x128 .f32) x = (V c main_v32 : FVec Ideal S100000x128 .f32) k := by
  obtain ⟨-, -, e0, e1, -⟩ := idx_facts2 t
  show (V c main_v32 : FVec Ideal S100000x128 .f32) (((cfg2.win 1).blk t).view.emb x) = _
  refine congrArg (V c main_v32 : FVec Ideal S100000x128 .f32) (funext fun a => Fin.ext ?_)
  match a with
  | ⟨0, _⟩ => show win2_1.index t (0 : Fin 2) * 2000 + 1 * (x 0).val = (k 0).val; rw [e0, hk0]; omega
  | ⟨1, _⟩ => show win2_1.index t (1 : Fin 2) * 128 + 1 * (x 1).val = (k 1).val; rw [e1, hk1]; omega

/-- Window 2's block is the whole matrix `W_rel`, at every point. -/
theorem blk2_2 (c : Dev nD) (t : Fin cfg2.N) :
    (iblk2 V c 2 t : FVec Ideal S128x128 .f32) = (V c main_arg10 : FVec Ideal S128x128 .f32) := by
  obtain ⟨-, -, -, -, e0, e1, -⟩ := idx_facts2 t
  funext x
  show (V c main_arg10 : FVec Ideal S128x128 .f32) (((cfg2.win 2).blk t).view.emb x) = _
  refine congrArg (V c main_arg10 : FVec Ideal S128x128 .f32) (funext fun a => Fin.ext ?_)
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- Window 3's block is the whole bias vector. -/
theorem blk2_3 (c : Dev nD) (t : Fin cfg2.N) :
    (iblk2 V c 3 t : FVec Ideal S128 .f32) = (V c main_arg11 : FVec Ideal S128 .f32) := by
  obtain ⟨-, -, -, -, -, -, e0, -⟩ := idx_facts2 t
  funext x
  show (V c main_arg11 : FVec Ideal S128 .f32) (((cfg2.win 3).blk t).view.emb x) = _
  refine congrArg (V c main_arg11 : FVec Ideal S128 .f32) (funext fun a => Fin.ext ?_)
  match a with
  | ⟨0, _⟩ => show win2_3.index t (0 : Fin 1) * 128 + 1 * (x 0).val = (x 0).val; rw [e0]; omega

/-- Window 4's block is the whole matrix `W_root`. -/
theorem blk2_4 (c : Dev nD) (t : Fin cfg2.N) :
    (iblk2 V c 4 t : FVec Ideal S128x128 .f32) = (V c main_arg12 : FVec Ideal S128x128 .f32) := by
  obtain ⟨-, -, -, -, -, -, -, e0, e1, -⟩ := idx_facts2 t
  funext x
  show (V c main_arg12 : FVec Ideal S128x128 .f32) (((cfg2.win 4).blk t).view.emb x) = _
  refine congrArg (V c main_arg12 : FVec Ideal S128x128 .f32) (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- What point `t` writes back is block `t` of the round's result: entry `(p, q)` of the stored block is the
    round's formula at row `2000·t + p`, the two sums and the bias added in the other order. -/
theorem flushed2 (c : Dev nD) (t : Fin cfg2.N) :
    (dat2 V c).flushed 5 t = ((cfg2.win 5).blk t).view.read (Elt Ideal)
      (Cert.Spec.convOut (F := Ideal) (V c main_v42) (V c main_v32) (V c main_arg10) (V c main_arg11) (V c main_arg12)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S128) hz1]
  obtain ⟨-, -, -, -, -, -, -, -, -, e0, e1⟩ := idx_facts2 t
  funext y
  show k2_pay1 (F := Ideal) (iblk2 V c 0 t) (iblk2 V c 1 t) (iblk2 V c 2 t) (iblk2 V c 4 t) (iblk2 V c 3 t)
      ((cfg2.win 5).xinj (grid2.coords t) y)
    = Cert.Spec.convOut (F := Ideal) (V c main_v42) (V c main_v32) (V c main_arg10) (V c main_arg11) (V c main_arg12) (((cfg2.win 5).blk t).view.emb y)
  rw [pay2_eq]
  refine point_eq (V c main_v42) (V c main_v32) (V c main_arg10) (V c main_arg12) (V c main_arg11)
    (iblk2 V c 0 t) (iblk2 V c 1 t) (iblk2 V c 2 t) (iblk2 V c 4 t) (iblk2 V c 3 t) t.val _ _ ?_ ?_
    (fun x k hk0 hk1 => blk2_0 V c t x k hk0 hk1) (fun x k hk0 hk1 => blk2_1 V c t x k hk0 hk1)
    (blk2_2 V c t) (blk2_3 V c t) (blk2_4 V c t)
  · show win2_5.index t (0 : Fin 2) * 2000 + 1 * (y 0).val = t.val * 2000 + (y 0).val
    rw [e0]; omega
  · show win2_5.index t (1 : Fin 2) * 128 + 1 * (y 1).val = (y 1).val
    rw [e1]; omega

/-- Every row of the array lies in some point's block: row `r` in the block of point `r / 2000`. -/
theorem cover2 (i : S100000x128.Idx) :
    ∃ t : Fin cfg2.N, (cfg2.win 5).flush t = true ∧ i ∈ ((cfg2.win 5).blk t).view.set := by
  have hN : grid2.N = 50 := N_2
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; omega⟩, rfl⟩
  obtain ⟨-, -, -, -, -, -, -, -, -, e0, e1⟩ := idx_facts2 t
  refine ⟨t, flush2_5 t, ?_⟩
  show i ∈ ((View.whole main_v43).slice (win2_5.rect t)).set
  rw [View.set_slice_whole, Rect.mem_set_unit]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega

/-- Round 3: after the region, its output array holds the round's result of the two feature arrays, the two weight
    matrices and the bias as the region found them. -/
theorem conv2 (c : Dev nD) : (dat2 (F := Ideal) V c).arrAt 5 cfg2.N
    = Cert.Spec.convOut (F := Ideal) (V c main_v42) (V c main_v32) (V c main_arg10) (V c main_arg11) (V c main_arg12) :=
  (dat2 V c).arrAt_eq_of_cover 5 _ (fun t _ => flushed2 V c t) (fun i => cover2 i)

end Cert.KernelIdeal.ConvValue

end
-- ==== Proof.MlpPure.lean ====
/-
  The perceptron, row by row, on the extended reals.

  For one graph's pooled features `x` (a row of 128 numbers) the perceptron's value is
    z[j] = leaky ((((∑ₖ x[k]·W₁[k,j]) + b₁[j]) − μ₁[j])·(σ₁²[j] + ε)^(−1/2)·γ₁[j] + β₁[j])        (j < 1024)
    u[q] = (∑ⱼ z[j]·W₂[j,q]) + b₂[q]                                                              (q < 128)
    out  = (∑_q leaky ((u[q] − μ₂[q])·(σ₂²[q] + ε)^(−1/2)·γ₂[q] + β₂[q])·w₃[q,0]) + b₃[0].
  This module states that function (`mlpRow`) and shows that the whole-array specification `Cert.Spec.mlpOut`, read at
  a row, is `mlpRow` of that row of the pooled features: a product of matrices at an entry is the sum over the
  contracted coordinate, a vector repeated over the rows reads its entry at the column, and the elementwise operations
  read through.
-/
import proofs.«153378_j9809705305013_1_alg».proof.Proof.Model
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx
open scoped BigOperators

/-! ## The scalar functions -/

/-- `x` where `x ≥ 0`, `0.01·x` elsewhere. -/
def leakyS (x : EReal) : EReal :=
  Scalar.select (FloatOps.cmpf (F := Ideal) (φ := .f32) CmpFPredicate.oge x (Ideal.ofBits .f32 0x00000000#32)) x
    (Ideal.ofBits .f32 0x3C23D70A#32 * x)

/-- The normalisation `(u − μ)·(σ² + ε)^(−1/2)·γ + β`. -/
def normT (u m v g be : EReal) : EReal :=
  (u - m) * Ideal.rsqrt (v + Ideal.ofBits .f32 0x3727C5AC#32) * g + be

/-! ## The perceptron on one row -/

abbrev T128x1024 : Shape := ⟨2, ![128, 1024]⟩
abbrev T1024x128 : Shape := ⟨2, ![1024, 128]⟩
abbrev T128x1 : Shape := ⟨2, ![128, 1]⟩
abbrev T1024 : Shape := ⟨1, ![1024]⟩
abbrev T128 : Shape := ⟨1, ![128]⟩
abbrev T1 : Shape := ⟨1, ![1]⟩

/-- The hidden layer's entry `j` from the row `x`. -/
def zRow (x : Fin 128 → EReal) (w1 : T128x1024.Idx → EReal) (b1 g1 be1 m1 v1 : T1024.Idx → EReal) (j : Fin 1024) : EReal :=
  leakyS (normT ((∑ k : Fin 128, x k * w1 (ix2 k j)) + b1 (ix1 j)) (m1 (ix1 j)) (v1 (ix1 j)) (g1 (ix1 j)) (be1 (ix1 j)))

/-- The second layer's product and bias at entry `q` from the hidden row `z`. -/
def uRow (z : Fin 1024 → EReal) (w2 : T1024x128.Idx → EReal) (b2 : T128.Idx → EReal) (q : Fin 128) : EReal :=
  (∑ j : Fin 1024, z j * w2 (ix2 j q)) + b2 (ix1 q)

/-- The read-out from the second layer's row `u`: normalise, `leaky`, the product with `w₃`, plus `b₃`. -/
def outRow (u : Fin 128 → EReal) (g2 be2 m2 v2 : T128.Idx → EReal) (w3 : T128x1.Idx → EReal) (b3 : T1.Idx → EReal) : EReal :=
  (∑ q : Fin 128, leakyS (normT (u q) (m2 (ix1 q)) (v2 (ix1 q)) (g2 (ix1 q)) (be2 (ix1 q))) * w3 (ix2 q 0)) + b3 (ix1 0)

/-- The perceptron's value on the row `x`. -/
def mlpRow (x : Fin 128 → EReal) (w1 : T128x1024.Idx → EReal) (b1 : T1024.Idx → EReal) (w2 : T1024x128.Idx → EReal)
    (b2 : T128.Idx → EReal) (w3 : T128x1.Idx → EReal) (b3 : T1.Idx → EReal) (g1 be1 m1 v1 : T1024.Idx → EReal)
    (g2 be2 m2 v2 : T128.Idx → EReal) : EReal :=
  outRow (uRow (zRow x w1 b1 g1 be1 m1 v1) w2 b2) g2 be2 m2 v2 w3 b3

/-! ## The specification's operations at an index -/

section Ref

open Cert.ReferenceIdeal Cert.ReferenceIdeal.Gen Cert.Spec

/-- `leaky` on the hidden layer, at an entry. -/
theorem leakyH_apply (x : (Fv Ideal S4096x1024)) (i : S4096x1024.Idx) : leakyH (F := Ideal) x i = leakyS (x i) := rfl
/-- `leaky` on the second layer, at an entry. -/
theorem leakyG_apply (x : (Fv Ideal S4096x128)) (i : S4096x128.Idx) : leakyG (F := Ideal) x i = leakyS (x i) := rfl

/-- A vector of 1024 repeated over the rows reads its entry at the column. -/
theorem rowH_apply (v : (Fv Ideal S1024)) (r : Fin 4096) (j : Fin 1024) : rowH (F := Ideal) v (ix2 r j) = v (ix1 j) := by
  unfold rowH
  refine (broadcastInDim_apply _ _ _ (ix2 r j) (ix2 (0 : Fin 1) j) (fun a => ?_)).trans
    (broadcastInDim_apply _ _ v (ix2 (0 : Fin 1) j) (ix1 j) (fun a => ?_))
  · match a with
    | ⟨0, _⟩ => rfl
    | ⟨1, _⟩ => rfl
  · match a with
    | ⟨0, _⟩ => rfl

/-- A vector of 128 repeated over the rows reads its entry at the column. -/
theorem rowG_apply (v : (Fv Ideal S128)) (r : Fin 4096) (q : Fin 128) : rowG (F := Ideal) v (ix2 r q) = v (ix1 q) := by
  unfold rowG
  refine (broadcastInDim_apply _ _ _ (ix2 r q) (ix2 (0 : Fin 1) q) (fun a => ?_)).trans
    (broadcastInDim_apply _ _ v (ix2 (0 : Fin 1) q) (ix1 q) (fun a => ?_))
  · match a with
    | ⟨0, _⟩ => rfl
    | ⟨1, _⟩ => rfl
  · match a with
    | ⟨0, _⟩ => rfl

/-- The reciprocal square root of `σ² + ε`, at an entry. -/
theorem rsH_apply (v : (Fv Ideal S1024)) (j : Fin 1024) :
    Host.rsqrt (addf v (broadcastInDim S1024 ![] bcast_S_S1024 (constant (F := Ideal) S_ .f32 0x3727C5AC#32))) (ix1 j)
      = Ideal.rsqrt (v (ix1 j) + Ideal.ofBits .f32 0x3727C5AC#32) := rfl
theorem rsG_apply (v : (Fv Ideal S128)) (q : Fin 128) :
    Host.rsqrt (addf v (broadcastInDim S128 ![] bcast_S_S128 (constant (F := Ideal) S_ .f32 0x3727C5AC#32))) (ix1 q)
      = Ideal.rsqrt (v (ix1 q) + Ideal.ofBits .f32 0x3727C5AC#32) := rfl

/-- The one-entry bias repeated over the 4096 rows of a column reads its entry. -/
theorem b3_apply (b3 : (Fv Ideal S1)) (r : Fin 4096) :
    broadcastInDim S4096x1 ![0, 1] bcast_S1x1_S4096x1_0_1 (broadcastInDim S1x1 ![1] bcast_S1_S1x1_1 b3) (ix2 r (0 : Fin 1)) = b3 (ix1 0) := by
  refine (broadcastInDim_apply _ _ _ (ix2 r (0 : Fin 1)) (ix2 (0 : Fin 1) (0 : Fin 1)) (fun a => ?_)).trans
    (broadcastInDim_apply _ _ b3 (ix2 (0 : Fin 1) (0 : Fin 1)) (ix1 0) (fun a => ?_))
  · match a with
    | ⟨0, _⟩ => rfl
    | ⟨1, _⟩ => rfl
  · match a with
    | ⟨0, _⟩ => rfl

/-- A column of 4096 viewed as a vector reads its entry at the row. -/
theorem col_apply (x : (Fv Ideal S4096x1)) (r : Fin 4096) : shapeCast S4096 x shapeCasts_S4096x1_S4096 (ix1 r) = x (ix2 r (0 : Fin 1)) := by
  refine shapeCast_apply x _ (ix1 r) (ix2 r (0 : Fin 1)) ?_
  rw [Shape.rowMajor_val_one, Shape.rowMajor_val_two]
  show r.val * 1 + 0 = r.val
  omega

/-- The left operand's row is the result's row. -/
theorem dotH_l0 (i : S4096x1024.Idx) (q : dot_S4096x128_S128x1024_S4096x1024_1_0_0_1_n_n.contr.Idx) : (dot_S4096x128_S128x1024_S4096x1024_1_0_0_1_n_n.lhsIdx i q 0).val = (i 0).val := by
  unfold DotDims.lhsIdx
  rw [dif_neg (show ¬(0 : Fin S4096x128.rank) ∈ dot_S4096x128_S128x1024_S4096x1024_1_0_0_1_n_n.lhsBatch by decide), dif_pos (show (0 : Fin S4096x128.rank) ∈ dot_S4096x128_S128x1024_S4096x1024_1_0_0_1_n_n.lhsNonContracting by decide)]
  rfl
/-- The left operand's column is the contracted coordinate. -/
theorem dotH_l1 (i : S4096x1024.Idx) (q : dot_S4096x128_S128x1024_S4096x1024_1_0_0_1_n_n.contr.Idx) : (dot_S4096x128_S128x1024_S4096x1024_1_0_0_1_n_n.lhsIdx i q 1).val = (q ⟨0, by decide⟩).val :=
  dot_S4096x128_S128x1024_S4096x1024_1_0_0_1_n_n.lhsIdx_val_of_single rfl i q
/-- The right operand's row is the contracted coordinate. -/
theorem dotH_r0 (i : S4096x1024.Idx) (q : dot_S4096x128_S128x1024_S4096x1024_1_0_0_1_n_n.contr.Idx) : (dot_S4096x128_S128x1024_S4096x1024_1_0_0_1_n_n.rhsIdx i q 0).val = (q ⟨0, by decide⟩).val :=
  dot_S4096x128_S128x1024_S4096x1024_1_0_0_1_n_n.rhsIdx_val_of_single rfl i q
/-- The right operand's column is the result's column. -/
theorem dotH_r1 (i : S4096x1024.Idx) (q : dot_S4096x128_S128x1024_S4096x1024_1_0_0_1_n_n.contr.Idx) : (dot_S4096x128_S128x1024_S4096x1024_1_0_0_1_n_n.rhsIdx i q 1).val = (i 1).val := by
  unfold DotDims.rhsIdx
  rw [dif_neg (show ¬(1 : Fin S128x1024.rank) ∈ dot_S4096x128_S128x1024_S4096x1024_1_0_0_1_n_n.rhsBatch by decide), dif_pos (show (1 : Fin S128x1024.rank) ∈ dot_S4096x128_S128x1024_S4096x1024_1_0_0_1_n_n.rhsNonContracting by decide)]
  rfl
/-- The product at (r, c) is the sum over k of x[r,k]·y[k,c]. -/
theorem dotH_apply (x : FVec Ideal S4096x128 .f32) (y : FVec Ideal S128x1024 .f32) (r : Fin 4096) (c : Fin 1024) :
    Host.dotGeneral (F := Ideal) dot_S4096x128_S128x1024_S4096x1024_1_0_0_1_n_n none x y (ix2 r c) = ∑ k : Fin 128, x (ix2 r k) * y (ix2 k c) := by
  simp only [Host.dotGeneral]
  rw [Ideal.dotGeneral_apply, ← Equiv.sum_comp (contrEquiv1 dot_S4096x128_S128x1024_S4096x1024_1_0_0_1_n_n 128 rfl rfl).symm]
  refine Finset.sum_congr rfl fun k _ => ?_
  have hk := contrEquiv1_symm_val dot_S4096x128_S128x1024_S4096x1024_1_0_0_1_n_n 128 rfl rfl k
  have el : dot_S4096x128_S128x1024_S4096x1024_1_0_0_1_n_n.lhsIdx (ix2 r c) ((contrEquiv1 dot_S4096x128_S128x1024_S4096x1024_1_0_0_1_n_n 128 rfl rfl).symm k) = ix2 r k := funext fun a => Fin.ext (by
    match a with
    | ⟨0, _⟩ => exact dotH_l0 _ _
    | ⟨1, _⟩ => exact (dotH_l1 _ _).trans hk)
  have er : dot_S4096x128_S128x1024_S4096x1024_1_0_0_1_n_n.rhsIdx (ix2 r c) ((contrEquiv1 dot_S4096x128_S128x1024_S4096x1024_1_0_0_1_n_n 128 rfl rfl).symm k) = ix2 k c := funext fun a => Fin.ext (by
    match a with
    | ⟨0, _⟩ => exact (dotH_r0 _ _).trans hk
    | ⟨1, _⟩ => exact dotH_r1 _ _)
  rw [el, er]

/-- The left operand's row is the result's row. -/
theorem dotG_l0 (i : S4096x128.Idx) (q : dot_S4096x1024_S1024x128_S4096x128_1_0_0_1_n_n.contr.Idx) : (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl
/-- The left operand's column is the contracted coordinate. -/
theorem dotG_l1 (i : S4096x128.Idx) (q : dot_S4096x1024_S1024x128_S4096x128_1_0_0_1_n_n.contr.Idx) : (dot_S4096x1024_S1024x128_S4096x128_1_0_0_1_n_n.lhsIdx i q 1).val = (q ⟨0, by decide⟩).val :=
  dot_S4096x1024_S1024x128_S4096x128_1_0_0_1_n_n.lhsIdx_val_of_single rfl i q
/-- The right operand's row is the contracted coordinate. -/
theorem dotG_r0 (i : S4096x128.Idx) (q : dot_S4096x1024_S1024x128_S4096x128_1_0_0_1_n_n.contr.Idx) : (dot_S4096x1024_S1024x128_S4096x128_1_0_0_1_n_n.rhsIdx i q 0).val = (q ⟨0, by decide⟩).val :=
  dot_S4096x1024_S1024x128_S4096x128_1_0_0_1_n_n.rhsIdx_val_of_single rfl i q
/-- The right operand's column is the result's column. -/
theorem dotG_r1 (i : S4096x128.Idx) (q : dot_S4096x1024_S1024x128_S4096x128_1_0_0_1_n_n.contr.Idx) : (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl
/-- The product at (r, c) is the sum over k of x[r,k]·y[k,c]. -/
theorem dotG_apply (x : FVec Ideal S4096x1024 .f32) (y : FVec Ideal S1024x128 .f32) (r : Fin 4096) (c : Fin 128) :
    Host.dotGeneral (F := Ideal) dot_S4096x1024_S1024x128_S4096x128_1_0_0_1_n_n none x y (ix2 r c) = ∑ k : Fin 1024, x (ix2 r k) * y (ix2 k c) := by
  simp only [Host.dotGeneral]
  rw [Ideal.dotGeneral_apply, ← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 r c) ((contrEquiv1 dot_S4096x1024_S1024x128_S4096x128_1_0_0_1_n_n 1024 rfl rfl).symm k) = ix2 r k := funext fun a => Fin.ext (by
    match a with
    | ⟨0, _⟩ => exact dotG_l0 _ _
    | ⟨1, _⟩ => exact (dotG_l1 _ _).trans hk)
  have er : dot_S4096x1024_S1024x128_S4096x128_1_0_0_1_n_n.rhsIdx (ix2 r c) ((contrEquiv1 dot_S4096x1024_S1024x128_S4096x128_1_0_0_1_n_n 1024 rfl rfl).symm k) = ix2 k c := funext fun a => Fin.ext (by
    match a with
    | ⟨0, _⟩ => exact (dotG_r0 _ _).trans hk
    | ⟨1, _⟩ => exact dotG_r1 _ _)
  rw [el, er]

/-- The left operand's row is the result's row. -/
theorem dotO_l0 (i : S4096x1.Idx) (q : dot_S4096x128_S128x1_S4096x1_1_0_0_1_n_n.contr.Idx) : (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide), dif_pos (show (0 : Fin S4096x128.rank) ∈ dot_S4096x128_S128x1_S4096x1_1_0_0_1_n_n.lhsNonContracting by decide)]
  rfl
/-- The left operand's column is the contracted coordinate. -/
theorem dotO_l1 (i : S4096x1.Idx) (q : dot_S4096x128_S128x1_S4096x1_1_0_0_1_n_n.contr.Idx) : (dot_S4096x128_S128x1_S4096x1_1_0_0_1_n_n.lhsIdx i q 1).val = (q ⟨0, by decide⟩).val :=
  dot_S4096x128_S128x1_S4096x1_1_0_0_1_n_n.lhsIdx_val_of_single rfl i q
/-- The right operand's row is the contracted coordinate. -/
theorem dotO_r0 (i : S4096x1.Idx) (q : dot_S4096x128_S128x1_S4096x1_1_0_0_1_n_n.contr.Idx) : (dot_S4096x128_S128x1_S4096x1_1_0_0_1_n_n.rhsIdx i q 0).val = (q ⟨0, by decide⟩).val :=
  dot_S4096x128_S128x1_S4096x1_1_0_0_1_n_n.rhsIdx_val_of_single rfl i q
/-- The right operand's column is the result's column. -/
theorem dotO_r1 (i : S4096x1.Idx) (q : dot_S4096x128_S128x1_S4096x1_1_0_0_1_n_n.contr.Idx) : (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide), dif_pos (show (1 : Fin S128x1.rank) ∈ dot_S4096x128_S128x1_S4096x1_1_0_0_1_n_n.rhsNonContracting by decide)]
  rfl
/-- The product at (r, c) is the sum over k of x[r,k]·y[k,c]. -/
theorem dotO_apply (x : FVec Ideal S4096x128 .f32) (y : FVec Ideal S128x1 .f32) (r : Fin 4096) (c : Fin 1) :
    Host.dotGeneral (F := Ideal) dot_S4096x128_S128x1_S4096x1_1_0_0_1_n_n none x y (ix2 r c) = ∑ k : Fin 128, x (ix2 r k) * y (ix2 k c) := by
  simp only [Host.dotGeneral]
  rw [Ideal.dotGeneral_apply, ← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 r c) ((contrEquiv1 dot_S4096x128_S128x1_S4096x1_1_0_0_1_n_n 128 rfl rfl).symm k) = ix2 r k := funext fun a => Fin.ext (by
    match a with
    | ⟨0, _⟩ => exact dotO_l0 _ _
    | ⟨1, _⟩ => exact (dotO_l1 _ _).trans hk)
  have er : dot_S4096x128_S128x1_S4096x1_1_0_0_1_n_n.rhsIdx (ix2 r c) ((contrEquiv1 dot_S4096x128_S128x1_S4096x1_1_0_0_1_n_n 128 rfl rfl).symm k) = ix2 k c := funext fun a => Fin.ext (by
    match a with
    | ⟨0, _⟩ => exact (dotO_r0 _ _).trans hk
    | ⟨1, _⟩ => exact dotO_r1 _ _)
  rw [el, er]

/-- The hidden layer at (r, j). -/
theorem hidden_apply (p : (Fv Ideal S4096x128)) (w1 : (Fv Ideal S128x1024)) (b1 g1 be1 m1 v1 : (Fv Ideal S1024)) (r : Fin 4096) (j : Fin 1024) :
    hidden (F := Ideal) p w1 b1 g1 be1 m1 v1 (ix2 r j) = zRow (fun k => p (ix2 r k)) w1 b1 g1 be1 m1 v1 j := by
  unfold Spec.hidden zRow normT
  rw [leakyH_apply]
  simp only [addf_apply, mulf_apply, subf_apply, rowH_apply, dotH_apply]
  rfl

/-- The second layer before its `leaky` at (r, q). -/
theorem second_apply (z : (Fv Ideal S4096x1024)) (w2 : (Fv Ideal S1024x128)) (b2 g2 be2 m2 v2 : (Fv Ideal S128)) (r : Fin 4096) (q : Fin 128) :
    second (F := Ideal) z w2 b2 g2 be2 m2 v2 (ix2 r q)
      = normT (uRow (fun j => z (ix2 r j)) w2 b2 q) (m2 (ix1 q)) (v2 (ix1 q)) (g2 (ix1 q)) (be2 (ix1 q)) := by
  unfold second uRow normT
  simp only [addf_apply, mulf_apply, subf_apply, rowG_apply, dotG_apply]
  rfl

/-- The read-out at row r. -/
theorem readout_apply (y : (Fv Ideal S4096x128)) (w3 : (Fv Ideal S128x1)) (b3 : (Fv Ideal S1)) (r : Fin 4096) :
    readout (F := Ideal) y w3 b3 (ix1 r) = (∑ q : Fin 128, leakyS (y (ix2 r q)) * w3 (ix2 q 0)) + b3 (ix1 0) := by
  unfold readout
  rw [col_apply, addf_apply, b3_apply, dotO_apply]
  simp only [leakyG_apply]

/-- THE SPECIFICATION AT A ROW: the perceptron's value on that row of the pooled features. -/
theorem mlpOut_row (p : (Fv Ideal S4096x128)) (w1 : (Fv Ideal S128x1024)) (b1 : (Fv Ideal S1024)) (w2 : (Fv Ideal S1024x128)) (b2 : (Fv Ideal S128)) (w3 : (Fv Ideal S128x1))
    (b3 : (Fv Ideal S1)) (g1 be1 m1 v1 : (Fv Ideal S1024)) (g2 be2 m2 v2 : (Fv Ideal S128)) (r : Fin 4096) :
    mlpOut (F := Ideal) p w1 b1 w2 b2 w3 b3 g1 be1 m1 v1 g2 be2 m2 v2 (ix1 r)
      = mlpRow (fun k => p (ix2 r k)) w1 b1 w2 b2 w3 b3 g1 be1 m1 v1 g2 be2 m2 v2 := by
  unfold mlpOut mlpRow outRow
  rw [readout_apply]
  simp only [second_apply, hidden_apply]

end Ref

end Cert.Mlp

end
-- ==== Proof.MlpValue.lean ====
/-
  The perceptron region of the kernel: what its output array holds after the region, as the specification's whole-array
  function of the arrays the region finds.

  The region runs 4 points; point `t` reads rows `1024·t … 1024·t + 1023` of the pooled features and the whole weight
  arrays, and writes entries `1024·t … 1024·t + 1023` of the output. At an entry the body's value is the perceptron's
  value on that row (`Cert.Mlp.mlpRow`): a product of matrices into a zero accumulator is the sum over the contracted
  coordinate, a change of float format is the identity on extended reals, a vector repeated over the rows reads its entry
  at the column, the lane sum is the sum over the 128 columns. The specification at a row is the same function
  (`Cert.Mlp.mlpOut_row`). The four blocks tile the output.
-/
import proofs.«153378_j9809705305013_1_alg».proof.Proof.Gen.KernelIdeal.Frame
import proofs.«153378_j9809705305013_1_alg».proof.Proof.Model
import proofs.«153378_j9809705305013_1_alg».proof.Proof.MlpPure
import Idealize.ShloMosaic.Lib.Pipeline.Value
import Idealize.ShloMosaic.Lib.ValueIdx
import Idealize.ShloMosaic.PureOps.Ideal.Laws

noncomputable section

namespace Cert.KernelIdeal.MlpValue

open Cert.KernelIdeal Cert.KernelIdeal.Gen Idealize.ShloMosaic Idealize.ShloMosaic.TcCoe Idealize.SL.Sem
open Idealize.ShloMosaic.Pipeline (Dat)
open Idealize.ShloMosaic.ValueIdx Cert.Mlp
open scoped BigOperators

/-! ## The body's layout operations at an index -/

section Layout
variable {α : Type}

/-- A vector of 1024 viewed as a one-row matrix reads its entry at the column. -/
theorem castRow1024 (v : S1024.Idx → α) (h : S1024.ShapeCasts S1x1024) (q : Fin 1024) :
    shapeCast S1x1024 v h (ix2 (0 : Fin 1) q) = v (ix1 q) := by
  refine shapeCast_apply v h (ix2 (0 : Fin 1) q) (ix1 q) ?_
  rw [Shape.rowMajor_val_one, Shape.rowMajor_val_two]
  show q.val = 0 * 1024 + q.val
  omega
/-- A one-row matrix repeated over the 1024 rows of a block reads its row at the column. -/
theorem bcastRow1024 (x : S1x1024.Idx → α) (h : S1x1024.Broadcasts S1024x1024) (p : Fin 1024) (q : Fin 1024) :
    broadcastTo S1024x1024 x h (ix2 p q) = x (ix2 (0 : Fin 1) q) := by
  refine broadcastTo_apply x h (ix2 p q) (ix2 (0 : Fin 1) q) (fun a => ?_)
  match a with
  | ⟨0, _⟩ => rfl
  | ⟨1, _⟩ => rfl
/-- So a vector of 1024 repeated over the rows reads its entry at the column. -/
theorem rowK1024 (v : S1024.Idx → α) (h1 : S1024.ShapeCasts S1x1024) (h2 : S1x1024.Broadcasts S1024x1024) (p : Fin 1024) (q : Fin 1024) :
    broadcastTo S1024x1024 (shapeCast S1x1024 v h1) h2 (ix2 p q) = v (ix1 q) :=
  (bcastRow1024 _ h2 p q).trans (castRow1024 v h1 q)

/-- A vector of 128 viewed as a one-row matrix reads its entry at the column. -/
theorem castRow128 (v : S128.Idx → α) (h : S128.ShapeCasts S1x128) (q : Fin 128) :
    shapeCast S1x128 v h (ix2 (0 : Fin 1) q) = v (ix1 q) := by
  refine shapeCast_apply v h (ix2 (0 : Fin 1) q) (ix1 q) ?_
  rw [Shape.rowMajor_val_one, Shape.rowMajor_val_two]
  show q.val = 0 * 128 + q.val
  omega
/-- A one-row matrix repeated over the 1024 rows of a block reads its row at the column. -/
theorem bcastRow128 (x : S1x128.Idx → α) (h : S1x128.Broadcasts S1024x128) (p : Fin 1024) (q : Fin 128) :
    broadcastTo S1024x128 x h (ix2 p q) = x (ix2 (0 : Fin 1) q) := by
  refine broadcastTo_apply x h (ix2 p q) (ix2 (0 : Fin 1) q) (fun a => ?_)
  match a with
  | ⟨0, _⟩ => rfl
  | ⟨1, _⟩ => rfl
/-- So a vector of 128 repeated over the rows reads its entry at the column. -/
theorem rowK128 (v : S128.Idx → α) (h1 : S128.ShapeCasts S1x128) (h2 : S1x128.Broadcasts S1024x128) (p : Fin 1024) (q : Fin 128) :
    broadcastTo S1024x128 (shapeCast S1x128 v h1) h2 (ix2 p q) = v (ix1 q) :=
  (bcastRow128 _ h2 p q).trans (castRow128 v h1 q)

/-- A column of 128 viewed as a vector reads its entry at the row. -/
theorem colK_apply (x : S128x1.Idx → α) (h : S128x1.ShapeCasts S128) (q : Fin 128) : shapeCast S128 x h (ix1 q) = x (ix2 q (0 : Fin 1)) := by
  refine shapeCast_apply x h (ix1 q) (ix2 q (0 : Fin 1)) ?_
  rw [Shape.rowMajor_val_one, Shape.rowMajor_val_two]
  show q.val * 1 + 0 = q.val
  omega
/-- The one entry of a vector of length one. -/
theorem extract1_apply (x : S1.Idx → α) (h : ∀ a, (![0] : Fin S1.rank → Nat) a < S1.size a) : extractAt ![0] x h = x (ix1 (0 : Fin 1)) := by
  unfold extractAt
  refine congrArg x (funext fun a => ?_)
  match a with
  | ⟨0, _⟩ => rfl

end Layout

/-- The reciprocal square root of `σ² + ε` repeated over the rows, at an entry. -/
theorem rsK1024 (v : FVec Ideal S1024 .f32) (h1 : S1024.ShapeCasts S1x1024) (h2 : S1x1024.Broadcasts S1024x1024) (p : Fin 1024) (q : Fin 1024) :
    broadcastTo S1024x1024 (rsqrt (addf (shapeCast S1x1024 v h1) (broadcast S1x1024 (Scalar.ofBits .f32 0x3727C5AC#32 : Ideal .f32)))) h2 (ix2 p q)
      = Ideal.rsqrt (v (ix1 q) + Ideal.ofBits .f32 0x3727C5AC#32) := by
  refine (bcastRow1024 _ h2 p q).trans ?_
  show Ideal.rsqrt (shapeCast S1x1024 v h1 (ix2 (0 : Fin 1) q) + Ideal.ofBits .f32 0x3727C5AC#32) = _
  rw [castRow1024]

/-- The reciprocal square root of `σ² + ε` repeated over the rows, at an entry. -/
theorem rsK128 (v : FVec Ideal S128 .f32) (h1 : S128.ShapeCasts S1x128) (h2 : S1x128.Broadcasts S1024x128) (p : Fin 1024) (q : Fin 128) :
    broadcastTo S1024x128 (rsqrt (addf (shapeCast S1x128 v h1) (broadcast S1x128 (Scalar.ofBits .f32 0x3727C5AC#32 : Ideal .f32)))) h2 (ix2 p q)
      = Ideal.rsqrt (v (ix1 q) + Ideal.ofBits .f32 0x3727C5AC#32) := by
  refine (bcastRow128 _ h2 p q).trans ?_
  show Ideal.rsqrt (shapeCast S1x128 v h1 (ix2 (0 : Fin 1) q) + Ideal.ofBits .f32 0x3727C5AC#32) = _
  rw [castRow128]

/-- `leaky` as the body spells it, at an entry. -/
theorem leakyK_apply {s : Shape} (x : FVec Ideal s .f32) (i : s.Idx) :
    select (cmpf .oge x (broadcast s (Scalar.ofBits .f32 0x00000000#32 : Ideal .f32))) x
        (mulf (broadcast s (Scalar.ofBits .f32 0x3C23D70A#32 : Ideal .f32)) x) i = leakyS (x i) := rfl

/-- The lane sum of a [1024,128] block at row p: the sum over the 128 columns. -/
theorem mred_apply (src : FVec Ideal S1024x128 .f32) (h : S1024x128.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ q : Fin 128, src (ix2 p q) := by
  refine (Ideal.multiReduction_add_single src 0x00000000#32 h hφ hacc (ix1 p)).trans ?_
  show ∑ q : Fin 128, src (h.lift (ix1 p) q) = _
  refine Finset.sum_congr rfl fun q _ => congrArg src (funext fun a => Fin.ext ?_)
  match a with
  | ⟨0, _⟩ => rfl
  | ⟨1, _⟩ => rfl

/-- The left operand's row is the result's row. -/
theorem mm1_l0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column is the contracted coordinate. -/
theorem mm1_l1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row is the contracted coordinate. -/
theorem mm1_r0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column is the result's column. -/
theorem mm1_r1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl
/-- The product at (r, c) is the sum over k of x[r,k]·y[k,c]. -/
theorem mm1_apply (x : FVec Ideal S1024x128 .bf16) (y : FVec Ideal S128x1024 .bf16) (r : Fin 1024) (c : Fin 1024) :
    matmul (F := Ideal) dot_S1024x128_S128x1024_S1024x1024_1_0_0_1_n_n none x y (constant (F := Ideal) S1024x1024 .f32 0x00000000#32) (ix2 r c) = ∑ k : Fin 128, x (ix2 r k) * y (ix2 k c) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact mm1_l0 _ _
    | ⟨1, _⟩ => exact (mm1_l1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (mm1_r0 _ _).trans hk
    | ⟨1, _⟩ => exact mm1_r1 _ _)
  rw [el, er]

/-- The left operand's row is the result's row. -/
theorem mm2_l0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The left operand's column is the contracted coordinate. -/
theorem mm2_l1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row is the contracted coordinate. -/
theorem mm2_r0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column is the result's column. -/
theorem mm2_r1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl
/-- The product at (r, c) is the sum over k of x[r,k]·y[k,c]. -/
theorem mm2_apply (x : FVec Ideal S1024x1024 .bf16) (y : FVec Ideal S1024x128 .bf16) (r : Fin 1024) (c : Fin 128) :
    matmul (F := Ideal) dot_S1024x1024_S1024x128_S1024x128_1_0_0_1_n_n none x y (constant (F := Ideal) S1024x128 .f32 0x00000000#32) (ix2 r c) = ∑ k : Fin 1024, x (ix2 r k) * y (ix2 k c) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r c) ((contrEquiv1 dot_S1024x1024_S1024x128_S1024x128_1_0_0_1_n_n 1024 rfl rfl).symm k) = ix2 r k := funext fun a => Fin.ext (by
    match a with
    | ⟨0, _⟩ => exact mm2_l0 _ _
    | ⟨1, _⟩ => exact (mm2_l1 _ _).trans hk)
  have er : dot_S1024x1024_S1024x128_S1024x128_1_0_0_1_n_n.rhsIdx (ix2 r c) ((contrEquiv1 dot_S1024x1024_S1024x128_S1024x128_1_0_0_1_n_n 1024 rfl rfl).symm k) = ix2 k c := funext fun a => Fin.ext (by
    match a with
    | ⟨0, _⟩ => exact (mm2_r0 _ _).trans hk
    | ⟨1, _⟩ => exact mm2_r1 _ _)
  rw [el, er]

/-! ## The body's two payloads at an index -/

/-- The first part's value `z·W₂ + b₂` at (p, q), from row p of the pooled block. -/
theorem pay2_apply (v0 : Vec Ideal S1024x128 .f32) (v3 : Vec Ideal S128x1024 .f32) (v6 v10 v14 v21 v25 : Vec Ideal S1024 .f32)
    (v35 : Vec Ideal S1024x128 .f32) (v38 : Vec Ideal S128 .f32) (p : Fin 1024) (q : Fin 128) :
    k3_pay2 (F := Ideal) v0 v3 v6 v10 v14 v21 v25 v35 v38 (ix2 p q)
      = uRow (zRow (fun k => v0 (ix2 p k)) v3 v6 v21 v25 v10 v14) v35 v38 q := by
  unfold k3_pay2 uRow zRow normT
  simp only [addf_apply, subf_apply, mulf_apply, truncf_apply, leakyK_apply, mm1_apply, mm2_apply, rowK1024, rowK128, rsK1024,
    shapeCast_self]

/-- The stored value at entry p, from row p of the first part's value. -/
theorem pay1_apply (v41 : FVec Ideal S1024x128 .f32) (v42 v46 v53 v57 : Vec Ideal S128 .f32) (v66 : Vec Ideal S128x1 .f32)
    (v72 : Vec Ideal S1 .f32) (p : Fin 1024) :
    k3_pay1 (F := Ideal) v41 v42 v46 v53 v57 v66 v72 (ix1 p) = outRow (fun q => v41 (ix2 p q)) v53 v57 v42 v46 v66 v72 := by
  unfold k3_pay1 outRow normT
  simp only [addf_apply, broadcast_apply, extract1_apply]
  congr 1
  refine (mred_apply _ _ _ _ p).trans ?_
  simp only [addf_apply, subf_apply, mulf_apply, leakyK_apply, rowK128, rsK128, colK_apply]

/-- THE BODY AT AN ENTRY: the perceptron's value on that row of the pooled block. -/
theorem pay_apply (x0 : Vec Ideal S1024x128 .f32) (x1 : Vec Ideal S128x1024 .f32) (x2 : Vec Ideal S1024 .f32) (x3 : Vec Ideal S1024x128 .f32) (x4 : Vec Ideal S128 .f32) (x5 : Vec Ideal S128x1 .f32) (x6 : Vec Ideal S1 .f32) (x7 x8 x9 x10 : Vec Ideal S1024 .f32) (x11 x12 x13 x14 : Vec Ideal S128 .f32) (y : S1024.Idx) :
    k3_pay1 (F := Ideal) (k3_pay2 x0 x1 x2 x9 x10 x7 x8 x3 x4) x13 x14 x11 x12 x5 x6 y
      = mlpRow (fun k => x0 (ix2 (⟨(y 0).val, (y 0).isLt⟩ : Fin 1024) k)) x1 x2 x3 x4 x5 x6 x7 x8 x9 x10 x11 x12 x13 x14 := by
  obtain ⟨p, rfl⟩ : ∃ p : Fin 1024, y = ix1 p := ⟨y 0, eq_ix1 y⟩
  rw [pay1_apply]
  unfold mlpRow
  simp only [pay2_apply]

theorem hz1 : (![0] : Fin 1 → Nat) = fun _ => 0 := funext fun a => by fin_cases a <;> rfl
theorem hz2 : (![0, 0] : Fin 2 → Nat) = fun _ => 0 := funext fun a => by fin_cases a <;> rfl

/-- One store through the whole staging buffer leaves its payload, and a load through a whole buffer reads it: the
    staging buffer after the body, at an entry, is the perceptron's value on that row of the pooled block. -/
theorem out_apply (x0 : Vec Ideal S1024x128 .f32) (x1 : Vec Ideal S128x1024 .f32) (x2 : Vec Ideal S1024 .f32) (x3 : Vec Ideal S1024x128 .f32) (x4 : Vec Ideal S128 .f32) (x5 : Vec Ideal S128x1 .f32) (x6 : Vec Ideal S1 .f32) (x7 x8 x9 x10 : Vec Ideal S1024 .f32) (x11 x12 x13 x14 : Vec Ideal S128 .f32) (y : S1024.Idx) :
    out3_15 (F := Ideal) x0 x1 x2 x3 x4 x5 x6 x7 x8 x9 x10 x11 x12 x13 x14 y
      = mlpRow (fun k => x0 (ix2 (⟨(y 0).val, (y 0).isLt⟩ : Fin 1024) k)) x1 x2 x3 x4 x5 x6 x7 x8 x9 x10 x11 x12 x13 x14 := by
  unfold out3_15
  rw [View.canon_unit_zero hz1]
  simp only [View.ld_unit_zero (S := S1024x128) hz2, View.ld_unit_zero (S := S128x1024) hz2, View.ld_unit_zero (S := S1024) hz1,
    View.ld_unit_zero (S := S128) hz1, View.ld_unit_zero (S := S128x1) hz2, View.ld_unit_zero (S := S1) hz1]
  exact pay_apply x0 x1 x2 x3 x4 x5 x6 x7 x8 x9 x10 x11 x12 x13 x14 y

/-- The perceptron's value depends on its arguments only. -/
theorem mlpRow_congr {x x' : Fin 128 → EReal} {w1 w1' : T128x1024.Idx → EReal} {b1 b1' : T1024.Idx → EReal} {w2 w2' : T1024x128.Idx → EReal}
    {b2 b2' : T128.Idx → EReal} {w3 w3' : T128x1.Idx → EReal} {b3 b3' : T1.Idx → EReal} {g1 g1' be1 be1' m1 m1' v1 v1' : T1024.Idx → EReal}
    {g2 g2' be2 be2' m2 m2' v2 v2' : T128.Idx → EReal} (hx : x = x') (h1 : w1 = w1') (h2 : b1 = b1') (h3 : w2 = w2') (h4 : b2 = b2')
    (h5 : w3 = w3') (h6 : b3 = b3') (h7 : g1 = g1') (h8 : be1 = be1') (h9 : m1 = m1') (h10 : v1 = v1') (h11 : g2 = g2') (h12 : be2 = be2')
    (h13 : m2 = m2') (h14 : v2 = v2') :
    mlpRow x w1 b1 w2 b2 w3 b3 g1 be1 m1 v1 g2 be2 m2 v2 = mlpRow x' w1' b1' w2' b2' w3' b3' g1' be1' m1' v1' g2' be2' m2' v2' := by
  subst hx h1 h2 h3 h4 h5 h6 h7 h8 h9 h10 h11 h12 h13 h14
  rfl

/-! ## From blocks to the array -/

variable (V : (c : Dev nD) → (b : Ref sig .tc) → Buf (Elt Ideal) ((c : Thread nD τ).loc b))

/-- Window 1's block index is zero at every point: its block is its whole array. -/
theorem idx3_1 : ∀ t : Fin cfg3.N, win3_1.index t (0 : Fin 2) = 0 ∧ win3_1.index t (1 : Fin 2) = 0 :=
  (by decide +kernel : ∀ t : Fin grid3.N, _)
theorem iblk3_1 (c : Dev nD) (t : Fin cfg3.N) : (iblk3 (F := Ideal) V c 1 t : Vec Ideal S128x1024 .f32) = V c main_arg13 := by
  obtain ⟨h0, h1⟩ := idx3_1 t
  funext j
  unfold iblk3
  rw [View.read_apply]
  show V c main_arg13 _ = V c main_arg13 _
  congr 1
  funext a
  apply Fin.ext
  match a with
  | ⟨0, _⟩ => show win3_1.index t (0 : Fin 2) * 128 + 1 * (j 0).val = (j 0).val; rw [h0]; omega
  | ⟨1, _⟩ => show win3_1.index t (1 : Fin 2) * 1024 + 1 * (j 1).val = (j 1).val; rw [h1]; omega

/-- Window 2's block index is zero at every point: its block is its whole array. -/
theorem idx3_2 : ∀ t : Fin cfg3.N, win3_2.index t (0 : Fin 1) = 0 :=
  (by decide +kernel : ∀ t : Fin grid3.N, _)
theorem iblk3_2 (c : Dev nD) (t : Fin cfg3.N) : (iblk3 (F := Ideal) V c 2 t : Vec Ideal S1024 .f32) = V c main_arg14 := by
  obtain h0 := idx3_2 t
  funext j
  unfold iblk3
  rw [View.read_apply]
  show V c main_arg14 _ = V c main_arg14 _
  congr 1
  funext a
  apply Fin.ext
  match a with
  | ⟨0, _⟩ => show win3_2.index t (0 : Fin 1) * 1024 + 1 * (j 0).val = (j 0).val; rw [h0]; omega

/-- Window 3's block index is zero at every point: its block is its whole array. -/
theorem idx3_3 : ∀ t : Fin cfg3.N, win3_3.index t (0 : Fin 2) = 0 ∧ win3_3.index t (1 : Fin 2) = 0 :=
  (by decide +kernel : ∀ t : Fin grid3.N, _)
theorem iblk3_3 (c : Dev nD) (t : Fin cfg3.N) : (iblk3 (F := Ideal) V c 3 t : Vec Ideal S1024x128 .f32) = V c main_arg15 := by
  obtain ⟨h0, h1⟩ := idx3_3 t
  funext j
  unfold iblk3
  rw [View.read_apply]
  show V c main_arg15 _ = V c main_arg15 _
  congr 1
  funext a
  apply Fin.ext
  match a with
  | ⟨0, _⟩ => show win3_3.index t (0 : Fin 2) * 1024 + 1 * (j 0).val = (j 0).val; rw [h0]; omega
  | ⟨1, _⟩ => show win3_3.index t (1 : Fin 2) * 128 + 1 * (j 1).val = (j 1).val; rw [h1]; omega

/-- Window 4's block index is zero at every point: its block is its whole array. -/
theorem idx3_4 : ∀ t : Fin cfg3.N, win3_4.index t (0 : Fin 1) = 0 :=
  (by decide +kernel : ∀ t : Fin grid3.N, _)
theorem iblk3_4 (c : Dev nD) (t : Fin cfg3.N) : (iblk3 (F := Ideal) V c 4 t : Vec Ideal S128 .f32) = V c main_arg16 := by
  obtain h0 := idx3_4 t
  funext j
  unfold iblk3
  rw [View.read_apply]
  show V c main_arg16 _ = V c main_arg16 _
  congr 1
  funext a
  apply Fin.ext
  match a with
  | ⟨0, _⟩ => show win3_4.index t (0 : Fin 1) * 128 + 1 * (j 0).val = (j 0).val; rw [h0]; omega

/-- Window 5's block index is zero at every point: its block is its whole array. -/
theorem idx3_5 : ∀ t : Fin cfg3.N, win3_5.index t (0 : Fin 2) = 0 ∧ win3_5.index t (1 : Fin 2) = 0 :=
  (by decide +kernel : ∀ t : Fin grid3.N, _)
theorem iblk3_5 (c : Dev nD) (t : Fin cfg3.N) : (iblk3 (F := Ideal) V c 5 t : Vec Ideal S128x1 .f32) = V c main_arg17 := by
  obtain ⟨h0, h1⟩ := idx3_5 t
  funext j
  unfold iblk3
  rw [View.read_apply]
  show V c main_arg17 _ = V c main_arg17 _
  congr 1
  funext a
  apply Fin.ext
  match a with
  | ⟨0, _⟩ => show win3_5.index t (0 : Fin 2) * 128 + 1 * (j 0).val = (j 0).val; rw [h0]; omega
  | ⟨1, _⟩ => show win3_5.index t (1 : Fin 2) * 1 + 1 * (j 1).val = (j 1).val; rw [h1]; omega

/-- Window 6's block index is zero at every point: its block is its whole array. -/
theorem idx3_6 : ∀ t : Fin cfg3.N, win3_6.index t (0 : Fin 1) = 0 :=
  (by decide +kernel : ∀ t : Fin grid3.N, _)
theorem iblk3_6 (c : Dev nD) (t : Fin cfg3.N) : (iblk3 (F := Ideal) V c 6 t : Vec Ideal S1 .f32) = V c main_arg18 := by
  obtain h0 := idx3_6 t
  funext j
  unfold iblk3
  rw [View.read_apply]
  show V c main_arg18 _ = V c main_arg18 _
  congr 1
  funext a
  apply Fin.ext
  match a with
  | ⟨0, _⟩ => show win3_6.index t (0 : Fin 1) * 1 + 1 * (j 0).val = (j 0).val; rw [h0]; omega

/-- Window 7's block index is zero at every point: its block is its whole array. -/
theorem idx3_7 : ∀ t : Fin cfg3.N, win3_7.index t (0 : Fin 1) = 0 :=
  (by decide +kernel : ∀ t : Fin grid3.N, _)
theorem iblk3_7 (c : Dev nD) (t : Fin cfg3.N) : (iblk3 (F := Ideal) V c 7 t : Vec Ideal S1024 .f32) = V c main_arg19 := by
  obtain h0 := idx3_7 t
  funext j
  unfold iblk3
  rw [View.read_apply]
  show V c main_arg19 _ = V c main_arg19 _
  congr 1
  funext a
  apply Fin.ext
  match a with
  | ⟨0, _⟩ => show win3_7.index t (0 : Fin 1) * 1024 + 1 * (j 0).val = (j 0).val; rw [h0]; omega

/-- Window 8's block index is zero at every point: its block is its whole array. -/
theorem idx3_8 : ∀ t : Fin cfg3.N, win3_8.index t (0 : Fin 1) = 0 :=
  (by decide +kernel : ∀ t : Fin grid3.N, _)
theorem iblk3_8 (c : Dev nD) (t : Fin cfg3.N) : (iblk3 (F := Ideal) V c 8 t : Vec Ideal S1024 .f32) = V c main_arg20 := by
  obtain h0 := idx3_8 t
  funext j
  unfold iblk3
  rw [View.read_apply]
  show V c main_arg20 _ = V c main_arg20 _
  congr 1
  funext a
  apply Fin.ext
  match a with
  | ⟨0, _⟩ => show win3_8.index t (0 : Fin 1) * 1024 + 1 * (j 0).val = (j 0).val; rw [h0]; omega

/-- Window 9's block index is zero at every point: its block is its whole array. -/
theorem idx3_9 : ∀ t : Fin cfg3.N, win3_9.index t (0 : Fin 1) = 0 :=
  (by decide +kernel : ∀ t : Fin grid3.N, _)
theorem iblk3_9 (c : Dev nD) (t : Fin cfg3.N) : (iblk3 (F := Ideal) V c 9 t : Vec Ideal S1024 .f32) = V c main_arg21 := by
  obtain h0 := idx3_9 t
  funext j
  unfold iblk3
  rw [View.read_apply]
  show V c main_arg21 _ = V c main_arg21 _
  congr 1
  funext a
  apply Fin.ext
  match a with
  | ⟨0, _⟩ => show win3_9.index t (0 : Fin 1) * 1024 + 1 * (j 0).val = (j 0).val; rw [h0]; omega

/-- Window 10's block index is zero at every point: its block is its whole array. -/
theorem idx3_10 : ∀ t : Fin cfg3.N, win3_10.index t (0 : Fin 1) = 0 :=
  (by decide +kernel : ∀ t : Fin grid3.N, _)
theorem iblk3_10 (c : Dev nD) (t : Fin cfg3.N) : (iblk3 (F := Ideal) V c 10 t : Vec Ideal S1024 .f32) = V c main_arg22 := by
  obtain h0 := idx3_10 t
  funext j
  unfold iblk3
  rw [View.read_apply]
  show V c main_arg22 _ = V c main_arg22 _
  congr 1
  funext a
  apply Fin.ext
  match a with
  | ⟨0, _⟩ => show win3_10.index t (0 : Fin 1) * 1024 + 1 * (j 0).val = (j 0).val; rw [h0]; omega

/-- Window 11's block index is zero at every point: its block is its whole array. -/
theorem idx3_11 : ∀ t : Fin cfg3.N, win3_11.index t (0 : Fin 1) = 0 :=
  (by decide +kernel : ∀ t : Fin grid3.N, _)
theorem iblk3_11 (c : Dev nD) (t : Fin cfg3.N) : (iblk3 (F := Ideal) V c 11 t : Vec Ideal S128 .f32) = V c main_arg23 := by
  obtain h0 := idx3_11 t
  funext j
  unfold iblk3
  rw [View.read_apply]
  show V c main_arg23 _ = V c main_arg23 _
  congr 1
  funext a
  apply Fin.ext
  match a with
  | ⟨0, _⟩ => show win3_11.index t (0 : Fin 1) * 128 + 1 * (j 0).val = (j 0).val; rw [h0]; omega

/-- Window 12's block index is zero at every point: its block is its whole array. -/
theorem idx3_12 : ∀ t : Fin cfg3.N, win3_12.index t (0 : Fin 1) = 0 :=
  (by decide +kernel : ∀ t : Fin grid3.N, _)
theorem iblk3_12 (c : Dev nD) (t : Fin cfg3.N) : (iblk3 (F := Ideal) V c 12 t : Vec Ideal S128 .f32) = V c main_arg24 := by
  obtain h0 := idx3_12 t
  funext j
  unfold iblk3
  rw [View.read_apply]
  show V c main_arg24 _ = V c main_arg24 _
  congr 1
  funext a
  apply Fin.ext
  match a with
  | ⟨0, _⟩ => show win3_12.index t (0 : Fin 1) * 128 + 1 * (j 0).val = (j 0).val; rw [h0]; omega

/-- Window 13's block index is zero at every point: its block is its whole array. -/
theorem idx3_13 : ∀ t : Fin cfg3.N, win3_13.index t (0 : Fin 1) = 0 :=
  (by decide +kernel : ∀ t : Fin grid3.N, _)
theorem iblk3_13 (c : Dev nD) (t : Fin cfg3.N) : (iblk3 (F := Ideal) V c 13 t : Vec Ideal S128 .f32) = V c main_arg25 := by
  obtain h0 := idx3_13 t
  funext j
  unfold iblk3
  rw [View.read_apply]
  show V c main_arg25 _ = V c main_arg25 _
  congr 1
  funext a
  apply Fin.ext
  match a with
  | ⟨0, _⟩ => show win3_13.index t (0 : Fin 1) * 128 + 1 * (j 0).val = (j 0).val; rw [h0]; omega

/-- Window 14's block index is zero at every point: its block is its whole array. -/
theorem idx3_14 : ∀ t : Fin cfg3.N, win3_14.index t (0 : Fin 1) = 0 :=
  (by decide +kernel : ∀ t : Fin grid3.N, _)
theorem iblk3_14 (c : Dev nD) (t : Fin cfg3.N) : (iblk3 (F := Ideal) V c 14 t : Vec Ideal S128 .f32) = V c main_arg26 := by
  obtain h0 := idx3_14 t
  funext j
  unfold iblk3
  rw [View.read_apply]
  show V c main_arg26 _ = V c main_arg26 _
  congr 1
  funext a
  apply Fin.ext
  match a with
  | ⟨0, _⟩ => show win3_14.index t (0 : Fin 1) * 128 + 1 * (j 0).val = (j 0).val; rw [h0]; omega

/-- The pooled features' block and the output's block move together, one block of 1024 rows per point. -/
theorem idx3_0 : ∀ t : Fin cfg3.N, win3_0.index t (0 : Fin 2) = win3_15.index t (0 : Fin 1) ∧ win3_0.index t (1 : Fin 2) = 0 :=
  (by decide +kernel : ∀ t : Fin grid3.N, _)
/-- Every block of the output is some point's. -/
theorem idx3_onto : ∀ b : Fin 4, ∃ t : Fin cfg3.N, win3_15.index t (0 : Fin 1) = b.val :=
  (by decide +kernel : ∀ b : Fin 4, ∃ t : Fin grid3.N, win3_15.index t (0 : Fin 1) = b.val)

set_option maxHeartbeats 1000000 in
/-- WHAT POINT `t` WRITES BACK is block `t` of the specification's function of the arrays as the region finds them. -/
theorem flushed_eq (c : Dev nD) (t : Fin cfg3.N) :
    (dat3 (F := Ideal) V c).flushed 15 t
      = ((cfg3.win 15).blk t).view.read (Elt Ideal) (Cert.Spec.mlpOut (F := Ideal) (V c main_v55) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26)) := by
  show (cfg3.win 15).cut (grid3.coords t) ((dat3 V c).after 15 t) = _
  rw [after3_15]
  obtain ⟨e0, e1⟩ := idx3_0 t
  funext y
  refine (out_apply _ _ _ _ _ _ _ _ _ _ _ _ _ _ _ _).trans ?_
  show _ = Cert.Spec.mlpOut (F := Ideal) (V c main_v55) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) (((cfg3.win 15).blk t).view.emb y)
  rw [eq_ix1 (n := 4096) (((cfg3.win 15).blk t).view.emb y)]
  refine Eq.trans ?_ (mlpOut_row _ _ _ _ _ _ _ _ _ _ _ _ _ _ _ _).symm
  refine mlpRow_congr ?_ (iblk3_1 V c t) (iblk3_2 V c t) (iblk3_3 V c t) (iblk3_4 V c t) (iblk3_5 V c t) (iblk3_6 V c t) (iblk3_7 V c t) (iblk3_8 V c t) (iblk3_9 V c t) (iblk3_10 V c t) (iblk3_11 V c t) (iblk3_12 V c t) (iblk3_13 V c t) (iblk3_14 V c t)
  funext k
  unfold iblk3
  rw [View.read_apply]
  show V c main_v55 _ = V c main_v55 _
  congr 1
  funext a
  apply Fin.ext
  match a with
  | ⟨0, _⟩ => show win3_0.index t (0 : Fin 2) * 1024 + 1 * (y 0).val = win3_15.index t (0 : Fin 1) * 1024 + 1 * (y 0).val; rw [e0]
  | ⟨1, _⟩ => show win3_0.index t (1 : Fin 2) * 128 + 1 * k.val = k.val; rw [e1]; omega

/-- Every entry of the output is in some point's block: entry r in the block of point r / 1024. -/
theorem cover (i : S4096.Idx) : ∃ t : Fin cfg3.N, (cfg3.win 15).flush t = true ∧ i ∈ ((cfg3.win 15).blk t).view.set := by
  have hi : (i 0).val < 4096 := (i 0).isLt
  obtain ⟨t, ht⟩ := idx3_onto ⟨(i 0).val / 1024, by omega⟩
  have ht' : win3_15.index t (0 : Fin 1) = (i 0).val / 1024 := ht
  refine ⟨t, flush3_15 t, ?_⟩
  show i ∈ ((View.whole main_v56).slice (win3_15.rect t)).set
  rw [View.set_slice_whole, Rect.mem_set_unit]
  intro a
  match a with
  | ⟨0, _⟩ =>
    show win3_15.index t (0 : Fin 1) * 1024 ≤ (i 0).val ∧ (i 0).val < win3_15.index t (0 : Fin 1) * 1024 + 1024
    omega

/-- THE OUTPUT ARRAY after the region: the specification's perceptron of the arrays the region finds. -/
theorem mlp (c : Dev nD) : (dat3 (F := Ideal) V c).arrAt 15 cfg3.N = Cert.Spec.mlpOut (F := Ideal) (V c main_v55) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) :=
  (dat3 V c).arrAt_eq_of_cover 15 _ (fun t _ => flushed_eq V c t) cover

end Cert.KernelIdeal.MlpValue

end
-- ==== Proof.KChain.lean ====
/-
  The kernel program's result as a function of the argument arrays. Folding the program over the launch memory: the
  embedded labels `H0`; after each of the first three regions one more round of message passing (`H1`, `H2`, `H3`:
  each region's output array is `convOut` of the aggregated messages and the features it was entered with); the
  per-graph means of `H3`; and the last region's output array is the perceptron of those means. Each step reads the
  buffers the step before left, so the proof is a walk along the program, one buffer at a time.
-/
import proofs.«153378_j9809705305013_1_alg».proof.Proof.Gen.KernelIdeal.Frame
import proofs.«153378_j9809705305013_1_alg».proof.Proof.Model
import proofs.«153378_j9809705305013_1_alg».proof.Proof.KHost
import proofs.«153378_j9809705305013_1_alg».proof.Proof.ConvValue
import proofs.«153378_j9809705305013_1_alg».proof.Proof.MlpValue

set_option maxRecDepth 16384

noncomputable section

namespace Cert.KernelIdeal.KChain

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The edge table as launched. -/
abbrev E (c : Dev nD) := m ((c : Thread nD τ).loc main_arg1)

/-- The embedded labels. -/
def H0 (c : Dev nD) := Cert.Spec.embRows (F := Ideal) (m ((c : Thread nD τ).loc main_arg3)) (m ((c : Thread nD τ).loc main_arg0))
/-- The features after one round of message passing. -/
def H1 (c : Dev nD) := Cert.Spec.convOut (F := Ideal) (Cert.Spec.aggOf (H0 m c) (Cert.Spec.srcOf (E m c)) (Cert.Spec.dstOf (E m c))) (H0 m c) (m ((c : Thread nD τ).loc main_arg4)) (m ((c : Thread nD τ).loc main_arg5)) (m ((c : Thread nD τ).loc main_arg6))
/-- After two rounds. -/
def H2 (c : Dev nD) := Cert.Spec.convOut (F := Ideal) (Cert.Spec.aggOf (H1 m c) (Cert.Spec.srcOf (E m c)) (Cert.Spec.dstOf (E m c))) (H1 m c) (m ((c : Thread nD τ).loc main_arg7)) (m ((c : Thread nD τ).loc main_arg8)) (m ((c : Thread nD τ).loc main_arg9))
/-- After three rounds. -/
def H3 (c : Dev nD) := Cert.Spec.convOut (F := Ideal) (Cert.Spec.aggOf (H2 m c) (Cert.Spec.srcOf (E m c)) (Cert.Spec.dstOf (E m c))) (H2 m c) (m ((c : Thread nD τ).loc main_arg10)) (m ((c : Thread nD τ).loc main_arg11)) (m ((c : Thread nD τ).loc main_arg12))

/-! ## The contents the first region is entered with -/
theorem W1_v1 (c : Dev nD) : W1 m ρ c (Proc.devRef .tc main_v1) = Cert.Spec.srcOf (E m c) := KHost.s0_v1 (W0 m ρ c)
theorem W1_v3 (c : Dev nD) : W1 m ρ c (Proc.devRef .tc main_v3) = Cert.Spec.dstOf (E m c) := KHost.s0_v3 (W0 m ρ c)
theorem W1_v10 (c : Dev nD) : W1 m ρ c (Proc.devRef .tc main_v10) = H0 m c := KHost.s0_v10 (W0 m ρ c)
theorem W1_v20 (c : Dev nD) : W1 m ρ c (Proc.devRef .tc main_v20) = Cert.Spec.aggOf (H0 m c) (Cert.Spec.srcOf (E m c)) (Cert.Spec.dstOf (E m c)) := KHost.s0_v20 (W0 m ρ c)
theorem W1_arg2 (c : Dev nD) : W1 m ρ c (Proc.devRef .tc main_arg2) = m ((c : Thread nD τ).loc main_arg2) := KHost.s0_arg2 (W0 m ρ c)
theorem W1_arg4 (c : Dev nD) : W1 m ρ c (Proc.devRef .tc main_arg4) = m ((c : Thread nD τ).loc main_arg4) := KHost.s0_arg4 (W0 m ρ c)
theorem W1_arg5 (c : Dev nD) : W1 m ρ c (Proc.devRef .tc main_arg5) = m ((c : Thread nD τ).loc main_arg5) := KHost.s0_arg5 (W0 m ρ c)
theorem W1_arg6 (c : Dev nD) : W1 m ρ c (Proc.devRef .tc main_arg6) = m ((c : Thread nD τ).loc main_arg6) := KHost.s0_arg6 (W0 m ρ c)
theorem W1_arg7 (c : Dev nD) : W1 m ρ c (Proc.devRef .tc main_arg7) = m ((c : Thread nD τ).loc main_arg7) := KHost.s0_arg7 (W0 m ρ c)
theorem W1_arg8 (c : Dev nD) : W1 m ρ c (Proc.devRef .tc main_arg8) = m ((c : Thread nD τ).loc main_arg8) := KHost.s0_arg8 (W0 m ρ c)
theorem W1_arg9 (c : Dev nD) : W1 m ρ c (Proc.devRef .tc main_arg9) = m ((c : Thread nD τ).loc main_arg9) := KHost.s0_arg9 (W0 m ρ c)
theorem W1_arg10 (c : Dev nD) : W1 m ρ c (Proc.devRef .tc main_arg10) = m ((c : Thread nD τ).loc main_arg10) := KHost.s0_arg10 (W0 m ρ c)
theorem W1_arg11 (c : Dev nD) : W1 m ρ c (Proc.devRef .tc main_arg11) = m ((c : Thread nD τ).loc main_arg11) := KHost.s0_arg11 (W0 m ρ c)
theorem W1_arg12 (c : Dev nD) : W1 m ρ c (Proc.devRef .tc main_arg12) = m ((c : Thread nD τ).loc main_arg12) := KHost.s0_arg12 (W0 m ρ c)

/-! ## After the first region: its output is the first round of message passing -/
theorem W2_v21 (c : Dev nD) : W2 m ρ c (Proc.devRef .tc main_v21) = H1 m c := by
  refine (W2_arr m ρ c 5).trans ((ConvValue.conv0 (V1 m ρ) c).trans ?_)
  show Cert.Spec.convOut (W1 m ρ c (Proc.devRef .tc main_v20)) (W1 m ρ c (Proc.devRef .tc main_v10)) (W1 m ρ c (Proc.devRef .tc main_arg4)) (W1 m ρ c (Proc.devRef .tc main_arg5)) (W1 m ρ c (Proc.devRef .tc main_arg6)) = _
  rw [W1_v20, W1_v10, W1_arg4, W1_arg5, W1_arg6]; rfl
theorem W2_v1 (c : Dev nD) : W2 m ρ c (Proc.devRef .tc main_v1) = Cert.Spec.srcOf (E m c) := (W2_of_ne m ρ c main_v1 (by decide)).trans (W1_v1 m ρ c)
theorem W2_v3 (c : Dev nD) : W2 m ρ c (Proc.devRef .tc main_v3) = Cert.Spec.dstOf (E m c) := (W2_of_ne m ρ c main_v3 (by decide)).trans (W1_v3 m ρ c)
theorem W2_arg2 (c : Dev nD) : W2 m ρ c (Proc.devRef .tc main_arg2) = m ((c : Thread nD τ).loc main_arg2) := (W2_of_ne m ρ c main_arg2 (by decide)).trans (W1_arg2 m ρ c)
theorem W2_arg7 (c : Dev nD) : W2 m ρ c (Proc.devRef .tc main_arg7) = m ((c : Thread nD τ).loc main_arg7) := (W2_of_ne m ρ c main_arg7 (by decide)).trans (W1_arg7 m ρ c)
theorem W2_arg8 (c : Dev nD) : W2 m ρ c (Proc.devRef .tc main_arg8) = m ((c : Thread nD τ).loc main_arg8) := (W2_of_ne m ρ c main_arg8 (by decide)).trans (W1_arg8 m ρ c)
theorem W2_arg9 (c : Dev nD) : W2 m ρ c (Proc.devRef .tc main_arg9) = m ((c : Thread nD τ).loc main_arg9) := (W2_of_ne m ρ c main_arg9 (by decide)).trans (W1_arg9 m ρ c)
theorem W2_arg10 (c : Dev nD) : W2 m ρ c (Proc.devRef .tc main_arg10) = m ((c : Thread nD τ).loc main_arg10) := (W2_of_ne m ρ c main_arg10 (by decide)).trans (W1_arg10 m ρ c)
theorem W2_arg11 (c : Dev nD) : W2 m ρ c (Proc.devRef .tc main_arg11) = m ((c : Thread nD τ).loc main_arg11) := (W2_of_ne m ρ c main_arg11 (by decide)).trans (W1_arg11 m ρ c)
theorem W2_arg12 (c : Dev nD) : W2 m ρ c (Proc.devRef .tc main_arg12) = m ((c : Thread nD τ).loc main_arg12) := (W2_of_ne m ρ c main_arg12 (by decide)).trans (W1_arg12 m ρ c)

/-! ## The contents the second region is entered with -/
theorem W3_v31 (c : Dev nD) : W3 m ρ c (Proc.devRef .tc main_v31) = Cert.Spec.aggOf (H1 m c) (Cert.Spec.srcOf (E m c)) (Cert.Spec.dstOf (E m c)) :=
  (KHost.s1_v31 (W2 m ρ c)).trans (by rw [W2_v21, W2_v1, W2_v3])
theorem W3_v21 (c : Dev nD) : W3 m ρ c (Proc.devRef .tc main_v21) = H1 m c := (KHost.s1_v21 (W2 m ρ c)).trans (W2_v21 m ρ c)
theorem W3_v1 (c : Dev nD) : W3 m ρ c (Proc.devRef .tc main_v1) = Cert.Spec.srcOf (E m c) := (KHost.s1_v1 (W2 m ρ c)).trans (W2_v1 m ρ c)
theorem W3_v3 (c : Dev nD) : W3 m ρ c (Proc.devRef .tc main_v3) = Cert.Spec.dstOf (E m c) := (KHost.s1_v3 (W2 m ρ c)).trans (W2_v3 m ρ c)
theorem W3_arg2 (c : Dev nD) : W3 m ρ c (Proc.devRef .tc main_arg2) = m ((c : Thread nD τ).loc main_arg2) := (KHost.s1_arg2 (W2 m ρ c)).trans (W2_arg2 m ρ c)
theorem W3_arg7 (c : Dev nD) : W3 m ρ c (Proc.devRef .tc main_arg7) = m ((c : Thread nD τ).loc main_arg7) := (KHost.s1_arg7 (W2 m ρ c)).trans (W2_arg7 m ρ c)
theorem W3_arg8 (c : Dev nD) : W3 m ρ c (Proc.devRef .tc main_arg8) = m ((c : Thread nD τ).loc main_arg8) := (KHost.s1_arg8 (W2 m ρ c)).trans (W2_arg8 m ρ c)
theorem W3_arg9 (c : Dev nD) : W3 m ρ c (Proc.devRef .tc main_arg9) = m ((c : Thread nD τ).loc main_arg9) := (KHost.s1_arg9 (W2 m ρ c)).trans (W2_arg9 m ρ c)
theorem W3_arg10 (c : Dev nD) : W3 m ρ c (Proc.devRef .tc main_arg10) = m ((c : Thread nD τ).loc main_arg10) := (KHost.s1_arg10 (W2 m ρ c)).trans (W2_arg10 m ρ c)
theorem W3_arg11 (c : Dev nD) : W3 m ρ c (Proc.devRef .tc main_arg11) = m ((c : Thread nD τ).loc main_arg11) := (KHost.s1_arg11 (W2 m ρ c)).trans (W2_arg11 m ρ c)
theorem W3_arg12 (c : Dev nD) : W3 m ρ c (Proc.devRef .tc main_arg12) = m ((c : Thread nD τ).loc main_arg12) := (KHost.s1_arg12 (W2 m ρ c)).trans (W2_arg12 m ρ c)

/-! ## After the second region -/
theorem W4_v32 (c : Dev nD) : W4 m ρ c (Proc.devRef .tc main_v32) = H2 m c := by
  refine (W4_arr m ρ c 5).trans ((ConvValue.conv1 (V3 m ρ) c).trans ?_)
  show Cert.Spec.convOut (W3 m ρ c (Proc.devRef .tc main_v31)) (W3 m ρ c (Proc.devRef .tc main_v21)) (W3 m ρ c (Proc.devRef .tc main_arg7)) (W3 m ρ c (Proc.devRef .tc main_arg8)) (W3 m ρ c (Proc.devRef .tc main_arg9)) = _
  rw [W3_v31, W3_v21, W3_arg7, W3_arg8, W3_arg9]; rfl
theorem W4_v1 (c : Dev nD) : W4 m ρ c (Proc.devRef .tc main_v1) = Cert.Spec.srcOf (E m c) := (W4_of_ne m ρ c main_v1 (by decide)).trans (W3_v1 m ρ c)
theorem W4_v3 (c : Dev nD) : W4 m ρ c (Proc.devRef .tc main_v3) = Cert.Spec.dstOf (E m c) := (W4_of_ne m ρ c main_v3 (by decide)).trans (W3_v3 m ρ c)
theorem W4_arg2 (c : Dev nD) : W4 m ρ c (Proc.devRef .tc main_arg2) = m ((c : Thread nD τ).loc main_arg2) := (W4_of_ne m ρ c main_arg2 (by decide)).trans (W3_arg2 m ρ c)
theorem W4_arg10 (c : Dev nD) : W4 m ρ c (Proc.devRef .tc main_arg10) = m ((c : Thread nD τ).loc main_arg10) := (W4_of_ne m ρ c main_arg10 (by decide)).trans (W3_arg10 m ρ c)
theorem W4_arg11 (c : Dev nD) : W4 m ρ c (Proc.devRef .tc main_arg11) = m ((c : Thread nD τ).loc main_arg11) := (W4_of_ne m ρ c main_arg11 (by decide)).trans (W3_arg11 m ρ c)
theorem W4_arg12 (c : Dev nD) : W4 m ρ c (Proc.devRef .tc main_arg12) = m ((c : Thread nD τ).loc main_arg12) := (W4_of_ne m ρ c main_arg12 (by decide)).trans (W3_arg12 m ρ c)

/-! ## The contents the third region is entered with -/
theorem W5_v42 (c : Dev nD) : W5 m ρ c (Proc.devRef .tc main_v42) = Cert.Spec.aggOf (H2 m c) (Cert.Spec.srcOf (E m c)) (Cert.Spec.dstOf (E m c)) :=
  (KHost.s2_v42 (W4 m ρ c)).trans (by rw [W4_v32, W4_v1, W4_v3])
theorem W5_v32 (c : Dev nD) : W5 m ρ c (Proc.devRef .tc main_v32) = H2 m c := (KHost.s2_v32 (W4 m ρ c)).trans (W4_v32 m ρ c)
theorem W5_arg2 (c : Dev nD) : W5 m ρ c (Proc.devRef .tc main_arg2) = m ((c : Thread nD τ).loc main_arg2) := (KHost.s2_arg2 (W4 m ρ c)).trans (W4_arg2 m ρ c)
theorem W5_arg10 (c : Dev nD) : W5 m ρ c (Proc.devRef .tc main_arg10) = m ((c : Thread nD τ).loc main_arg10) := (KHost.s2_arg10 (W4 m ρ c)).trans (W4_arg10 m ρ c)
theorem W5_arg11 (c : Dev nD) : W5 m ρ c (Proc.devRef .tc main_arg11) = m ((c : Thread nD τ).loc main_arg11) := (KHost.s2_arg11 (W4 m ρ c)).trans (W4_arg11 m ρ c)
theorem W5_arg12 (c : Dev nD) : W5 m ρ c (Proc.devRef .tc main_arg12) = m ((c : Thread nD τ).loc main_arg12) := (KHost.s2_arg12 (W4 m ρ c)).trans (W4_arg12 m ρ c)

/-! ## After the third region -/
theorem W6_v43 (c : Dev nD) : W6 m ρ c (Proc.devRef .tc main_v43) = H3 m c := by
  refine (W6_arr m ρ c 5).trans ((ConvValue.conv2 (V5 m ρ) c).trans ?_)
  show Cert.Spec.convOut (W5 m ρ c (Proc.devRef .tc main_v42)) (W5 m ρ c (Proc.devRef .tc main_v32)) (W5 m ρ c (Proc.devRef .tc main_arg10)) (W5 m ρ c (Proc.devRef .tc main_arg11)) (W5 m ρ c (Proc.devRef .tc main_arg12)) = _
  rw [W5_v42, W5_v32, W5_arg10, W5_arg11, W5_arg12]; rfl
theorem W6_arg2 (c : Dev nD) : W6 m ρ c (Proc.devRef .tc main_arg2) = m ((c : Thread nD τ).loc main_arg2) := (W6_of_ne m ρ c main_arg2 (by decide)).trans (W5_arg2 m ρ c)

/-! ## The contents the last region is entered with -/
theorem W7_v55 (c : Dev nD) : W7 m ρ c (Proc.devRef .tc main_v55) = Cert.Spec.pooledOf (H3 m c) (m ((c : Thread nD τ).loc main_arg2)) :=
  (KHost.s3_v55 (W6 m ρ c)).trans (by rw [W6_v43, W6_arg2])
/-! An argument the last region reads through an input window is kept by the region, and the program's fold at an
    argument's buffer walks back to the launch memory. -/
theorem W7_arg13 (c : Dev nD) : W7 m ρ c (Proc.devRef .tc main_arg13) = m ((c : Thread nD τ).loc main_arg13) :=
  ((W8_arr m ρ c 1).trans (((dat3 (V7 m ρ) c).arrAt_in 1 rfl _).trans (A_eq3 (V7 m ρ) c 1))).symm.trans (W8_main_arg13 m ρ c)
theorem W7_arg14 (c : Dev nD) : W7 m ρ c (Proc.devRef .tc main_arg14) = m ((c : Thread nD τ).loc main_arg14) :=
  ((W8_arr m ρ c 2).trans (((dat3 (V7 m ρ) c).arrAt_in 2 rfl _).trans (A_eq3 (V7 m ρ) c 2))).symm.trans (W8_main_arg14 m ρ c)
theorem W7_arg15 (c : Dev nD) : W7 m ρ c (Proc.devRef .tc main_arg15) = m ((c : Thread nD τ).loc main_arg15) :=
  ((W8_arr m ρ c 3).trans (((dat3 (V7 m ρ) c).arrAt_in 3 rfl _).trans (A_eq3 (V7 m ρ) c 3))).symm.trans (W8_main_arg15 m ρ c)
theorem W7_arg16 (c : Dev nD) : W7 m ρ c (Proc.devRef .tc main_arg16) = m ((c : Thread nD τ).loc main_arg16) :=
  ((W8_arr m ρ c 4).trans (((dat3 (V7 m ρ) c).arrAt_in 4 rfl _).trans (A_eq3 (V7 m ρ) c 4))).symm.trans (W8_main_arg16 m ρ c)
theorem W7_arg17 (c : Dev nD) : W7 m ρ c (Proc.devRef .tc main_arg17) = m ((c : Thread nD τ).loc main_arg17) :=
  ((W8_arr m ρ c 5).trans (((dat3 (V7 m ρ) c).arrAt_in 5 rfl _).trans (A_eq3 (V7 m ρ) c 5))).symm.trans (W8_main_arg17 m ρ c)
theorem W7_arg18 (c : Dev nD) : W7 m ρ c (Proc.devRef .tc main_arg18) = m ((c : Thread nD τ).loc main_arg18) :=
  ((W8_arr m ρ c 6).trans (((dat3 (V7 m ρ) c).arrAt_in 6 rfl _).trans (A_eq3 (V7 m ρ) c 6))).symm.trans (W8_main_arg18 m ρ c)
theorem W7_arg19 (c : Dev nD) : W7 m ρ c (Proc.devRef .tc main_arg19) = m ((c : Thread nD τ).loc main_arg19) :=
  ((W8_arr m ρ c 7).trans (((dat3 (V7 m ρ) c).arrAt_in 7 rfl _).trans (A_eq3 (V7 m ρ) c 7))).symm.trans (W8_main_arg19 m ρ c)
theorem W7_arg20 (c : Dev nD) : W7 m ρ c (Proc.devRef .tc main_arg20) = m ((c : Thread nD τ).loc main_arg20) :=
  ((W8_arr m ρ c 8).trans (((dat3 (V7 m ρ) c).arrAt_in 8 rfl _).trans (A_eq3 (V7 m ρ) c 8))).symm.trans (W8_main_arg20 m ρ c)
theorem W7_arg21 (c : Dev nD) : W7 m ρ c (Proc.devRef .tc main_arg21) = m ((c : Thread nD τ).loc main_arg21) :=
  ((W8_arr m ρ c 9).trans (((dat3 (V7 m ρ) c).arrAt_in 9 rfl _).trans (A_eq3 (V7 m ρ) c 9))).symm.trans (W8_main_arg21 m ρ c)
theorem W7_arg22 (c : Dev nD) : W7 m ρ c (Proc.devRef .tc main_arg22) = m ((c : Thread nD τ).loc main_arg22) :=
  ((W8_arr m ρ c 10).trans (((dat3 (V7 m ρ) c).arrAt_in 10 rfl _).trans (A_eq3 (V7 m ρ) c 10))).symm.trans (W8_main_arg22 m ρ c)
theorem W7_arg23 (c : Dev nD) : W7 m ρ c (Proc.devRef .tc main_arg23) = m ((c : Thread nD τ).loc main_arg23) :=
  ((W8_arr m ρ c 11).trans (((dat3 (V7 m ρ) c).arrAt_in 11 rfl _).trans (A_eq3 (V7 m ρ) c 11))).symm.trans (W8_main_arg23 m ρ c)
theorem W7_arg24 (c : Dev nD) : W7 m ρ c (Proc.devRef .tc main_arg24) = m ((c : Thread nD τ).loc main_arg24) :=
  ((W8_arr m ρ c 12).trans (((dat3 (V7 m ρ) c).arrAt_in 12 rfl _).trans (A_eq3 (V7 m ρ) c 12))).symm.trans (W8_main_arg24 m ρ c)
theorem W7_arg25 (c : Dev nD) : W7 m ρ c (Proc.devRef .tc main_arg25) = m ((c : Thread nD τ).loc main_arg25) :=
  ((W8_arr m ρ c 13).trans (((dat3 (V7 m ρ) c).arrAt_in 13 rfl _).trans (A_eq3 (V7 m ρ) c 13))).symm.trans (W8_main_arg25 m ρ c)
theorem W7_arg26 (c : Dev nD) : W7 m ρ c (Proc.devRef .tc main_arg26) = m ((c : Thread nD τ).loc main_arg26) :=
  ((W8_arr m ρ c 14).trans (((dat3 (V7 m ρ) c).arrAt_in 14 rfl _).trans (A_eq3 (V7 m ρ) c 14))).symm.trans (W8_main_arg26 m ρ c)

/-! ## The result -/

/-- The program's result buffer ends at the network of the argument arrays. -/
theorem out_eq (c : Dev nD) : W8 m ρ c (Proc.devRef .tc main_v56)
    = Cert.Spec.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W8_arr m ρ c 15).trans ((MlpValue.mlp (V7 m ρ) c).trans ?_)
  show Cert.Spec.mlpOut (W7 m ρ c (Proc.devRef .tc main_v55)) (W7 m ρ c (Proc.devRef .tc main_arg13)) (W7 m ρ c (Proc.devRef .tc main_arg14)) (W7 m ρ c (Proc.devRef .tc main_arg15)) (W7 m ρ c (Proc.devRef .tc main_arg16)) (W7 m ρ c (Proc.devRef .tc main_arg17)) (W7 m ρ c (Proc.devRef .tc main_arg18)) (W7 m ρ c (Proc.devRef .tc main_arg19)) (W7 m ρ c (Proc.devRef .tc main_arg20)) (W7 m ρ c (Proc.devRef .tc main_arg21)) (W7 m ρ c (Proc.devRef .tc main_arg22)) (W7 m ρ c (Proc.devRef .tc main_arg23)) (W7 m ρ c (Proc.devRef .tc main_arg24)) (W7 m ρ c (Proc.devRef .tc main_arg25)) (W7 m ρ c (Proc.devRef .tc main_arg26)) = _
  rw [W7_v55, W7_arg13, W7_arg14, W7_arg15, W7_arg16, W7_arg17, W7_arg18, W7_arg19, W7_arg20, W7_arg21, W7_arg22, W7_arg23, W7_arg24, W7_arg25, W7_arg26]
  rfl

end Cert.KernelIdeal.KChain

end
-- ==== Proof.RefRun.lean ====
/-
  The run of the reference program. Its @main is a straight line of host tensor operations: its own statements in
  order, each call of a leaky-ReLU function standing for the seven operations of that function's body over the
  call's buffers — the constant 0, its broadcast, the comparison x ≥ 0, the slope constant 0.01, its broadcast, the
  product slope · x, and the inner function's select between x and slope · x, which writes the call's result.
  `ops` is that list of operations in program order. `main_eq`: @main is the sequence of `ops`. `run_main`: from
  any memory with zero counters every weakly fair execution of @main terminates, and each buffer ends at the fold
  of the operations' results over the launch contents. `argK_eq`: that fold leaves argument K's buffer as it was
  (no operation writes an argument).
-/
import proofs.«153378_j9809705305013_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The program's 166 operations, in order, each call's seven at its place. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_arg0 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 1001#32),
    unary main_c_0 main_v6 (broadcastInDim S100000 ![] bcast_S_S100000 : (⟨S_, .i32⟩ : BufTy).Contents (Elt F) → (⟨S100000, .i32⟩ : BufTy).Contents (Elt F)),
    binary main_arg0 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_arg0 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg3 main_v9 main_v10 ((fun x i => Host.gather gather_S1001x128_S100000x1_S100000x128_1_0_n_n_0_1_1128 x i) : (⟨S1001x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v1 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v13 (broadcastInDim S600000 ![] bcast_S_S600000 : (⟨S_, .i32⟩ : BufTy).Contents (Elt F) → (⟨S600000, .i32⟩ : BufTy).Contents (Elt F)),
    binary main_v1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_v10 main_v16 main_v17 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v18 (broadcastInDim S100000x128 ![] bcast_S_S100000x128 : (⟨S_, .f32⟩ : BufTy).Contents (Elt F) → (⟨S100000x128, .f32⟩ : BufTy).Contents (Elt F)),
    unary main_v3 main_v19 (broadcastInDim S600000x1 ![0] bcast_S600000_S600000x1_0 : (⟨S600000, .i32⟩ : BufTy).Contents (Elt F) → (⟨S600000x1, .i32⟩ : BufTy).Contents (Elt F)),
    ternary main_v18 main_v19 main_v17 main_v20 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)),
    binary main_v10 main_arg6 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v24 main_v25 main_v26 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v26 : TRef sig ⟨S100000x128, .f32⟩) main_call0.v0 main_call0.v1 (cmpf .oge),
    TRef.nullary main_call0.cst_0 (constant S_ .f32 0x3C23D70A#32),
    TRef.unary main_call0.cst_0 main_call0.v2 (broadcastInDim S100000x128 ![] bcast_S_S100000x128),
    TRef.binary main_call0.v2 (.of main_v26 : TRef sig ⟨S100000x128, .f32⟩) main_call0.v3 mulf,
    TRef.ternary main_call0.v1 (.of main_v26 : TRef sig ⟨S100000x128, .f32⟩) main_call0.v3 main_call0.call0.v0 select,
    nullary main_c_3 (constantI S_ 32 0#32),
    unary main_c_3 main_v28 (broadcastInDim S600000 ![] bcast_S_S600000 : (⟨S_, .i32⟩ : BufTy).Contents (Elt F) → (⟨S600000, .i32⟩ : BufTy).Contents (Elt F)),
    binary main_v1 main_v28 main_v29 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v30 (broadcastInDim S600000 ![] bcast_S_S600000 : (⟨S_, .i32⟩ : BufTy).Contents (Elt F) → (⟨S600000, .i32⟩ : BufTy).Contents (Elt F)),
    binary main_v1 main_v30 main_v31 (addi : (⟨S600000, .i32⟩ : BufTy).Contents (Elt F) → (⟨S600000, .i32⟩ : BufTy).Contents (Elt F) → (⟨S600000, .i32⟩ : BufTy).Contents (Elt F)),
    ternary main_v29 main_v31 main_v1 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v32 main_v33 (broadcastInDim S600000x1 ![0] bcast_S600000_S600000x1_0 : (⟨S600000, .i32⟩ : BufTy).Contents (Elt F) → (⟨S600000x1, .i32⟩ : BufTy).Contents (Elt F)),
    binary main_v27 main_v33 main_v34 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_5 (constant S_ .f32 0x00000000#32),
    unary main_cst_5 main_v35 (broadcastInDim S100000x128 ![] bcast_S_S100000x128 : (⟨S_, .f32⟩ : BufTy).Contents (Elt F) → (⟨S100000x128, .f32⟩ : BufTy).Contents (Elt F)),
    unary main_v3 main_v36 (broadcastInDim S600000x1 ![0] bcast_S600000_S600000x1_0 : (⟨S600000, .i32⟩ : BufTy).Contents (Elt F) → (⟨S600000x1, .i32⟩ : BufTy).Contents (Elt F)),
    ternary main_v35 main_v36 main_v34 main_v37 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v37 main_arg7 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    binary main_v27 main_arg9 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v41 main_v42 main_v43 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v43 : TRef sig ⟨S100000x128, .f32⟩) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v43 : TRef sig ⟨S100000x128, .f32⟩) main_call1.v3 mulf,
    TRef.ternary main_call1.v1 (.of main_v43 : TRef sig ⟨S100000x128, .f32⟩) main_call1.v3 main_call1.call0.v0 select,
    nullary main_c_6 (constantI S_ 32 0#32),
    unary main_c_6 main_v45 (broadcastInDim S600000 ![] bcast_S_S600000 : (⟨S_, .i32⟩ : BufTy).Contents (Elt F) → (⟨S600000, .i32⟩ : BufTy).Contents (Elt F)),
    binary main_v1 main_v45 main_v46 (cmpi .slt : (⟨S600000, .i32⟩ : BufTy).Contents (Elt F) → (⟨S600000, .i32⟩ : BufTy).Contents (Elt F) → (⟨S600000, .i1⟩ : BufTy).Contents (Elt F)),
    nullary main_c_7 (constantI S_ 32 100000#32),
    unary main_c_7 main_v47 (broadcastInDim S600000 ![] bcast_S_S600000 : (⟨S_, .i32⟩ : BufTy).Contents (Elt F) → (⟨S600000, .i32⟩ : BufTy).Contents (Elt F)),
    binary main_v1 main_v47 main_v48 (addi : (⟨S600000, .i32⟩ : BufTy).Contents (Elt F) → (⟨S600000, .i32⟩ : BufTy).Contents (Elt F) → (⟨S600000, .i32⟩ : BufTy).Contents (Elt F)),
    ternary main_v46 main_v48 main_v1 main_v49 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v49 main_v50 (broadcastInDim S600000x1 ![0] bcast_S600000_S600000x1_0 : (⟨S600000, .i32⟩ : BufTy).Contents (Elt F) → (⟨S600000x1, .i32⟩ : BufTy).Contents (Elt F)),
    binary main_v44 main_v50 main_v51 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_8 (constant S_ .f32 0x00000000#32),
    unary main_cst_8 main_v52 (broadcastInDim S100000x128 ![] bcast_S_S100000x128 : (⟨S_, .f32⟩ : BufTy).Contents (Elt F) → (⟨S100000x128, .f32⟩ : BufTy).Contents (Elt F)),
    unary main_v3 main_v53 (broadcastInDim S600000x1 ![0] bcast_S600000_S600000x1_0 : (⟨S600000, .i32⟩ : BufTy).Contents (Elt F) → (⟨S600000x1, .i32⟩ : BufTy).Contents (Elt F)),
    ternary main_v52 main_v53 main_v51 main_v54 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v54 main_arg10 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    binary main_v44 main_arg12 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v58 main_v59 main_v60 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v60 : TRef sig ⟨S100000x128, .f32⟩) main_call2.v0 main_call2.v1 (cmpf .oge),
    TRef.nullary main_call2.cst_0 (constant S_ .f32 0x3C23D70A#32),
    TRef.unary main_call2.cst_0 main_call2.v2 (broadcastInDim S100000x128 ![] bcast_S_S100000x128),
    TRef.binary main_call2.v2 (.of main_v60 : TRef sig ⟨S100000x128, .f32⟩) main_call2.v3 mulf,
    TRef.ternary main_call2.v1 (.of main_v60 : TRef sig ⟨S100000x128, .f32⟩) main_call2.v3 main_call2.call0.v0 select,
    nullary main_cst_9 (constant S_ .f32 0x3F800000#32),
    unary main_cst_9 main_v62 (broadcastInDim S100000 ![] bcast_S_S100000 : (⟨S_, .f32⟩ : BufTy).Contents (Elt F) → (⟨S100000, .f32⟩ : BufTy).Contents (Elt F)),
    nullary main_cst_10 (constant S_ .f32 0x00000000#32),
    unary main_cst_10 main_v63 (broadcastInDim S4096 ![] bcast_S_S4096 : (⟨S_, .f32⟩ : BufTy).Contents (Elt F) → (⟨S4096, .f32⟩ : BufTy).Contents (Elt F)),
    unary main_arg2 main_v64 (broadcastInDim S100000x1 ![0] bcast_S100000_S100000x1_0 : (⟨S100000, .i32⟩ : BufTy).Contents (Elt F) → (⟨S100000x1, .i32⟩ : BufTy).Contents (Elt F)),
    ternary main_v63 main_v64 main_v62 main_v65 ((fun x i u => Host.scatterAdd scatter_S4096_S100000x1_S100000_n_0_0_1 x i u) : (⟨S4096, .f32⟩ : BufTy).Contents (Elt F) → (⟨S100000x1, .i32⟩ : BufTy).Contents (Elt F) → (⟨S100000, .f32⟩ : BufTy).Contents (Elt F) → (⟨S4096, .f32⟩ : BufTy).Contents (Elt F)),
    nullary main_cst_11 (constant S_ .f32 0x3F800000#32),
    unary main_cst_11 main_v66 (broadcastInDim S4096 ![] bcast_S_S4096 : (⟨S_, .f32⟩ : BufTy).Contents (Elt F) → (⟨S4096, .f32⟩ : BufTy).Contents (Elt F)),
    binary main_v65 main_v66 main_v67 (maximumf : (⟨S4096, .f32⟩ : BufTy).Contents (Elt F) → (⟨S4096, .f32⟩ : BufTy).Contents (Elt F) → (⟨S4096, .f32⟩ : BufTy).Contents (Elt F)),
    nullary main_cst_12 (constant S_ .f32 0x00000000#32),
    unary main_cst_12 main_v68 (broadcastInDim S4096x128 ![] bcast_S_S4096x128 : (⟨S_, .f32⟩ : BufTy).Contents (Elt F) → (⟨S4096x128, .f32⟩ : BufTy).Contents (Elt F)),
    unary main_arg2 main_v69 (broadcastInDim S100000x1 ![0] bcast_S100000_S100000x1_0 : (⟨S100000, .i32⟩ : BufTy).Contents (Elt F) → (⟨S100000x1, .i32⟩ : BufTy).Contents (Elt F)),
    ternary main_v68 main_v69 main_v61 main_v70 ((fun x i u => Host.scatterAdd scatter_S4096x128_S100000x1_S100000x128_1_0_0_1 x i u) : (⟨S4096x128, .f32⟩ : BufTy).Contents (Elt F) → (⟨S100000x1, .i32⟩ : BufTy).Contents (Elt F) → (⟨S100000x128, .f32⟩ : BufTy).Contents (Elt F) → (⟨S4096x128, .f32⟩ : BufTy).Contents (Elt F)),
    unary main_v67 main_v71 (broadcastInDim S4096x1 ![0] bcast_S4096_S4096x1_0 : (⟨S4096, .f32⟩ : BufTy).Contents (Elt F) → (⟨S4096x1, .f32⟩ : BufTy).Contents (Elt F)),
    unary main_v71 main_v72 (broadcastInDim S4096x128 ![0, 1] bcast_S4096x1_S4096x128_0_1 : (⟨S4096x1, .f32⟩ : BufTy).Contents (Elt F) → (⟨S4096x128, .f32⟩ : BufTy).Contents (Elt F)),
    binary main_v70 main_v72 main_v73 (Host.divf : (⟨S4096x128, .f32⟩ : BufTy).Contents (Elt F) → (⟨S4096x128, .f32⟩ : BufTy).Contents (Elt F) → (⟨S4096x128, .f32⟩ : BufTy).Contents (Elt F)),
    binary main_v73 main_arg13 main_v74 ((fun l r => Host.dotGeneral dot_S4096x128_S128x1024_S4096x1024_1_0_0_1_n_n none l r) : (⟨S4096x128, .f32⟩ : BufTy).Contents (Elt F) → (⟨S128x1024, .f32⟩ : BufTy).Contents (Elt F) → (⟨S4096x1024, .f32⟩ : BufTy).Contents (Elt F)),
    unary main_arg14 main_v75 (broadcastInDim S1x1024 ![1] bcast_S1024_S1x1024_1 : (⟨S1024, .f32⟩ : BufTy).Contents (Elt F) → (⟨S1x1024, .f32⟩ : BufTy).Contents (Elt F)),
    unary main_v75 main_v76 (broadcastInDim S4096x1024 ![0, 1] bcast_S1x1024_S4096x1024_0_1 : (⟨S1x1024, .f32⟩ : BufTy).Contents (Elt F) → (⟨S4096x1024, .f32⟩ : BufTy).Contents (Elt F)),
    binary main_v74 main_v76 main_v77 (addf : (⟨S4096x1024, .f32⟩ : BufTy).Contents (Elt F) → (⟨S4096x1024, .f32⟩ : BufTy).Contents (Elt F) → (⟨S4096x1024, .f32⟩ : BufTy).Contents (Elt F)),
    unary main_arg21 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S4096x1024 ![0, 1] bcast_S1x1024_S4096x1024_0_1 : (⟨S1x1024, .f32⟩ : BufTy).Contents (Elt F) → (⟨S4096x1024, .f32⟩ : BufTy).Contents (Elt F)),
    binary main_v77 main_v79 main_v80 (subf : (⟨S4096x1024, .f32⟩ : BufTy).Contents (Elt F) → (⟨S4096x1024, .f32⟩ : BufTy).Contents (Elt F) → (⟨S4096x1024, .f32⟩ : BufTy).Contents (Elt F)),
    nullary main_cst_13 (constant S_ .f32 0x3727C5AC#32),
    unary main_cst_13 main_v81 (broadcastInDim S1024 ![] bcast_S_S1024 : (⟨S_, .f32⟩ : BufTy).Contents (Elt F) → (⟨S1024, .f32⟩ : BufTy).Contents (Elt F)),
    binary main_arg22 main_v81 main_v82 (addf : (⟨S1024, .f32⟩ : BufTy).Contents (Elt F) → (⟨S1024, .f32⟩ : BufTy).Contents (Elt F) → (⟨S1024, .f32⟩ : BufTy).Contents (Elt F)),
    unary main_v82 main_v83 (Host.rsqrt : (⟨S1024, .f32⟩ : BufTy).Contents (Elt F) → (⟨S1024, .f32⟩ : BufTy).Contents (Elt F)),
    unary main_v83 main_v84 (broadcastInDim S1x1024 ![1] bcast_S1024_S1x1024_1 : (⟨S1024, .f32⟩ : BufTy).Contents (Elt F) → (⟨S1x1024, .f32⟩ : BufTy).Contents (Elt F)),
    unary main_v84 main_v85 (broadcastInDim S4096x1024 ![0, 1] bcast_S1x1024_S4096x1024_0_1 : (⟨S1x1024, .f32⟩ : BufTy).Contents (Elt F) → (⟨S4096x1024, .f32⟩ : BufTy).Contents (Elt F)),
    binary main_v80 main_v85 main_v86 (mulf : (⟨S4096x1024, .f32⟩ : BufTy).Contents (Elt F) → (⟨S4096x1024, .f32⟩ : BufTy).Contents (Elt F) → (⟨S4096x1024, .f32⟩ : BufTy).Contents (Elt F)),
    unary main_arg19 main_v87 (broadcastInDim S1x1024 ![1] bcast_S1024_S1x1024_1 : (⟨S1024, .f32⟩ : BufTy).Contents (Elt F) → (⟨S1x1024, .f32⟩ : BufTy).Contents (Elt F)),
    unary main_v87 main_v88 (broadcastInDim S4096x1024 ![0, 1] bcast_S1x1024_S4096x1024_0_1 : (⟨S1x1024, .f32⟩ : BufTy).Contents (Elt F) → (⟨S4096x1024, .f32⟩ : BufTy).Contents (Elt F)),
    binary main_v86 main_v88 main_v89 (mulf : (⟨S4096x1024, .f32⟩ : BufTy).Contents (Elt F) → (⟨S4096x1024, .f32⟩ : BufTy).Contents (Elt F) → (⟨S4096x1024, .f32⟩ : BufTy).Contents (Elt F)),
    unary main_arg20 main_v90 (broadcastInDim S1x1024 ![1] bcast_S1024_S1x1024_1 : (⟨S1024, .f32⟩ : BufTy).Contents (Elt F) → (⟨S1x1024, .f32⟩ : BufTy).Contents (Elt F)),
    unary main_v90 main_v91 (broadcastInDim S4096x1024 ![0, 1] bcast_S1x1024_S4096x1024_0_1 : (⟨S1x1024, .f32⟩ : BufTy).Contents (Elt F) → (⟨S4096x1024, .f32⟩ : BufTy).Contents (Elt F)),
    binary main_v89 main_v91 main_v92 (addf : (⟨S4096x1024, .f32⟩ : BufTy).Contents (Elt F) → (⟨S4096x1024, .f32⟩ : BufTy).Contents (Elt F) → (⟨S4096x1024, .f32⟩ : BufTy).Contents (Elt F)),
    TRef.nullary main_call3.cst (constant S_ .f32 0x00000000#32),
    TRef.unary main_call3.cst main_call3.v0 (broadcastInDim S4096x1024 ![] bcast_S_S4096x1024),
    TRef.binary (.of main_v92 : TRef sig ⟨S4096x1024, .f32⟩) main_call3.v0 main_call3.v1 (cmpf .oge),
    TRef.nullary main_call3.cst_0 (constant S_ .f32 0x3C23D70A#32),
    TRef.unary main_call3.cst_0 main_call3.v2 (broadcastInDim S4096x1024 ![] bcast_S_S4096x1024),
    TRef.binary main_call3.v2 (.of main_v92 : TRef sig ⟨S4096x1024, .f32⟩) main_call3.v3 mulf,
    TRef.ternary main_call3.v1 (.of main_v92 : TRef sig ⟨S4096x1024, .f32⟩) main_call3.v3 main_call3.call0.v0 select,
    binary main_v93 main_arg15 main_v94 ((fun l r => Host.dotGeneral dot_S4096x1024_S1024x128_S4096x128_1_0_0_1_n_n none l r) : (⟨S4096x1024, .f32⟩ : BufTy).Contents (Elt F) → (⟨S1024x128, .f32⟩ : BufTy).Contents (Elt F) → (⟨S4096x128, .f32⟩ : BufTy).Contents (Elt F)),
    unary main_arg16 main_v95 (broadcastInDim S1x128 ![1] bcast_S128_S1x128_1 : (⟨S128, .f32⟩ : BufTy).Contents (Elt F) → (⟨S1x128, .f32⟩ : BufTy).Contents (Elt F)),
    unary main_v95 main_v96 (broadcastInDim S4096x128 ![0, 1] bcast_S1x128_S4096x128_0_1 : (⟨S1x128, .f32⟩ : BufTy).Contents (Elt F) → (⟨S4096x128, .f32⟩ : BufTy).Contents (Elt F)),
    binary main_v94 main_v96 main_v97 (addf : (⟨S4096x128, .f32⟩ : BufTy).Contents (Elt F) → (⟨S4096x128, .f32⟩ : BufTy).Contents (Elt F) → (⟨S4096x128, .f32⟩ : BufTy).Contents (Elt F)),
    unary main_arg25 main_v98 (broadcastInDim S1x128 ![1] bcast_S128_S1x128_1 : (⟨S128, .f32⟩ : BufTy).Contents (Elt F) → (⟨S1x128, .f32⟩ : BufTy).Contents (Elt F)),
    unary main_v98 main_v99 (broadcastInDim S4096x128 ![0, 1] bcast_S1x128_S4096x128_0_1 : (⟨S1x128, .f32⟩ : BufTy).Contents (Elt F) → (⟨S4096x128, .f32⟩ : BufTy).Contents (Elt F)),
    binary main_v97 main_v99 main_v100 (subf : (⟨S4096x128, .f32⟩ : BufTy).Contents (Elt F) → (⟨S4096x128, .f32⟩ : BufTy).Contents (Elt F) → (⟨S4096x128, .f32⟩ : BufTy).Contents (Elt F)),
    nullary main_cst_14 (constant S_ .f32 0x3727C5AC#32),
    unary main_cst_14 main_v101 (broadcastInDim S128 ![] bcast_S_S128 : (⟨S_, .f32⟩ : BufTy).Contents (Elt F) → (⟨S128, .f32⟩ : BufTy).Contents (Elt F)),
    binary main_arg26 main_v101 main_v102 (addf : (⟨S128, .f32⟩ : BufTy).Contents (Elt F) → (⟨S128, .f32⟩ : BufTy).Contents (Elt F) → (⟨S128, .f32⟩ : BufTy).Contents (Elt F)),
    unary main_v102 main_v103 (Host.rsqrt : (⟨S128, .f32⟩ : BufTy).Contents (Elt F) → (⟨S128, .f32⟩ : BufTy).Contents (Elt F)),
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S4096x128 ![0, 1] bcast_S1x128_S4096x128_0_1 : (⟨S1x128, .f32⟩ : BufTy).Contents (Elt F) → (⟨S4096x128, .f32⟩ : BufTy).Contents (Elt F)),
    binary main_v100 main_v105 main_v106 (mulf : (⟨S4096x128, .f32⟩ : BufTy).Contents (Elt F) → (⟨S4096x128, .f32⟩ : BufTy).Contents (Elt F) → (⟨S4096x128, .f32⟩ : BufTy).Contents (Elt F)),
    unary main_arg23 main_v107 (broadcastInDim S1x128 ![1] bcast_S128_S1x128_1 : (⟨S128, .f32⟩ : BufTy).Contents (Elt F) → (⟨S1x128, .f32⟩ : BufTy).Contents (Elt F)),
    unary main_v107 main_v108 (broadcastInDim S4096x128 ![0, 1] bcast_S1x128_S4096x128_0_1 : (⟨S1x128, .f32⟩ : BufTy).Contents (Elt F) → (⟨S4096x128, .f32⟩ : BufTy).Contents (Elt F)),
    binary main_v106 main_v108 main_v109 (mulf : (⟨S4096x128, .f32⟩ : BufTy).Contents (Elt F) → (⟨S4096x128, .f32⟩ : BufTy).Contents (Elt F) → (⟨S4096x128, .f32⟩ : BufTy).Contents (Elt F)),
    unary main_arg24 main_v110 (broadcastInDim S1x128 ![1] bcast_S128_S1x128_1 : (⟨S128, .f32⟩ : BufTy).Contents (Elt F) → (⟨S1x128, .f32⟩ : BufTy).Contents (Elt F)),
    unary main_v110 main_v111 (broadcastInDim S4096x128 ![0, 1] bcast_S1x128_S4096x128_0_1 : (⟨S1x128, .f32⟩ : BufTy).Contents (Elt F) → (⟨S4096x128, .f32⟩ : BufTy).Contents (Elt F)),
    binary main_v109 main_v111 main_v112 (addf : (⟨S4096x128, .f32⟩ : BufTy).Contents (Elt F) → (⟨S4096x128, .f32⟩ : BufTy).Contents (Elt F) → (⟨S4096x128, .f32⟩ : BufTy).Contents (Elt F)),
    TRef.nullary main_call4.cst (constant S_ .f32 0x00000000#32),
    TRef.unary main_call4.cst main_call4.v0 (broadcastInDim S4096x128 ![] bcast_S_S4096x128),
    TRef.binary (.of main_v112 : TRef sig ⟨S4096x128, .f32⟩) main_call4.v0 main_call4.v1 (cmpf .oge),
    TRef.nullary main_call4.cst_0 (constant S_ .f32 0x3C23D70A#32),
    TRef.unary main_call4.cst_0 main_call4.v2 (broadcastInDim S4096x128 ![] bcast_S_S4096x128),
    TRef.binary main_call4.v2 (.of main_v112 : TRef sig ⟨S4096x128, .f32⟩) main_call4.v3 mulf,
    TRef.ternary main_call4.v1 (.of main_v112 : TRef sig ⟨S4096x128, .f32⟩) main_call4.v3 main_call4.call0.v0 select,
    binary main_v113 main_arg17 main_v114 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    unary main_arg18 main_v115 (broadcastInDim S1x1 ![1] bcast_S1_S1x1_1 : (⟨S1, .f32⟩ : BufTy).Contents (Elt F) → (⟨S1x1, .f32⟩ : BufTy).Contents (Elt F)),
    unary main_v115 main_v116 (broadcastInDim S4096x1 ![0, 1] bcast_S1x1_S4096x1_0_1 : (⟨S1x1, .f32⟩ : BufTy).Contents (Elt F) → (⟨S4096x1, .f32⟩ : BufTy).Contents (Elt F)),
    binary main_v114 main_v116 main_v117 (addf : (⟨S4096x1, .f32⟩ : BufTy).Contents (Elt F) → (⟨S4096x1, .f32⟩ : BufTy).Contents (Elt F) → (⟨S4096x1, .f32⟩ : BufTy).Contents (Elt F)),
    reshape main_v117 main_v118 rfl shapeCasts_S4096x1_S4096 ]

set_option maxRecDepth 4096 in
set_option maxHeartbeats 4000000 in
/-- @main is that straight line: its three windows and the called functions unfolded at their call sites, the calls'
    buffer records read at their fields, and sequencing reassociated; both sides are then the same chain of steps. -/
theorem main_eq (c : Dev nD) : main (F := F) c = seq ops := by
  simp only [main, main_part0, main_part1, main_part2, fn_leaky_relu.body, fn_where.body, fn_leaky_relu_0.body,
    fn_where_1.body, fn_leaky_relu_2.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub .., reshape_bufs_sub ..⟩

/-- At the compiled mesh, for any float values, from any memory with zero counters: every weakly fair execution of
    @main on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the operations write, in order: each buffer other than an argument's, once. -/
abbrev written : List (Ref sig .tc) :=
  [ main_v0, main_v1, main_v2, main_v3, main_c, main_v4, main_v5, main_c_0,
    main_v6, main_v7, main_v8, main_v9, main_v10, main_c_1, main_v11, main_v12,
    main_c_2, main_v13, main_v14, main_v15, main_v16, main_v17, main_cst, main_v18,
    main_v19, main_v20, main_v21, main_v22, main_v23, main_v24, main_v25, main_v26,
    main_call0.cst.ref, main_call0.v0.ref, main_call0.v1.ref, main_call0.cst_0.ref, main_call0.v2.ref, main_call0.v3.ref, main_call0.call0.v0.ref, main_c_3,
    main_v28, main_v29, main_c_4, main_v30, main_v31, main_v32, main_v33, main_v34,
    main_cst_5, main_v35, main_v36, main_v37, main_v38, main_v39, main_v40, main_v41,
    main_v42, main_v43, main_call1.cst.ref, main_call1.v0.ref, main_call1.v1.ref, main_call1.cst_0.ref, main_call1.v2.ref, main_call1.v3.ref,
    main_call1.call0.v0.ref, main_c_6, main_v45, main_v46, main_c_7, main_v47, main_v48, main_v49,
    main_v50, main_v51, main_cst_8, main_v52, main_v53, main_v54, main_v55, main_v56,
    main_v57, main_v58, main_v59, main_v60, main_call2.cst.ref, main_call2.v0.ref, main_call2.v1.ref, main_call2.cst_0.ref,
    main_call2.v2.ref, main_call2.v3.ref, main_call2.call0.v0.ref, main_cst_9, main_v62, main_cst_10, main_v63, main_v64,
    main_v65, main_cst_11, main_v66, main_v67, main_cst_12, main_v68, main_v69, main_v70,
    main_v71, main_v72, main_v73, main_v74, main_v75, main_v76, main_v77, main_v78,
    main_v79, main_v80, main_cst_13, main_v81, main_v82, main_v83, main_v84, main_v85,
    main_v86, main_v87, main_v88, main_v89, main_v90, main_v91, main_v92, main_call3.cst.ref,
    main_call3.v0.ref, main_call3.v1.ref, main_call3.cst_0.ref, main_call3.v2.ref, main_call3.v3.ref, main_call3.call0.v0.ref, main_v94, main_v95,
    main_v96, main_v97, main_v98, main_v99, main_v100, main_cst_14, main_v101, main_v102,
    main_v103, main_v104, main_v105, main_v106, main_v107, main_v108, main_v109, main_v110,
    main_v111, main_v112, main_call4.cst.ref, main_call4.v0.ref, main_call4.v1.ref, main_call4.cst_0.ref, main_call4.v2.ref, main_call4.v3.ref,
    main_call4.call0.v0.ref, main_v114, main_v115, main_v116, main_v117, main_v118 ]

/-- An operation whose one written buffer is in `written` writes inside that list's buffers. -/
theorem writes_in {op : HloOp τ sig (Elt F)} (y : Ref sig .tc)
    (hw : op.writes = {Proc.devRef .tc y}) (hy : y ∈ written) :
    op.writes ⊆ (written.map (Proc.devRef (τ := τ) .tc)).toFinset := by
  rw [hw, Finset.singleton_subset_iff, List.mem_toFinset]
  exact List.mem_map_of_mem hy

/-- Each operation writes one buffer, the one listed at its place in `written`. -/
theorem ops_writes : (ops : List (HloOp τ sig (Elt F))).Forall fun op =>
    op.writes ⊆ (written.map (Proc.devRef (τ := τ) .tc)).toFinset :=
  ⟨writes_in main_v0 rfl (by decide), writes_in main_v1 rfl (by decide), writes_in main_v2 rfl (by decide),
    writes_in main_v3 rfl (by decide), writes_in main_c rfl (by decide), writes_in main_v4 rfl (by decide),
    writes_in main_v5 rfl (by decide), writes_in main_c_0 rfl (by decide), writes_in main_v6 rfl (by decide),
    writes_in main_v7 rfl (by decide), writes_in main_v8 rfl (by decide), writes_in main_v9 rfl (by decide),
    writes_in main_v10 rfl (by decide), writes_in main_c_1 rfl (by decide), writes_in main_v11 rfl (by decide),
    writes_in main_v12 rfl (by decide), writes_in main_c_2 rfl (by decide), writes_in main_v13 rfl (by decide),
    writes_in main_v14 rfl (by decide), writes_in main_v15 rfl (by decide), writes_in main_v16 rfl (by decide),
    writes_in main_v17 rfl (by decide), writes_in main_cst rfl (by decide), writes_in main_v18 rfl (by decide),
    writes_in main_v19 rfl (by decide), writes_in main_v20 rfl (by decide), writes_in main_v21 rfl (by decide),
    writes_in main_v22 rfl (by decide), writes_in main_v23 rfl (by decide), writes_in main_v24 rfl (by decide),
    writes_in main_v25 rfl (by decide), writes_in main_v26 rfl (by decide), writes_in (main_call0.cst.ref) rfl (by decide),
    writes_in (main_call0.v0.ref) rfl (by decide), writes_in (main_call0.v1.ref) rfl (by decide), writes_in (main_call0.cst_0.ref) rfl (by decide),
    writes_in (main_call0.v2.ref) rfl (by decide), writes_in (main_call0.v3.ref) rfl (by decide), writes_in (main_call0.call0.v0.ref) rfl (by decide),
    writes_in main_c_3 rfl (by decide), writes_in main_v28 rfl (by decide), writes_in main_v29 rfl (by decide),
    writes_in main_c_4 rfl (by decide), writes_in main_v30 rfl (by decide), writes_in main_v31 rfl (by decide),
    writes_in main_v32 rfl (by decide), writes_in main_v33 rfl (by decide), writes_in main_v34 rfl (by decide),
    writes_in main_cst_5 rfl (by decide), writes_in main_v35 rfl (by decide), writes_in main_v36 rfl (by decide),
    writes_in main_v37 rfl (by decide), writes_in main_v38 rfl (by decide), writes_in main_v39 rfl (by decide),
    writes_in main_v40 rfl (by decide), writes_in main_v41 rfl (by decide), writes_in main_v42 rfl (by decide),
    writes_in main_v43 rfl (by decide), writes_in (main_call1.cst.ref) rfl (by decide), writes_in (main_call1.v0.ref) rfl (by decide),
    writes_in (main_call1.v1.ref) rfl (by decide), writes_in (main_call1.cst_0.ref) rfl (by decide), writes_in (main_call1.v2.ref) rfl (by decide),
    writes_in (main_call1.v3.ref) rfl (by decide), writes_in (main_call1.call0.v0.ref) rfl (by decide), writes_in main_c_6 rfl (by decide),
    writes_in main_v45 rfl (by decide), writes_in main_v46 rfl (by decide), writes_in main_c_7 rfl (by decide),
    writes_in main_v47 rfl (by decide), writes_in main_v48 rfl (by decide), writes_in main_v49 rfl (by decide),
    writes_in main_v50 rfl (by decide), writes_in main_v51 rfl (by decide), writes_in main_cst_8 rfl (by decide),
    writes_in main_v52 rfl (by decide), writes_in main_v53 rfl (by decide), writes_in main_v54 rfl (by decide),
    writes_in main_v55 rfl (by decide), writes_in main_v56 rfl (by decide), writes_in main_v57 rfl (by decide),
    writes_in main_v58 rfl (by decide), writes_in main_v59 rfl (by decide), writes_in main_v60 rfl (by decide),
    writes_in (main_call2.cst.ref) rfl (by decide), writes_in (main_call2.v0.ref) rfl (by decide), writes_in (main_call2.v1.ref) rfl (by decide),
    writes_in (main_call2.cst_0.ref) rfl (by decide), writes_in (main_call2.v2.ref) rfl (by decide), writes_in (main_call2.v3.ref) rfl (by decide),
    writes_in (main_call2.call0.v0.ref) rfl (by decide), writes_in main_cst_9 rfl (by decide), writes_in main_v62 rfl (by decide),
    writes_in main_cst_10 rfl (by decide), writes_in main_v63 rfl (by decide), writes_in main_v64 rfl (by decide),
    writes_in main_v65 rfl (by decide), writes_in main_cst_11 rfl (by decide), writes_in main_v66 rfl (by decide),
    writes_in main_v67 rfl (by decide), writes_in main_cst_12 rfl (by decide), writes_in main_v68 rfl (by decide),
    writes_in main_v69 rfl (by decide), writes_in main_v70 rfl (by decide), writes_in main_v71 rfl (by decide),
    writes_in main_v72 rfl (by decide), writes_in main_v73 rfl (by decide), writes_in main_v74 rfl (by decide),
    writes_in main_v75 rfl (by decide), writes_in main_v76 rfl (by decide), writes_in main_v77 rfl (by decide),
    writes_in main_v78 rfl (by decide), writes_in main_v79 rfl (by decide), writes_in main_v80 rfl (by decide),
    writes_in main_cst_13 rfl (by decide), writes_in main_v81 rfl (by decide), writes_in main_v82 rfl (by decide),
    writes_in main_v83 rfl (by decide), writes_in main_v84 rfl (by decide), writes_in main_v85 rfl (by decide),
    writes_in main_v86 rfl (by decide), writes_in main_v87 rfl (by decide), writes_in main_v88 rfl (by decide),
    writes_in main_v89 rfl (by decide), writes_in main_v90 rfl (by decide), writes_in main_v91 rfl (by decide),
    writes_in main_v92 rfl (by decide), writes_in (main_call3.cst.ref) rfl (by decide), writes_in (main_call3.v0.ref) rfl (by decide),
    writes_in (main_call3.v1.ref) rfl (by decide), writes_in (main_call3.cst_0.ref) rfl (by decide), writes_in (main_call3.v2.ref) rfl (by decide),
    writes_in (main_call3.v3.ref) rfl (by decide), writes_in (main_call3.call0.v0.ref) rfl (by decide), writes_in main_v94 rfl (by decide),
    writes_in main_v95 rfl (by decide), writes_in main_v96 rfl (by decide), writes_in main_v97 rfl (by decide),
    writes_in main_v98 rfl (by decide), writes_in main_v99 rfl (by decide), writes_in main_v100 rfl (by decide),
    writes_in main_cst_14 rfl (by decide), writes_in main_v101 rfl (by decide), writes_in main_v102 rfl (by decide),
    writes_in main_v103 rfl (by decide), writes_in main_v104 rfl (by decide), writes_in main_v105 rfl (by decide),
    writes_in main_v106 rfl (by decide), writes_in main_v107 rfl (by decide), writes_in main_v108 rfl (by decide),
    writes_in main_v109 rfl (by decide), writes_in main_v110 rfl (by decide), writes_in main_v111 rfl (by decide),
    writes_in main_v112 rfl (by decide), writes_in (main_call4.cst.ref) rfl (by decide), writes_in (main_call4.v0.ref) rfl (by decide),
    writes_in (main_call4.v1.ref) rfl (by decide), writes_in (main_call4.cst_0.ref) rfl (by decide), writes_in (main_call4.v2.ref) rfl (by decide),
    writes_in (main_call4.v3.ref) rfl (by decide), writes_in (main_call4.call0.v0.ref) rfl (by decide), writes_in main_v114 rfl (by decide),
    writes_in main_v115 rfl (by decide), writes_in main_v116 rfl (by decide), writes_in main_v117 rfl (by decide),
    writes_in main_v118 rfl (by decide)⟩

/-- A buffer no operation writes holds after the operations what it held before. -/
theorem after_unwritten (V : Valuation τ sig (Elt F)) {r : Ref sig .tc} (hr : r ∉ written) :
    after ops V (r : DevRef τ sig) = V (r : DevRef τ sig) :=
  after_of_writes_sub ops V ops_writes hr

/-! No operation writes an argument's buffer: the fold leaves each as the launch contents had it. -/

theorem arg0_eq (V : Valuation τ sig (Elt F)) :
    after ops V (main_arg0 : DevRef τ sig) = V (main_arg0 : DevRef τ sig) := after_unwritten V (by decide)

theorem arg1_eq (V : Valuation τ sig (Elt F)) :
    after ops V (main_arg1 : DevRef τ sig) = V (main_arg1 : DevRef τ sig) := after_unwritten V (by decide)

theorem arg2_eq (V : Valuation τ sig (Elt F)) :
    after ops V (main_arg2 : DevRef τ sig) = V (main_arg2 : DevRef τ sig) := after_unwritten V (by decide)

theorem arg3_eq (V : Valuation τ sig (Elt F)) :
    after ops V (main_arg3 : DevRef τ sig) = V (main_arg3 : DevRef τ sig) := after_unwritten V (by decide)

theorem arg4_eq (V : Valuation τ sig (Elt F)) :
    after ops V (main_arg4 : DevRef τ sig) = V (main_arg4 : DevRef τ sig) := after_unwritten V (by decide)

theorem arg5_eq (V : Valuation τ sig (Elt F)) :
    after ops V (main_arg5 : DevRef τ sig) = V (main_arg5 : DevRef τ sig) := after_unwritten V (by decide)

theorem arg6_eq (V : Valuation τ sig (Elt F)) :
    after ops V (main_arg6 : DevRef τ sig) = V (main_arg6 : DevRef τ sig) := after_unwritten V (by decide)

theorem arg7_eq (V : Valuation τ sig (Elt F)) :
    after ops V (main_arg7 : DevRef τ sig) = V (main_arg7 : DevRef τ sig) := after_unwritten V (by decide)

theorem arg8_eq (V : Valuation τ sig (Elt F)) :
    after ops V (main_arg8 : DevRef τ sig) = V (main_arg8 : DevRef τ sig) := after_unwritten V (by decide)

theorem arg9_eq (V : Valuation τ sig (Elt F)) :
    after ops V (main_arg9 : DevRef τ sig) = V (main_arg9 : DevRef τ sig) := after_unwritten V (by decide)

theorem arg10_eq (V : Valuation τ sig (Elt F)) :
    after ops V (main_arg10 : DevRef τ sig) = V (main_arg10 : DevRef τ sig) := after_unwritten V (by decide)

theorem arg11_eq (V : Valuation τ sig (Elt F)) :
    after ops V (main_arg11 : DevRef τ sig) = V (main_arg11 : DevRef τ sig) := after_unwritten V (by decide)

theorem arg12_eq (V : Valuation τ sig (Elt F)) :
    after ops V (main_arg12 : DevRef τ sig) = V (main_arg12 : DevRef τ sig) := after_unwritten V (by decide)

theorem arg13_eq (V : Valuation τ sig (Elt F)) :
    after ops V (main_arg13 : DevRef τ sig) = V (main_arg13 : DevRef τ sig) := after_unwritten V (by decide)

theorem arg14_eq (V : Valuation τ sig (Elt F)) :
    after ops V (main_arg14 : DevRef τ sig) = V (main_arg14 : DevRef τ sig) := after_unwritten V (by decide)

theorem arg15_eq (V : Valuation τ sig (Elt F)) :
    after ops V (main_arg15 : DevRef τ sig) = V (main_arg15 : DevRef τ sig) := after_unwritten V (by decide)

theorem arg16_eq (V : Valuation τ sig (Elt F)) :
    after ops V (main_arg16 : DevRef τ sig) = V (main_arg16 : DevRef τ sig) := after_unwritten V (by decide)

theorem arg17_eq (V : Valuation τ sig (Elt F)) :
    after ops V (main_arg17 : DevRef τ sig) = V (main_arg17 : DevRef τ sig) := after_unwritten V (by decide)

theorem arg18_eq (V : Valuation τ sig (Elt F)) :
    after ops V (main_arg18 : DevRef τ sig) = V (main_arg18 : DevRef τ sig) := after_unwritten V (by decide)

theorem arg19_eq (V : Valuation τ sig (Elt F)) :
    after ops V (main_arg19 : DevRef τ sig) = V (main_arg19 : DevRef τ sig) := after_unwritten V (by decide)

theorem arg20_eq (V : Valuation τ sig (Elt F)) :
    after ops V (main_arg20 : DevRef τ sig) = V (main_arg20 : DevRef τ sig) := after_unwritten V (by decide)

theorem arg21_eq (V : Valuation τ sig (Elt F)) :
    after ops V (main_arg21 : DevRef τ sig) = V (main_arg21 : DevRef τ sig) := after_unwritten V (by decide)

theorem arg22_eq (V : Valuation τ sig (Elt F)) :
    after ops V (main_arg22 : DevRef τ sig) = V (main_arg22 : DevRef τ sig) := after_unwritten V (by decide)

theorem arg23_eq (V : Valuation τ sig (Elt F)) :
    after ops V (main_arg23 : DevRef τ sig) = V (main_arg23 : DevRef τ sig) := after_unwritten V (by decide)

theorem arg24_eq (V : Valuation τ sig (Elt F)) :
    after ops V (main_arg24 : DevRef τ sig) = V (main_arg24 : DevRef τ sig) := after_unwritten V (by decide)

theorem arg25_eq (V : Valuation τ sig (Elt F)) :
    after ops V (main_arg25 : DevRef τ sig) = V (main_arg25 : DevRef τ sig) := after_unwritten V (by decide)

theorem arg26_eq (V : Valuation τ sig (Elt F)) :
    after ops V (main_arg26 : DevRef τ sig) = V (main_arg26 : DevRef τ sig) := after_unwritten V (by decide)

end Cert.ReferenceIdeal.RefRun

end
-- ==== Proof.RefOut.lean ====
/-
  The reference program's result as a function of the argument arrays: its operations, composed in order, are the
  network of Model.lean — the embedded labels, three rounds of message passing, the per-graph means, the perceptron.
-/
import proofs.«153378_j9809705305013_1_alg».proof.Proof.RefRun
import proofs.«153378_j9809705305013_1_alg».proof.Proof.Model

set_option maxRecDepth 16384

noncomputable section

namespace Cert.ReferenceIdeal.RefOut

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

-- the gathers and scatters stay folded: the equation holds with them as opaque functions of their operands
attribute [local irreducible] Host.gather Host.scatterAdd in
set_option maxHeartbeats 40000000 in
/-- The result buffer ends at the network of the argument arrays: each operation's result read at its own buffer is its
    function of its operands' contents, every other buffer is left as it was, and the composed term is the network's by
    unfolding its definitions. -/
theorem out_eq (V : Valuation τ sig (Elt F)) : after ops V (Proc.devRef .tc main_v118)
    = Cert.Spec.model (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  after_results_simp; rfl

/-- Every weakly fair execution of the reference terminates with the result at the network of the argument arrays and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = Cert.Spec.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v118).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c)),
      (h c main_arg21).trans (arg21_eq (launchContents m c)),
      (h c main_arg22).trans (arg22_eq (launchContents m c)),
      (h c main_arg23).trans (arg23_eq (launchContents m c)),
      (h c main_arg24).trans (arg24_eq (launchContents m c)),
      (h c main_arg25).trans (arg25_eq (launchContents m c)),
      (h c main_arg26).trans (arg26_eq (launchContents m c))⟩)
    (run_main m ρ)

end Cert.ReferenceIdeal.RefOut

end
-- ==== Proof.lean ====
/-
  The certificate of a graph network's kernel program against its array-language reference.

  Both programs compute the same network of the argument arrays (Proof/Model.lean): node features gathered from an
  embedding table, three rounds of message passing `h ↦ leaky(A·W_rel + b + h·W_root)` with `A` the edge-wise sum of
  neighbours' features, the mean over each graph's nodes, and a three-layer perceptron with two normalisations. The
  reference does all of it with whole-array operations; the kernel program does the gathers, the edge sums and the
  means with the same whole-array operations and runs each round's matrix products and the perceptron in kernel
  regions tiled over rows (2000 nodes, resp. 1024 graphs, per grid point).

  On the extended reals the two agree exactly: a change of float format is the identity, a matrix product into a zero
  accumulator is the plain sum of products whatever the tiling, a lane reduction is a plain sum, and the one
  difference in the order of operations — the kernel adds the bias after both products, the reference between them —
  is commutativity and associativity of addition, which hold on the extended reals without any finiteness. So the
  precondition is never opened.

  The pieces: Proof/KRun.lean (the kernel program's run with its final contents named), Proof/ConvValue.lean and
  Proof/MlpValue.lean (each region's output array as a whole-array function of the arrays it was entered with),
  Proof/KHost.lean and Proof/KChain.lean (the walk along the program to the result as a function of the arguments),
  Proof/RefRun.lean and Proof/RefOut.lean (the reference's run and its result as the same function). The three
  frames are the generated frames (the reference's is its run with the result dropped); the kernel's idealization
  rewrote nothing, so there is nothing to preserve.
-/
import proofs.«153378_j9809705305013_1_alg».proof.Defs
import proofs.«153378_j9809705305013_1_alg».proof.Proof.Gen.Kernel
import proofs.«153378_j9809705305013_1_alg».proof.Proof.Gen.Kernel.Frame
import proofs.«153378_j9809705305013_1_alg».proof.Proof.Gen.KernelIdeal
import proofs.«153378_j9809705305013_1_alg».proof.Proof.Gen.KernelIdeal.Frame
import proofs.«153378_j9809705305013_1_alg».proof.Proof.Gen.ReferenceIdeal
import proofs.«153378_j9809705305013_1_alg».proof.Proof.Gen.Pre_finite_inputs
import proofs.«153378_j9809705305013_1_alg».proof.Proof.KRun
import proofs.«153378_j9809705305013_1_alg».proof.Proof.KChain
import proofs.«153378_j9809705305013_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefOut.run (F := Ideal) m ρ)

/-- The idealization rewrote nothing. -/
theorem preserves : Cert.preserves_Kernel_KernelIdeal := trivial

set_option maxHeartbeats 4000000 in
/-- Both programs end with the result at the network of the argument arrays, which agree. -/
theorem algebraic : Cert.algebraic_KernelIdeal_ReferenceIdeal := by
  intro m ρ m' ρ' _ hagree
  refine ⟨fun c => Cert.Spec.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)),
    (θ_run Cert.KernelIdeal.defs _ _).mono (fun _ h c => ⟨(h c).1.trans (Cert.KernelIdeal.KChain.out_eq m ρ c), (h c).2⟩)
      (Cert.KernelIdeal.KRun.run_out (F := Ideal) m ρ), ?_⟩
  refine (θ_run Cert.ReferenceIdeal.defs _ _).mono (fun _ h c => ⟨(h c).1.trans ?_, (h c).2⟩)
    (Cert.ReferenceIdeal.RefOut.run (F := Ideal) m' ρ')
  obtain ⟨a0, a1, a2, a3, a4, a5, a6, a7, a8, a9, a10, a11, a12, a13, a14, a15, a16, a17, a18, a19, a20, a21, a22, a23, a24, a25, a26⟩ := hagree c
  rw [a0, a1, a2, a3, a4, a5, a6, a7, a8, a9, a10, a11, a12, a13, a14, a15, a16, a17, a18, a19, a20, a21, a22, a23, a24, a25, a26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
